-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)) →
    ∃ (v0 : (c : Dev Cert.KernelIdeal.nD) → Buf (Elt Ideal) ((c.tc : Thread Cert.KernelIdeal.nD Cert.KernelIdeal.τ).loc Cert.KernelIdeal.main_v32)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v32) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v51) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x128 : Shape := ⟨2, ![100000, 128]⟩
abbrev S1600000 : Shape := ⟨1, ![1600000]⟩
abbrev S128x128 : Shape := ⟨2, ![128, 128]⟩
abbrev S128 : Shape := ⟨1, ![128]⟩
abbrev S128x16 : Shape := ⟨2, ![128, 16]⟩
abbrev S16 : Shape := ⟨1, ![16]⟩
abbrev S_ : Shape := ⟨0, ![]⟩

class Facts : Prop where
  bcast_S_S100000x128 : S_.BroadcastsInDim S100000x128 (![] : Fin 0 → Fin S100000x128.rank)
  reducesTo_S100000x128_S_d0_1 : S100000x128.ReducesTo [0, 1] S_
  h_S_ : 0 < S_.numel
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_
  bcast_S_S128x16 : S_.BroadcastsInDim S128x16 (![] : Fin 0 → Fin S128x16.rank)
  reducesTo_S128x16_S_d0_1 : S128x16.ReducesTo [0, 1] S_
  bcast_S_S16 : S_.BroadcastsInDim S16 (![] : Fin 0 → Fin S16.rank)
  reducesTo_S16_S_d0 : S16.ReducesTo [0] S_

variable [Facts]

def fn_part1 {F : FTy → Type} [FloatOps F] (main_arg6 : FVec F S128x16 .f32) (main_arg7 : FVec F S128x16 .f32) (main_arg8 : FVec F S16 .f32) (main_v13 : IVec S_ 1) (main_v16 : IVec S128 1) : IVec S_ 1 :=
  let main_c_5 : IVec S_ 1 := constantI S_ 1 1#1
  let main_v17 : IVec S_ 1 := (fun x v => Host.reduce IntOp.andi x v reducesTo_S128_S_d0 h_S_) main_v16 main_c_5
  let main_v18 : IVec S_ 1 := andi main_v13 main_v17
  let main_v19 : FVec F S128x16 .f32 := Host.absf main_arg6
  let main_cst_6 : FVec F S_ .f32 := constant S_ .f32 0x7F800000#32
  let main_v20 : FVec F S128x16 .f32 := broadcastInDim S128x16 ![] bcast_S_S128x16 main_cst_6
  let main_v21 : IVec S128x16 1 := cmpf .olt main_v19 main_v20
  let main_c_7 : IVec S_ 1 := constantI S_ 1 1#1
  let main_v22 : IVec S_ 1 := (fun x v => Host.reduce IntOp.andi x v reducesTo_S128x16_S_d0_1 h_S_) main_v21 main_c_7
  let main_v23 : IVec S_ 1 := andi main_v18 main_v22
  let main_v24 : FVec F S128x16 .f32 := Host.absf main_arg7
  let main_cst_8 : FVec F S_ .f32 := constant S_ .f32 0x7F800000#32
  let main_v25 : FVec F S128x16 .f32 := broadcastInDim S128x16 ![] bcast_S_S128x16 main_cst_8
  let main_v26 : IVec S128x16 1 := cmpf .olt main_v24 main_v25
  let main_c_9 : IVec S_ 1 := constantI S_ 1 1#1
  let main_v27 : IVec S_ 1 := (fun x v => Host.reduce IntOp.andi x v reducesTo_S128x16_S_d0_1 h_S_) main_v26 main_c_9
  let main_v28 : IVec S_ 1 := andi main_v23 main_v27
  let main_v29 : FVec F S16 .f32 := Host.absf main_arg8
  let main_cst_10 : FVec F S_ .f32 := constant S_ .f32 0x7F800000#32
  let main_v30 : FVec F S16 .f32 := broadcastInDim S16 ![] bcast_S_S16 main_cst_10
  let main_v31 : IVec S16 1 := cmpf .olt main_v29 main_v30
  let main_c_11 : IVec S_ 1 := constantI S_ 1 1#1
  let main_v32 : IVec S_ 1 := (fun x v => Host.reduce IntOp.andi x v reducesTo_S16_S_d0 h_S_) main_v31 main_c_11
  let main_v33 : IVec S_ 1 := andi main_v28 main_v32
  main_v33

def fn {F : FTy → Type} [FloatOps F] (main_arg0 : FVec F S100000x128 .f32) (main_arg1 : IVec S1600000 32) (main_arg2 : IVec S1600000 32) (main_arg3 : FVec F S128x128 .f32) (main_arg4 : FVec F S128x128 .f32) (main_arg5 : FVec F S128 .f32) (main_arg6 : FVec F S128x16 .f32) (main_arg7 : FVec F S128x16 .f32) (main_arg8 : FVec F S16 .f32) : IVec S_ 1 :=
  let main_v0 : FVec F S100000x128 .f32 := Host.absf main_arg0
  let main_cst : FVec F S_ .f32 := constant S_ .f32 0x7F800000#32
  let main_v1 : FVec F S100000x128 .f32 := broadcastInDim S100000x128 ![] bcast_S_S100000x128 main_cst
  let main_v2 : IVec S100000x128 1 := cmpf .olt main_v0 main_v1
  let main_c : IVec S_ 1 := constantI S_ 1 1#1
  let main_v3 : IVec S_ 1 := (fun x v => Host.reduce IntOp.andi x v reducesTo_S100000x128_S_d0_1 h_S_) main_v2 main_c
  let main_v4 : FVec F S128x128 .f32 := Host.absf main_arg3
  let main_cst_0 : FVec F S_ .f32 := constant S_ .f32 0x7F800000#32
  let main_v5 : FVec F S128x128 .f32 := broadcastInDim S128x128 ![] bcast_S_S128x128 main_cst_0
  let main_v6 : IVec S128x128 1 := cmpf .olt main_v4 main_v5
  let main_c_1 : IVec S_ 1 := constantI S_ 1 1#1
  let main_v7 : IVec S_ 1 := (fun x v => Host.reduce IntOp.andi x v reducesTo_S128x128_S_d0_1 h_S_) main_v6 main_c_1
  let main_v8 : IVec S_ 1 := andi main_v3 main_v7
  let main_v9 : FVec F S128x128 .f32 := Host.absf main_arg4
  let main_cst_2 : FVec F S_ .f32 := constant S_ .f32 0x7F800000#32
  let main_v10 : FVec F S128x128 .f32 := broadcastInDim S128x128 ![] bcast_S_S128x128 main_cst_2
  let main_v11 : IVec S128x128 1 := cmpf .olt main_v9 main_v10
  let main_c_3 : IVec S_ 1 := constantI S_ 1 1#1
  let main_v12 : IVec S_ 1 := (fun x v => Host.reduce IntOp.andi x v reducesTo_S128x128_S_d0_1 h_S_) main_v11 main_c_3
  let main_v13 : IVec S_ 1 := andi main_v8 main_v12
  let main_v14 : FVec F S128 .f32 := Host.absf main_arg5
  let main_cst_4 : FVec F S_ .f32 := constant S_ .f32 0x7F800000#32
  let main_v15 : FVec F S128 .f32 := broadcastInDim S128 ![] bcast_S_S128 main_cst_4
  let main_v16 : IVec S128 1 := cmpf .olt main_v14 main_v15
  fn_part1 (F := F) main_arg6 main_arg7 main_arg8 main_v13 main_v16
-- ==== Kernel.lean ====
abbrev S100000x128 : Shape := ⟨2, ![100000, 128]⟩
abbrev S1600000 : Shape := ⟨1, ![1600000]⟩
abbrev S128x128 : Shape := ⟨2, ![128, 128]⟩
abbrev S128 : Shape := ⟨1, ![128]⟩
abbrev S128x16 : Shape := ⟨2, ![128, 16]⟩
abbrev S16 : Shape := ⟨1, ![16]⟩
abbrev S_ : Shape := ⟨0, ![]⟩
abbrev S100000 : Shape := ⟨1, ![100000]⟩
abbrev S1600000x1 : Shape := ⟨2, ![1600000, 1]⟩
abbrev S100000x1 : Shape := ⟨2, ![100000, 1]⟩
abbrev S1600000x128 : Shape := ⟨2, ![1600000, 128]⟩
abbrev S1x128 : Shape := ⟨2, ![1, 128]⟩
abbrev S100000x16 : Shape := ⟨2, ![100000, 16]⟩
abbrev S4000x128 : Shape := ⟨2, ![4000, 128]⟩
abbrev S4000x1 : Shape := ⟨2, ![4000, 1]⟩
abbrev S4000x16 : Shape := ⟨2, ![4000, 16]⟩
abbrev S1600000x16 : Shape := ⟨2, ![1600000, 16]⟩
abbrev S1x16 : Shape := ⟨2, ![1, 16]⟩
abbrev S4000 : Shape := ⟨1, ![4000]⟩

abbrev nBuf : Space → Nat
  | .hbm => 53
  | .vmem => 24
  | .smem => 0
  | _ => 0

abbrev bufTy : (tb : Table) → Fin (tcTables nBuf tb) → BufTy
  | .hbm, ⟨0, _⟩ => ⟨S100000x128, .f32⟩
  | .hbm, ⟨1, _⟩ => ⟨S1600000, .i32⟩
  | .hbm, ⟨2, _⟩ => ⟨S1600000, .i32⟩
  | .hbm, ⟨3, _⟩ => ⟨S128x128, .f32⟩
  | .hbm, ⟨4, _⟩ => ⟨S128x128, .f32⟩
  | .hbm, ⟨5, _⟩ => ⟨S128, .f32⟩
  | .hbm, ⟨6, _⟩ => ⟨S128x16, .f32⟩
  | .hbm, ⟨7, _⟩ => ⟨S128x16, .f32⟩
  | .hbm, ⟨8, _⟩ => ⟨S16, .f32⟩
  | .hbm, ⟨9, _⟩ => ⟨S_, .f32⟩
  | .hbm, ⟨10, _⟩ => ⟨S1600000, .f32⟩
  | .hbm, ⟨11, _⟩ => ⟨S_, .f32⟩
  | .hbm, ⟨12, _⟩ => ⟨S100000, .f32⟩
  | .hbm, ⟨13, _⟩ => ⟨S1600000x1, .i32⟩
  | .hbm, ⟨14, _⟩ => ⟨S100000, .f32⟩
  | .hbm, ⟨15, _⟩ => ⟨S_, .f32⟩
  | .hbm, ⟨16, _⟩ => ⟨S100000, .f32⟩
  | .hbm, ⟨17, _⟩ => ⟨S100000, .f32⟩
  | .hbm, ⟨18, _⟩ => ⟨S_, .f32⟩
  | .hbm, ⟨19, _⟩ => ⟨S100000, .f32⟩
  | .hbm, ⟨20, _⟩ => ⟨S100000, .f32⟩
  | .hbm, ⟨21, _⟩ => ⟨S100000x1, .f32⟩
  | .hbm, ⟨22, _⟩ => ⟨S_, .i32⟩
  | .hbm, ⟨23, _⟩ => ⟨S1600000, .i32⟩
  | .hbm, ⟨24, _⟩ => ⟨S1600000, .i1⟩
  | .hbm, ⟨25, _⟩ => ⟨S_, .i32⟩
  | .hbm, ⟨26, _⟩ => ⟨S1600000, .i32⟩
  | .hbm, ⟨27, _⟩ => ⟨S1600000, .i32⟩
  | .hbm, ⟨28, _⟩ => ⟨S1600000, .i32⟩
  | .hbm, ⟨29, _⟩ => ⟨S1600000x1, .i32⟩
  | .hbm, ⟨30, _⟩ => ⟨S1600000x128, .f32⟩
  | .hbm, ⟨31, _⟩ => ⟨S_, .f32⟩
  | .hbm, ⟨32, _⟩ => ⟨S100000x128, .f32⟩
  | .hbm, ⟨33, _⟩ => ⟨S1600000x1, .i32⟩
  | .hbm, ⟨34, _⟩ => ⟨S100000x128, .f32⟩
  | .hbm, ⟨35, _⟩ => ⟨S1x128, .f32⟩
  | .hbm, ⟨36, _⟩ => ⟨S100000x128, .bf16⟩
  | .hbm, ⟨37, _⟩ => ⟨S100000x16, .f32⟩
  | .hbm, ⟨38, _⟩ => ⟨S_, .i32⟩
  | .hbm, ⟨39, _⟩ => ⟨S1600000, .i32⟩
  | .hbm, ⟨40, _⟩ => ⟨S1600000, .i1⟩
  | .hbm, ⟨41, _⟩ => ⟨S_, .i32⟩
  | .hbm, ⟨42, _⟩ => ⟨S1600000, .i32⟩
  | .hbm, ⟨43, _⟩ => ⟨S1600000, .i32⟩
  | .hbm, ⟨44, _⟩ => ⟨S1600000, .i32⟩
  | .hbm, ⟨45, _⟩ => ⟨S1600000x1, .i32⟩
  | .hbm, ⟨46, _⟩ => ⟨S1600000x16, .f32⟩
  | .hbm, ⟨47, _⟩ => ⟨S_, .f32⟩
  | .hbm, ⟨48, _⟩ => ⟨S100000x16, .f32⟩
  | .hbm, ⟨49, _⟩ => ⟨S1600000x1, .i32⟩
  | .hbm, ⟨50, _⟩ => ⟨S100000x16, .f32⟩
  | .hbm, ⟨51, _⟩ => ⟨S1x16, .f32⟩
  | .hbm, ⟨52, _⟩ => ⟨S100000x16, .f32⟩
  | .local _ .vmem, ⟨0, _⟩ => ⟨S4000x128, .f32⟩
  | .local _ .vmem, ⟨1, _⟩ => ⟨S4000x128, .f32⟩
  | .local _ .vmem, ⟨2, _⟩ => ⟨S4000x128, .f32⟩
  | .local _ .vmem, ⟨3, _⟩ => ⟨S4000x128, .f32⟩
  | .local _ .vmem, ⟨4, _⟩ => ⟨S4000x1, .f32⟩
  | .local _ .vmem, ⟨5, _⟩ => ⟨S4000x1, .f32⟩
  | .local _ .vmem, ⟨6, _⟩ => ⟨S128x128, .f32⟩
  | .local _ .vmem, ⟨7, _⟩ => ⟨S128x128, .f32⟩
  | .local _ .vmem, ⟨8, _⟩ => ⟨S1x128, .f32⟩
  | .local _ .vmem, ⟨9, _⟩ => ⟨S128x16, .f32⟩
  | .local _ .vmem, ⟨10, _⟩ => ⟨S4000x128, .bf16⟩
  | .local _ .vmem, ⟨11, _⟩ => ⟨S4000x128, .bf16⟩
  | .local _ .vmem, ⟨12, _⟩ => ⟨S4000x16, .f32⟩
  | .local _ .vmem, ⟨13, _⟩ => ⟨S4000x16, .f32⟩
  | .local _ .vmem, ⟨14, _⟩ => ⟨S4000x128, .bf16⟩
  | .local _ .vmem, ⟨15, _⟩ => ⟨S4000x128, .bf16⟩
  | .local _ .vmem, ⟨16, _⟩ => ⟨S4000x16, .f32⟩
  | .local _ .vmem, ⟨17, _⟩ => ⟨S4000x16, .f32⟩
  | .local _ .vmem, ⟨18, _⟩ => ⟨S4000x1, .f32⟩
  | .local _ .vmem, ⟨19, _⟩ => ⟨S4000x1, .f32⟩
  | .local _ .vmem, ⟨20, _⟩ => ⟨S128x16, .f32⟩
  | .local _ .vmem, ⟨21, _⟩ => ⟨S1x16, .f32⟩
  | .local _ .vmem, ⟨22, _⟩ => ⟨S4000x16, .f32⟩
  | .local _ .vmem, ⟨23, _⟩ => ⟨S4000x16, .f32⟩
  | _, _ => ⟨S100000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | _, _ => false

abbrev semScoped : Fin 0 → Bool
  | ⟨_, h⟩ => absurd h (Nat.not_lt_zero _)

abbrev dmaSemScoped : Fin 24 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | _ => false

abbrev sig : RefSig :=
  ofTc nBuf bufTy 0 24 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_cst : Ref sig .tc := ⟨.hbm, 9, rfl⟩
abbrev main_v0 : Ref sig .tc := ⟨.hbm, 10, rfl⟩
abbrev main_cst_0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_cst_1 : Ref sig .tc := ⟨.hbm, 15, rfl⟩
abbrev main_v4 : Ref sig .tc := ⟨.hbm, 16, rfl⟩
abbrev main_v5 : Ref sig .tc := ⟨.hbm, 17, rfl⟩
abbrev main_cst_2 : Ref sig .tc := ⟨.hbm, 18, rfl⟩
abbrev main_v6 : Ref sig .tc := ⟨.hbm, 19, rfl⟩
abbrev main_v7 : Ref sig .tc := ⟨.hbm, 20, rfl⟩
abbrev main_v8 : Ref sig .tc := ⟨.hbm, 21, rfl⟩
abbrev main_c : Ref sig .tc := ⟨.hbm, 22, rfl⟩
abbrev main_v9 : Ref sig .tc := ⟨.hbm, 23, rfl⟩
abbrev main_v10 : Ref sig .tc := ⟨.hbm, 24, rfl⟩
abbrev main_c_3 : Ref sig .tc := ⟨.hbm, 25, rfl⟩
abbrev main_v11 : Ref sig .tc := ⟨.hbm, 26, rfl⟩
abbrev main_v12 : Ref sig .tc := ⟨.hbm, 27, rfl⟩
abbrev main_v13 : Ref sig .tc := ⟨.hbm, 28, rfl⟩
abbrev main_v14 : Ref sig .tc := ⟨.hbm, 29, rfl⟩
abbrev main_v15 : Ref sig .tc := ⟨.hbm, 30, rfl⟩
abbrev main_cst_4 : Ref sig .tc := ⟨.hbm, 31, rfl⟩
abbrev main_v16 : Ref sig .tc := ⟨.hbm, 32, rfl⟩
abbrev main_v17 : Ref sig .tc := ⟨.hbm, 33, rfl⟩
abbrev main_v18 : Ref sig .tc := ⟨.hbm, 34, rfl⟩
abbrev main_v19 : Ref sig .tc := ⟨.hbm, 35, rfl⟩
abbrev main_v20_0 : Ref sig .tc := ⟨.hbm, 36, rfl⟩
abbrev main_v20_1 : Ref sig .tc := ⟨.hbm, 37, rfl⟩
abbrev main_c_5 : Ref sig .tc := ⟨.hbm, 38, rfl⟩
abbrev main_v21 : Ref sig .tc := ⟨.hbm, 39, rfl⟩
abbrev main_v22 : Ref sig .tc := ⟨.hbm, 40, rfl⟩
abbrev main_c_6 : Ref sig .tc := ⟨.hbm, 41, rfl⟩
abbrev main_v23 : Ref sig .tc := ⟨.hbm, 42, rfl⟩
abbrev main_v24 : Ref sig .tc := ⟨.hbm, 43, rfl⟩
abbrev main_v25 : Ref sig .tc := ⟨.hbm, 44, rfl⟩
abbrev main_v26 : Ref sig .tc := ⟨.hbm, 45, rfl⟩
abbrev main_v27 : Ref sig .tc := ⟨.hbm, 46, rfl⟩
abbrev main_cst_7 : Ref sig .tc := ⟨.hbm, 47, rfl⟩
abbrev main_v28 : Ref sig .tc := ⟨.hbm, 48, rfl⟩
abbrev main_v29 : Ref sig .tc := ⟨.hbm, 49, rfl⟩
abbrev main_v30 : Ref sig .tc := ⟨.hbm, 50, rfl⟩
abbrev main_v31 : Ref sig .tc := ⟨.hbm, 51, rfl⟩
abbrev main_v32 : Ref sig .tc := ⟨.hbm, 52, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg7_1 : Ref sig .tc := ⟨.vmem, 11, rfl⟩
abbrev cc0_stg8_0 : Ref sig .tc := ⟨.vmem, 12, rfl⟩
abbrev cc0_stg8_1 : Ref sig .tc := ⟨.vmem, 13, rfl⟩
abbrev cc1_stg0_0 : Ref sig .tc := ⟨.vmem, 14, rfl⟩
abbrev cc1_stg0_1 : Ref sig .tc := ⟨.vmem, 15, rfl⟩
abbrev cc1_stg1_0 : Ref sig .tc := ⟨.vmem, 16, rfl⟩
abbrev cc1_stg1_1 : Ref sig .tc := ⟨.vmem, 17, rfl⟩
abbrev cc1_stg2_0 : Ref sig .tc := ⟨.vmem, 18, rfl⟩
abbrev cc1_stg2_1 : Ref sig .tc := ⟨.vmem, 19, rfl⟩
abbrev cc1_stg3_0 : Ref sig .tc := ⟨.vmem, 20, rfl⟩
abbrev cc1_stg4_0 : Ref sig .tc := ⟨.vmem, 21, rfl⟩
abbrev cc1_stg5_0 : Ref sig .tc := ⟨.vmem, 22, rfl⟩
abbrev cc1_stg5_1 : Ref sig .tc := ⟨.vmem, 23, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem7_0 : DmaSem sig := 10
abbrev cc0_sem7_1 : DmaSem sig := 11
abbrev cc0_sem8_0 : DmaSem sig := 12
abbrev cc0_sem8_1 : DmaSem sig := 13
abbrev cc1_sem0_0 : DmaSem sig := 14
abbrev cc1_sem0_1 : DmaSem sig := 15
abbrev cc1_sem1_0 : DmaSem sig := 16
abbrev cc1_sem1_1 : DmaSem sig := 17
abbrev cc1_sem2_0 : DmaSem sig := 18
abbrev cc1_sem2_1 : DmaSem sig := 19
abbrev cc1_sem3_0 : DmaSem sig := 20
abbrev cc1_sem4_0 : DmaSem sig := 21
abbrev cc1_sem5_0 : DmaSem sig := 22
abbrev cc1_sem5_1 : DmaSem sig := 23

abbrev nD : Nat := 1
abbrev τ : Topo := Topo.v7x

variable {F : FTy → Type} [FloatOps F]

abbrev grid0 : Pipeline.Grid := ⟨1, ![25], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S4000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S4000x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S4000x1 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S128x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S128x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S128x16 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S4000x128 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S4000x16 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev grid1 : Pipeline.Grid := ⟨1, ![25], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S4000x128 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S4000x16 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S4000x1 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 1 → Memref sig .tc .vmem S128x16 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S1x16 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 2 → Memref sig .tc .vmem S4000x16 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true]

class Facts₀ : Prop where
  bcast_S_S1600000 : S_.BroadcastsInDim S1600000 (![] : Fin 0 → Fin S1600000.rank)
  bcast_S_S100000 : S_.BroadcastsInDim S100000 (![] : Fin 0 → Fin S100000.rank)
  bcast_S1600000_S1600000x1_0 : S1600000.BroadcastsInDim S1600000x1 (![0] : Fin 1 → Fin S1600000x1.rank)
  shapeCasts_S100000_S100000x1 : S100000.ShapeCasts S100000x1
  bcast_S_S100000x128 : S_.BroadcastsInDim S100000x128 (![] : Fin 0 → Fin S100000x128.rank)
  shapeCasts_S128_S1x128 : S128.ShapeCasts S1x128
  inb_S4000x128_S4000x128_0_0 : ∀ a, (![0, 0] : Fin 2 → Nat) a + S4000x128.size a ≤ S4000x128.size a
  h_S4000x128 : 0 < S4000x128.numel
  bitsLt_bf16_f32 : FTy.bits .bf16 < FTy.bits .f32
  shapeCasts_S4000x128_S4000x128 : S4000x128.ShapeCasts S4000x128
  inb_S4000x1_S4000x1_0_0 : ∀ a, (![0, 0] : Fin 2 → Nat) a + S4000x1.size a ≤ S4000x1.size a
  h_S4000x1 : 0 < S4000x1.numel
  shapeCasts_S4000x1_S4000x1 : S4000x1.ShapeCasts S4000x1
  broadcasts_S4000x1_S4000x128 : S4000x1.Broadcasts S4000x128
  inb_S128x128_S128x128_0_0 : ∀ a, (![0, 0] : Fin 2 → Nat) a + S128x128.size a ≤ S128x128.size a
  h_S128x128 : 0 < S128x128.numel
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S4000x128 : S1x128.Broadcasts S4000x128
  packedbf16_S4000x128_S4000x128_0_0 : (Rect.unit (s := S4000x128) ![0, 0] S4000x128.size inb_S4000x128_S4000x128_0_0).PackedRows (EltTy.packing .bf16)
  inb_S128x16_S128x16_0_0 : ∀ a, (![0, 0] : Fin 2 → Nat) a + S128x16.size a ≤ S128x16.size a
  h_S128x16 : 0 < S128x16.numel
  inb_S4000x16_S4000x16_0_0 : ∀ a, (![0, 0] : Fin 2 → Nat) a + S4000x16.size a ≤ S4000x16.size a
  h_S4000x16 : 0 < S4000x16.numel
  bcast_S_S100000x16 : S_.BroadcastsInDim S100000x16 (![] : Fin 0 → Fin S100000x16.rank)
  shapeCasts_S16_S1x16 : S16.ShapeCasts S1x16
  shapeCasts_S4000x16_S4000x16 : S4000x16.ShapeCasts S4000x16
  broadcasts_S4000x1_S4000x16 : S4000x1.Broadcasts S4000x16
  inb_S1x16_S1x16_0_0 : ∀ a, (![0, 0] : Fin 2 → Nat) a + S1x16.size a ≤ S1x16.size a
  h_S1x16 : 0 < S1x16.numel
  shapeCasts_S1x16_S1x16 : S1x16.ShapeCasts S1x16
  broadcasts_S1x16_S4000x16 : S1x16.Broadcasts S4000x16
  reduces_S4000x16_S4000 : S4000x16.Reduces [1] S4000
  shapeCasts_S4000_S4000x1 : S4000.ShapeCasts S4000x1
  scatter_S100000_S1600000x1_S1600000_n_0_0_1_wf : ScatterDims.WF S100000 S1600000x1 S1600000 [] [0] [0] 1
  gather_S100000x128_S1600000x1_S1600000x128_1_0_n_n_0_1_1128_wf : GatherDims.WF S100000x128 S1600000x1 S1600000x128 [1] [0] [] [0] [] 1 ![1, 128]
  scatter_S100000x128_S1600000x1_S1600000x128_1_0_0_1_wf : ScatterDims.WF S100000x128 S1600000x1 S1600000x128 [1] [0] [0] 1
  dot_S4000x128_S128x128_S4000x128_1_0_0_1_n_n_wf : DotDims.WF S4000x128 S128x128 S4000x128 [1] [0] [0] [1] [] []
  dot_S4000x128_S128x16_S4000x16_1_0_0_1_n_n_wf : DotDims.WF S4000x128 S128x16 S4000x16 [1] [0] [0] [1] [] []
  gather_S100000x16_S1600000x1_S1600000x16_1_0_n_n_0_1_116_wf : GatherDims.WF S100000x16 S1600000x1 S1600000x16 [1] [0] [] [0] [] 1 ![1, 16]
  scatter_S100000x16_S1600000x1_S1600000x16_1_0_0_1_wf : ScatterDims.WF S100000x16 S1600000x1 S1600000x16 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S4000x128.size a ≤ S100000x128.size a
  hwx0_0 : ∀ i : grid0.Coords, EltTy.bits .f32 = 32 ∨ (Rect.block (s := S100000x128) S4000x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S4000x128.size a ≤ S100000x128.size a
  hwx0_1 : ∀ i : grid0.Coords, EltTy.bits .f32 = 32 ∨ (Rect.block (s := S100000x128) S4000x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S4000x1.size a ≤ S100000x1.size a
  hwx0_2 : ∀ i : grid0.Coords, EltTy.bits .f32 = 32 ∨ (Rect.block (s := S100000x1) S4000x1.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S128x128.size a ≤ S128x128.size a
  hwx0_3 : ∀ i : grid0.Coords, EltTy.bits .f32 = 32 ∨ (Rect.block (s := S128x128) S128x128.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S128x128.size a ≤ S128x128.size a
  hwx0_4 : ∀ i : grid0.Coords, EltTy.bits .f32 = 32 ∨ (Rect.block (s := S128x128) S128x128.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S1x128.size a ≤ S1x128.size a
  hwx0_5 : ∀ i : grid0.Coords, EltTy.bits .f32 = 32 ∨ (Rect.block (s := S1x128) S1x128.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S128x16.size a ≤ S128x16.size a
  hwx0_6 : ∀ i : grid0.Coords, EltTy.bits .f32 = 32 ∨ (Rect.block (s := S128x16) S128x16.size (cc0_transform_6 i) (hinb0_6 i)).WholeWords (EltTy.packing .f32)
  hstage0_7 : ∀ j, (stage0_7 j).IsWhole
  nbuf0_7 : grid0.bufCount reads0_7 false = 2
  hreads0_7 : ∀ i i' : grid0.Coords, (∀ a, reads0_7 a = true → i a = i' a) → cc0_transform_7 i = cc0_transform_7 i'
  hinb0_7 : ∀ (i : grid0.Coords) a, (cc0_transform_7 i a + 1) * S4000x128.size a ≤ S100000x128.size a
  hwx0_7 : ∀ i : grid0.Coords, EltTy.bits .bf16 = 32 ∨ (Rect.block (s := S100000x128) S4000x128.size (cc0_transform_7 i) (hinb0_7 i)).WholeWords (EltTy.packing .bf16)
  hstage0_8 : ∀ j, (stage0_8 j).IsWhole
  nbuf0_8 : grid0.bufCount reads0_8 false = 2
  hreads0_8 : ∀ i i' : grid0.Coords, (∀ a, reads0_8 a = true → i a = i' a) → cc0_transform_8 i = cc0_transform_8 i'
  hinb0_8 : ∀ (i : grid0.Coords) a, (cc0_transform_8 i a + 1) * S4000x16.size a ≤ S100000x16.size a
  hwx0_8 : ∀ i : grid0.Coords, EltTy.bits .f32 = 32 ∨ (Rect.block (s := S100000x16) S4000x16.size (cc0_transform_8 i) (hinb0_8 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S4000x128.size a ≤ S100000x128.size a
  hwx1_0 : ∀ i : grid1.Coords, EltTy.bits .bf16 = 32 ∨ (Rect.block (s := S100000x128) S4000x128.size (cc1_transform_0 i) (hinb1_0 i)).WholeWords (EltTy.packing .bf16)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S4000x16.size a ≤ S100000x16.size a
  hwx1_1 : ∀ i : grid1.Coords, EltTy.bits .f32 = 32 ∨ (Rect.block (s := S100000x16) S4000x16.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S4000x1.size a ≤ S100000x1.size a
  hwx1_2 : ∀ i : grid1.Coords, EltTy.bits .f32 = 32 ∨ (Rect.block (s := S100000x1) S4000x1.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S128x16.size a ≤ S128x16.size a
  hwx1_3 : ∀ i : grid1.Coords, EltTy.bits .f32 = 32 ∨ (Rect.block (s := S128x16) S128x16.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S1x16.size a ≤ S1x16.size a
  hwx1_4 : ∀ i : grid1.Coords, EltTy.bits .f32 = 32 ∨ (Rect.block (s := S1x16) S1x16.size (cc1_transform_4 i) (hinb1_4 i)).WholeWords (EltTy.packing .f32)
  hstage1_5 : ∀ j, (stage1_5 j).IsWhole
  nbuf1_5 : grid1.bufCount reads1_5 false = 2
  hreads1_5 : ∀ i i' : grid1.Coords, (∀ a, reads1_5 a = true → i a = i' a) → cc1_transform_5 i = cc1_transform_5 i'
  hinb1_5 : ∀ (i : grid1.Coords) a, (cc1_transform_5 i a + 1) * S4000x16.size a ≤ S100000x16.size a
  hwx1_5 : ∀ i : grid1.Coords, EltTy.bits .f32 = 32 ∨ (Rect.block (s := S100000x16) S4000x16.size (cc1_transform_5 i) (hinb1_5 i)).WholeWords (EltTy.packing .f32)

variable [Facts₀]

def scatter_S100000_S1600000x1_S1600000_n_0_0_1 : ScatterDims S100000 S1600000x1 S1600000 where
  updateWindowDims := []
  insertedWindowDims := [0]
  scatterDimsToOperandDims := [0]
  indexVectorDim := 1
  wf := scatter_S100000_S1600000x1_S1600000_n_0_0_1_wf
def gather_S100000x128_S1600000x1_S1600000x128_1_0_n_n_0_1_1128 : GatherDims S100000x128 S1600000x1 S1600000x128 where
  offsetDims := [1]
  collapsedSliceDims := [0]
  operandBatchingDims := []
  startIndicesBatchingDims := []
  startIndexMap := [0]
  indexVectorDim := 1
  sliceSizes := ![1, 128]
  wf := gather_S100000x128_S1600000x1_S1600000x128_1_0_n_n_0_1_1128_wf
def scatter_S100000x128_S1600000x1_S1600000x128_1_0_0_1 : ScatterDims S100000x128 S1600000x1 S1600000x128 where
  updateWindowDims := [1]
  insertedWindowDims := [0]
  scatterDimsToOperandDims := [0]
  indexVectorDim := 1
  wf := scatter_S100000x128_S1600000x1_S1600000x128_1_0_0_1_wf
def dot_S4000x128_S128x128_S4000x128_1_0_0_1_n_n : DotDims S4000x128 S128x128 S4000x128 where
  lhsContracting := [1]
  rhsContracting := [0]
  lhsNonContracting := [0]
  rhsNonContracting := [1]
  lhsBatch := []
  rhsBatch := []
  wf := dot_S4000x128_S128x128_S4000x128_1_0_0_1_n_n_wf
def dot_S4000x128_S128x16_S4000x16_1_0_0_1_n_n : DotDims S4000x128 S128x16 S4000x16 where
  lhsContracting := [1]
  rhsContracting := [0]
  lhsNonContracting := [0]
  rhsNonContracting := [1]
  lhsBatch := []
  rhsBatch := []
  wf := dot_S4000x128_S128x16_S4000x16_1_0_0_1_n_n_wf
def gather_S100000x16_S1600000x1_S1600000x16_1_0_n_n_0_1_116 : GatherDims S100000x16 S1600000x1 S1600000x16 where
  offsetDims := [1]
  collapsedSliceDims := [0]
  operandBatchingDims := []
  startIndicesBatchingDims := []
  startIndexMap := [0]
  indexVectorDim := 1
  sliceSizes := ![1, 16]
  wf := gather_S100000x16_S1600000x1_S1600000x16_1_0_n_n_0_1_116_wf
def scatter_S100000x16_S1600000x1_S1600000x16_1_0_0_1 : ScatterDims S100000x16 S1600000x1 S1600000x16 where
  updateWindowDims := [1]
  insertedWindowDims := [0]
  scatterDimsToOperandDims := [0]
  indexVectorDim := 1
  wf := scatter_S100000x16_S1600000x1_S1600000x16_1_0_0_1_wf

abbrev win0_0 : Pipeline.Window sig grid0 :=
  Pipeline.Window.ofSpec (Memref.whole main_arg0) S4000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v18) S4000x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v8) S4000x1.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_arg3) S128x128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_arg4) S128x128.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v19) S1x128.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_arg7) S128x16.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v20_0) S4000x128.size cc0_transform_7 reads0_7 true false 2 stage0_7 sem0_7
    hrank0 hreads0_7 hinb0_7 nbuf0_7 (Memref.isWhole_whole _) hwx0_7 hstage0_7

abbrev win0_8 : Pipeline.Window sig grid0 :=
  Pipeline.Window.ofSpec (Memref.whole main_v20_1) S4000x16.size cc0_transform_8 reads0_8 true false 2 stage0_8 sem0_8
    hrank0 hreads0_8 hinb0_8 nbuf0_8 (Memref.isWhole_whole _) hwx0_8 hstage0_8

abbrev win0 : Fin 9 → Pipeline.Window sig grid0 := fun | 0 => win0_0 | 1 => win0_1 | 2 => win0_2 | 3 => win0_3 | 4 => win0_4 | 5 => win0_5 | 6 => win0_6 | 7 => win0_7 | 8 => win0_8 | ⟨_ + 9, h⟩ => absurd h (Nat.not_lt.2 (Nat.le_add_left _ _))
abbrev spec0 : Fin 9 → Pipeline.WinSpec sig grid0.rank := fun w => (win0 w).toWinSpec

abbrev win1_0 : Pipeline.Window sig grid1 :=
  Pipeline.Window.ofSpec (Memref.whole main_v20_0) S4000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v30) S4000x16.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v8) S4000x1.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_arg6) S128x16.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v31) S1x16.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v32) S4000x16.size cc1_transform_5 reads1_5 true false 2 stage1_5 sem1_5
    hrank1 hreads1_5 hinb1_5 nbuf1_5 (Memref.isWhole_whole _) hwx1_5 hstage1_5

abbrev win1 : Fin 6 → Pipeline.Window sig grid1 := fun | 0 => win1_0 | 1 => win1_1 | 2 => win1_2 | 3 => win1_3 | 4 => win1_4 | 5 => win1_5 | ⟨_ + 6, h⟩ => absurd h (Nat.not_lt.2 (Nat.le_add_left _ _))
abbrev spec1 : Fin 6 → Pipeline.WinSpec sig grid1.rank := fun w => (win1 w).toWinSpec

class Facts : Prop extends Facts₀ where

variable [Facts]
-- ==== ReferenceIdeal.lean ====
abbrev S100000x128 : Shape := ⟨2, ![100000, 128]⟩
abbrev S1600000 : Shape := ⟨1, ![1600000]⟩
abbrev S128x128 : Shape := ⟨2, ![128, 128]⟩
abbrev S128 : Shape := ⟨1, ![128]⟩
abbrev S128x16 : Shape := ⟨2, ![128, 16]⟩
abbrev S16 : Shape := ⟨1, ![16]⟩
abbrev S_ : Shape := ⟨0, ![]⟩
abbrev S1600000x1 : Shape := ⟨2, ![1600000, 1]⟩
abbrev S1600000x128 : Shape := ⟨2, ![1600000, 128]⟩
abbrev S100000 : Shape := ⟨1, ![100000]⟩
abbrev S100000x1 : Shape := ⟨2, ![100000, 1]⟩
abbrev S1x128 : Shape := ⟨2, ![1, 128]⟩
abbrev S100000x16 : Shape := ⟨2, ![100000, 16]⟩
abbrev S1x16 : Shape := ⟨2, ![1, 16]⟩

abbrev nBuf : Space → Nat
  | .hbm => 89
  | .vmem => 0
  | .smem => 0
  | _ => 0

abbrev bufTy : (tb : Table) → Fin (tcTables nBuf tb) → BufTy
  | .hbm, ⟨0, _⟩ => ⟨S100000x128, .f32⟩
  | .hbm, ⟨1, _⟩ => ⟨S1600000, .i32⟩
  | .hbm, ⟨2, _⟩ => ⟨S1600000, .i32⟩
  | .hbm, ⟨3, _⟩ => ⟨S128x128, .f32⟩
  | .hbm, ⟨4, _⟩ => ⟨S128x128, .f32⟩
  | .hbm, ⟨5, _⟩ => ⟨S128, .f32⟩
  | .hbm, ⟨6, _⟩ => ⟨S128x16, .f32⟩
  | .hbm, ⟨7, _⟩ => ⟨S128x16, .f32⟩
  | .hbm, ⟨8, _⟩ => ⟨S16, .f32⟩
  | .hbm, ⟨9, _⟩ => ⟨S_, .i32⟩
  | .hbm, ⟨10, _⟩ => ⟨S1600000, .i32⟩
  | .hbm, ⟨11, _⟩ => ⟨S1600000, .i1⟩
  | .hbm, ⟨12, _⟩ => ⟨S_, .i32⟩
  | .hbm, ⟨13, _⟩ => ⟨S1600000, .i32⟩
  | .hbm, ⟨14, _⟩ => ⟨S1600000, .i32⟩
  | .hbm, ⟨15, _⟩ => ⟨S1600000, .i32⟩
  | .hbm, ⟨16, _⟩ => ⟨S1600000x1, .i32⟩
  | .hbm, ⟨17, _⟩ => ⟨S1600000x128, .f32⟩
  | .hbm, ⟨18, _⟩ => ⟨S_, .f32⟩
  | .hbm, ⟨19, _⟩ => ⟨S100000x128, .f32⟩
  | .hbm, ⟨20, _⟩ => ⟨S1600000x1, .i32⟩
  | .hbm, ⟨21, _⟩ => ⟨S100000x128, .f32⟩
  | .hbm, ⟨22, _⟩ => ⟨S_, .f32⟩
  | .hbm, ⟨23, _⟩ => ⟨S1600000, .f32⟩
  | .hbm, ⟨24, _⟩ => ⟨S_, .f32⟩
  | .hbm, ⟨25, _⟩ => ⟨S100000, .f32⟩
  | .hbm, ⟨26, _⟩ => ⟨S1600000x1, .i32⟩
  | .hbm, ⟨27, _⟩ => ⟨S100000, .f32⟩
  | .hbm, ⟨28, _⟩ => ⟨S_, .f32⟩
  | .hbm, ⟨29, _⟩ => ⟨S100000, .f32⟩
  | .hbm, ⟨30, _⟩ => ⟨S100000, .f32⟩
  | .hbm, ⟨31, _⟩ => ⟨S100000x1, .f32⟩
  | .hbm, ⟨32, _⟩ => ⟨S100000x128, .f32⟩
  | .hbm, ⟨33, _⟩ => ⟨S100000x128, .f32⟩
  | .hbm, ⟨34, _⟩ => ⟨S100000x128, .f32⟩
  | .hbm, ⟨35, _⟩ => ⟨S100000x128, .f32⟩
  | .hbm, ⟨36, _⟩ => ⟨S100000x128, .f32⟩
  | .hbm, ⟨37, _⟩ => ⟨S1x128, .f32⟩
  | .hbm, ⟨38, _⟩ => ⟨S100000x128, .f32⟩
  | .hbm, ⟨39, _⟩ => ⟨S100000x128, .f32⟩
  | .hbm, ⟨40, _⟩ => ⟨S_, .f32⟩
  | .hbm, ⟨41, _⟩ => ⟨S100000x128, .f32⟩
  | .hbm, ⟨42, _⟩ => ⟨S100000x128, .f32⟩
  | .hbm, ⟨43, _⟩ => ⟨S_, .i32⟩
  | .hbm, ⟨44, _⟩ => ⟨S1600000, .i32⟩
  | .hbm, ⟨45, _⟩ => ⟨S1600000, .i1⟩
  | .hbm, ⟨46, _⟩ => ⟨S_, .i32⟩
  | .hbm, ⟨47, _⟩ => ⟨S1600000, .i32⟩
  | .hbm, ⟨48, _⟩ => ⟨S1600000, .i32⟩
  | .hbm, ⟨49, _⟩ => ⟨S1600000, .i32⟩
  | .hbm, ⟨50, _⟩ => ⟨S1600000x1, .i32⟩
  | .hbm, ⟨51, _⟩ => ⟨S1600000x128, .f32⟩
  | .hbm, ⟨52, _⟩ => ⟨S_, .f32⟩
  | .hbm, ⟨53, _⟩ => ⟨S100000x128, .f32⟩
  | .hbm, ⟨54, _⟩ => ⟨S1600000x1, .i32⟩
  | .hbm, ⟨55, _⟩ => ⟨S100000x128, .f32⟩
  | .hbm, ⟨56, _⟩ => ⟨S_, .f32⟩
  | .hbm, ⟨57, _⟩ => ⟨S1600000, .f32⟩
  | .hbm, ⟨58, _⟩ => ⟨S_, .f32⟩
  | .hbm, ⟨59, _⟩ => ⟨S100000, .f32⟩
  | .hbm, ⟨60, _⟩ => ⟨S1600000x1, .i32⟩
  | .hbm, ⟨61, _⟩ => ⟨S100000, .f32⟩
  | .hbm, ⟨62, _⟩ => ⟨S_, .f32⟩
  | .hbm, ⟨63, _⟩ => ⟨S100000, .f32⟩
  | .hbm, ⟨64, _⟩ => ⟨S100000, .f32⟩
  | .hbm, ⟨65, _⟩ => ⟨S100000x1, .f32⟩
  | .hbm, ⟨66, _⟩ => ⟨S100000x128, .f32⟩
  | .hbm, ⟨67, _⟩ => ⟨S100000x128, .f32⟩
  | .hbm, ⟨68, _⟩ => ⟨S100000x16, .f32⟩
  | .hbm, ⟨69, _⟩ => ⟨S100000x16, .f32⟩
  | .hbm, ⟨70, _⟩ => ⟨S100000x16, .f32⟩
  | .hbm, ⟨71, _⟩ => ⟨S1x16, .f32⟩
  | .hbm, ⟨72, _⟩ => ⟨S100000x16, .f32⟩
  | .hbm, ⟨73, _⟩ => ⟨S100000x16, .f32⟩
  | .hbm, ⟨74, _⟩ => ⟨S_, .f32⟩
  | .hbm, ⟨75, _⟩ => ⟨S100000, .f32⟩
  | .hbm, ⟨76, _⟩ => ⟨S_, .f32⟩
  | .hbm, ⟨77, _⟩ => ⟨S100000, .f32⟩
  | .hbm, ⟨78, _⟩ => ⟨S100000, .f32⟩
  | .hbm, ⟨79, _⟩ => ⟨S100000x1, .f32⟩
  | .hbm, ⟨80, _⟩ => ⟨S100000x16, .f32⟩
  | .hbm, ⟨81, _⟩ => ⟨S100000x16, .f32⟩
  | .hbm, ⟨82, _⟩ => ⟨S100000x16, .f32⟩
  | .hbm, ⟨83, _⟩ => ⟨S_, .f32⟩
  | .hbm, ⟨84, _⟩ => ⟨S100000, .f32⟩
  | .hbm, ⟨85, _⟩ => ⟨S100000x1, .f32⟩
  | .hbm, ⟨86, _⟩ => ⟨S100000x1, .f32⟩
  | .hbm, ⟨87, _⟩ => ⟨S100000x16, .f32⟩
  | .hbm, ⟨88, _⟩ => ⟨S100000x16, .f32⟩
  | _, _ => ⟨S100000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_c : Ref sig .tc := ⟨.hbm, 9, rfl⟩
abbrev main_v0 : Ref sig .tc := ⟨.hbm, 10, rfl⟩
abbrev main_v1 : Ref sig .tc := ⟨.hbm, 11, rfl⟩
abbrev main_c_0 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_cst : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_cst_1 : Ref sig .tc := ⟨.hbm, 22, rfl⟩
abbrev main_v10 : Ref sig .tc := ⟨.hbm, 23, rfl⟩
abbrev main_cst_2 : Ref sig .tc := ⟨.hbm, 24, rfl⟩
abbrev main_v11 : Ref sig .tc := ⟨.hbm, 25, rfl⟩
abbrev main_v12 : Ref sig .tc := ⟨.hbm, 26, rfl⟩
abbrev main_v13 : Ref sig .tc := ⟨.hbm, 27, rfl⟩
abbrev main_cst_3 : Ref sig .tc := ⟨.hbm, 28, rfl⟩
abbrev main_v14 : Ref sig .tc := ⟨.hbm, 29, rfl⟩
abbrev main_v15 : Ref sig .tc := ⟨.hbm, 30, rfl⟩
abbrev main_v16 : Ref sig .tc := ⟨.hbm, 31, rfl⟩
abbrev main_v17 : Ref sig .tc := ⟨.hbm, 32, rfl⟩
abbrev main_v18 : Ref sig .tc := ⟨.hbm, 33, rfl⟩
abbrev main_v19 : Ref sig .tc := ⟨.hbm, 34, rfl⟩
abbrev main_v20 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_v24 : Ref sig .tc := ⟨.hbm, 39, rfl⟩
abbrev main_call0_cst : Ref sig .tc := ⟨.hbm, 40, rfl⟩
abbrev main_call0_v0 : Ref sig .tc := ⟨.hbm, 41, rfl⟩
abbrev main_v25 : Ref sig .tc := ⟨.hbm, 42, rfl⟩
abbrev main_c_4 : Ref sig .tc := ⟨.hbm, 43, rfl⟩
abbrev main_v26 : Ref sig .tc := ⟨.hbm, 44, rfl⟩
abbrev main_v27 : Ref sig .tc := ⟨.hbm, 45, rfl⟩
abbrev main_c_5 : Ref sig .tc := ⟨.hbm, 46, rfl⟩
abbrev main_v28 : Ref sig .tc := ⟨.hbm, 47, rfl⟩
abbrev main_v29 : Ref sig .tc := ⟨.hbm, 48, rfl⟩
abbrev main_v30 : Ref sig .tc := ⟨.hbm, 49, rfl⟩
abbrev main_v31 : Ref sig .tc := ⟨.hbm, 50, rfl⟩
abbrev main_v32 : Ref sig .tc := ⟨.hbm, 51, rfl⟩
abbrev main_cst_6 : Ref sig .tc := ⟨.hbm, 52, rfl⟩
abbrev main_v33 : Ref sig .tc := ⟨.hbm, 53, rfl⟩
abbrev main_v34 : Ref sig .tc := ⟨.hbm, 54, rfl⟩
abbrev main_v35 : Ref sig .tc := ⟨.hbm, 55, rfl⟩
abbrev main_cst_7 : Ref sig .tc := ⟨.hbm, 56, rfl⟩
abbrev main_v36 : Ref sig .tc := ⟨.hbm, 57, rfl⟩
abbrev main_cst_8 : Ref sig .tc := ⟨.hbm, 58, rfl⟩
abbrev main_v37 : Ref sig .tc := ⟨.hbm, 59, rfl⟩
abbrev main_v38 : Ref sig .tc := ⟨.hbm, 60, rfl⟩
abbrev main_v39 : Ref sig .tc := ⟨.hbm, 61, rfl⟩
abbrev main_cst_9 : Ref sig .tc := ⟨.hbm, 62, rfl⟩
abbrev main_v40 : Ref sig .tc := ⟨.hbm, 63, rfl⟩
abbrev main_v41 : Ref sig .tc := ⟨.hbm, 64, rfl⟩
abbrev main_v42 : Ref sig .tc := ⟨.hbm, 65, rfl⟩
abbrev main_v43 : Ref sig .tc := ⟨.hbm, 66, rfl⟩
abbrev main_v44 : Ref sig .tc := ⟨.hbm, 67, rfl⟩
abbrev main_v45 : Ref sig .tc := ⟨.hbm, 68, rfl⟩
abbrev main_v46 : Ref sig .tc := ⟨.hbm, 69, rfl⟩
abbrev main_v47 : Ref sig .tc := ⟨.hbm, 70, rfl⟩
abbrev main_v48 : Ref sig .tc := ⟨.hbm, 71, rfl⟩
abbrev main_v49 : Ref sig .tc := ⟨.hbm, 72, rfl⟩
abbrev main_v50 : Ref sig .tc := ⟨.hbm, 73, rfl⟩
abbrev main_call1_cst : Ref sig .tc := ⟨.hbm, 74, rfl⟩
abbrev main_call1_v0 : Ref sig .tc := ⟨.hbm, 75, rfl⟩
abbrev main_call1_cst_0 : Ref sig .tc := ⟨.hbm, 76, rfl⟩
abbrev main_call1_v1 : Ref sig .tc := ⟨.hbm, 77, rfl⟩
abbrev main_call1_v2 : Ref sig .tc := ⟨.hbm, 78, rfl⟩
abbrev main_call1_v3 : Ref sig .tc := ⟨.hbm, 79, rfl⟩
abbrev main_call1_v4 : Ref sig .tc := ⟨.hbm, 80, rfl⟩
abbrev main_call1_v5 : Ref sig .tc := ⟨.hbm, 81, rfl⟩
abbrev main_call1_v6 : Ref sig .tc := ⟨.hbm, 82, rfl⟩
abbrev main_call1_cst_1 : Ref sig .tc := ⟨.hbm, 83, rfl⟩
abbrev main_call1_v7 : Ref sig .tc := ⟨.hbm, 84, rfl⟩
abbrev main_call1_v8 : Ref sig .tc := ⟨.hbm, 85, rfl⟩
abbrev main_call1_v9 : Ref sig .tc := ⟨.hbm, 86, rfl⟩
abbrev main_call1_v10 : Ref sig .tc := ⟨.hbm, 87, rfl⟩
abbrev main_v51 : Ref sig .tc := ⟨.hbm, 88, rfl⟩

abbrev nD : Nat := 1
abbrev τ : Topo := Topo.v7x

variable {F : FTy → Type} [FloatOps F]

class Facts₀ : Prop where
  bcast_S_S1600000 : S_.BroadcastsInDim S1600000 (![] : Fin 0 → Fin S1600000.rank)
  bcast_S1600000_S1600000x1_0 : S1600000.BroadcastsInDim S1600000x1 (![0] : Fin 1 → Fin S1600000x1.rank)
  bcast_S_S100000x128 : S_.BroadcastsInDim S100000x128 (![] : Fin 0 → Fin S100000x128.rank)
  bcast_S_S100000 : S_.BroadcastsInDim S100000 (![] : Fin 0 → Fin S100000.rank)
  bcast_S100000_S100000x1_0 : S100000.BroadcastsInDim S100000x1 (![0] : Fin 1 → Fin S100000x1.rank)
  bcast_S100000x1_S100000x128_0_1 : S100000x1.BroadcastsInDim S100000x128 (![0, 1] : Fin 2 → Fin S100000x128.rank)
  bcast_S128_S1x128_1 : S128.BroadcastsInDim S1x128 (![1] : Fin 1 → Fin S1x128.rank)
  bcast_S1x128_S100000x128_0_1 : S1x128.BroadcastsInDim S100000x128 (![0, 1] : Fin 2 → Fin S100000x128.rank)
  bcast_S16_S1x16_1 : S16.BroadcastsInDim S1x16 (![1] : Fin 1 → Fin S1x16.rank)
  bcast_S1x16_S100000x16_0_1 : S1x16.BroadcastsInDim S100000x16 (![0, 1] : Fin 2 → Fin S100000x16.rank)
  reducesTo_S100000x16_S100000_d1 : S100000x16.ReducesTo [1] S100000
  h_S_ : 0 < S_.numel
  bcast_S100000x1_S100000x16_0_1 : S100000x1.BroadcastsInDim S100000x16 (![0, 1] : Fin 2 → Fin S100000x16.rank)
  gather_S100000x128_S1600000x1_S1600000x128_1_0_n_n_0_1_1128_wf : GatherDims.WF S100000x128 S1600000x1 S1600000x128 [1] [0] [] [0] [] 1 ![1, 128]
  scatter_S100000x128_S1600000x1_S1600000x128_1_0_0_1_wf : ScatterDims.WF S100000x128 S1600000x1 S1600000x128 [1] [0] [0] 1
  scatter_S100000_S1600000x1_S1600000_n_0_0_1_wf : ScatterDims.WF S100000 S1600000x1 S1600000 [] [0] [0] 1
  dot_S100000x128_S128x128_S100000x128_1_0_0_1_n_n_wf : DotDims.WF S100000x128 S128x128 S100000x128 [1] [0] [0] [1] [] []
  dot_S100000x128_S128x16_S100000x16_1_0_0_1_n_n_wf : DotDims.WF S100000x128 S128x16 S100000x16 [1] [0] [0] [1] [] []

variable [Facts₀]

def gather_S100000x128_S1600000x1_S1600000x128_1_0_n_n_0_1_1128 : GatherDims S100000x128 S1600000x1 S1600000x128 where
  offsetDims := [1]
  collapsedSliceDims := [0]
  operandBatchingDims := []
  startIndicesBatchingDims := []
  startIndexMap := [0]
  indexVectorDim := 1
  sliceSizes := ![1, 128]
  wf := gather_S100000x128_S1600000x1_S1600000x128_1_0_n_n_0_1_1128_wf
def scatter_S100000x128_S1600000x1_S1600000x128_1_0_0_1 : ScatterDims S100000x128 S1600000x1 S1600000x128 where
  updateWindowDims := [1]
  insertedWindowDims := [0]
  scatterDimsToOperandDims := [0]
  indexVectorDim := 1
  wf := scatter_S100000x128_S1600000x1_S1600000x128_1_0_0_1_wf
def scatter_S100000_S1600000x1_S1600000_n_0_0_1 : ScatterDims S100000 S1600000x1 S1600000 where
  updateWindowDims := []
  insertedWindowDims := [0]
  scatterDimsToOperandDims := [0]
  indexVectorDim := 1
  wf := scatter_S100000_S1600000x1_S1600000_n_0_0_1_wf
def dot_S100000x128_S128x128_S100000x128_1_0_0_1_n_n : DotDims S100000x128 S128x128 S100000x128 where
  lhsContracting := [1]
  rhsContracting := [0]
  lhsNonContracting := [0]
  rhsNonContracting := [1]
  lhsBatch := []
  rhsBatch := []
  wf := dot_S100000x128_S128x128_S100000x128_1_0_0_1_n_n_wf
def dot_S100000x128_S128x16_S100000x16_1_0_0_1_n_n : DotDims S100000x128 S128x16 S100000x16 where
  lhsContracting := [1]
  rhsContracting := [0]
  lhsNonContracting := [0]
  rhsNonContracting := [1]
  lhsBatch := []
  rhsBatch := []
  wf := dot_S100000x128_S128x16_S100000x16_1_0_0_1_n_n_wf

class Facts : Prop extends Facts₀ where

variable [Facts]
-- ==== Proof.KRun.lean ====
/-
  The idealized kernel's run with its result named.

  The program is four segments: host operations, the first pipelined call, host operations, the second pipelined call.
  Every weakly fair execution terminates without a fault; in every final state the result array holds what the fold of
  the four segments over the launch memory leaves at the result's buffer, and the nine argument arrays are as launched.
-/
import proofs.«113011_j20538533609946_2_alg».proof.Proof.Gen.KernelIdeal.Frame

set_option maxRecDepth 16384

noncomputable section

namespace Cert.KernelIdeal.KV

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

-- the launch theorem's implicit arguments are found by unifying its conclusion with this one, which takes unfolding
-- plain definitions in a metavariable's type
set_option backward.isDefEq.respectTransparency.types false in
/-- Every weakly fair execution terminates, nothing faulting; the result array ends at the last boundary's contents
    `W4` read at the result's buffer, and the arguments end as launched. -/
theorem run_result : θ_run defs (onTc (τ := τ) (main (F := F))) ⟨m, fun _ => 0, ρ⟩ (fun r => ∀ c : Dev nD,
      r.2.mem ((c.tc : Thread nD τ).loc main_v32) = W4 m ρ c (Proc.devRef .tc main_v32)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W4 m ρ c b)
    (hfin := fun c s' => by
      iintro ⟨⟨Hh, -⟩, HSI⟩
      unfold StableHlo.held
      imodintro
      iapply (pointsTo_read_all (Pipeline.ucRefs τ sig) (fun b => (((c : Thread nD τ)).1, b)) (W4 m ρ c) s')
      isplitl [Hh] <;> iassumption)
    (hQ := fun s h c =>
      ⟨h c _ (mem_uc main_v32 (by decide)),
       (h c _ (mem_uc main_arg0 (by decide))).trans (W4_main_arg0 m ρ c),
       (h c _ (mem_uc main_arg1 (by decide))).trans (W4_main_arg1 m ρ c),
       (h c _ (mem_uc main_arg2 (by decide))).trans (W4_main_arg2 m ρ c),
       (h c _ (mem_uc main_arg3 (by decide))).trans (W4_main_arg3 m ρ c),
       (h c _ (mem_uc main_arg4 (by decide))).trans (W4_main_arg4 m ρ c),
       (h c _ (mem_uc main_arg5 (by decide))).trans (W4_main_arg5 m ρ c),
       (h c _ (mem_uc main_arg6 (by decide))).trans (W4_main_arg6 m ρ c),
       (h c _ (mem_uc main_arg7 (by decide))).trans (W4_main_arg7 m ρ c),
       (h c _ (mem_uc main_arg8 (by decide))).trans (W4_main_arg8 m ρ c)⟩)

end Cert.KernelIdeal.KV

end
-- ==== Proof.KBlocks.lean ====
/-
  Where a block's entries sit in its array, for both pipelined calls.

  Each call walks the node axis in 25 steps of 4000 rows. A row-tiled operand's block at step `t` is rows
  t·4000 … t·4000 + 3999 of its array, all columns; the weight and bias operands are fetched whole at every step.
  So entry (r, k) of a row-tiled block at step `t` is entry (t·4000 + r, k) of the array, an entry of a whole block is
  the same entry of the array, and every entry of an output array lies in the block of step (row / 4000).
-/
import proofs.«113011_j20538533609946_2_alg».proof.Proof.Gen.KernelIdeal.Frame
import Idealize.ShloMosaic.Lib.Pipeline.Value
import Idealize.ShloMosaic.Lib.ValueIdx

set_option maxRecDepth 16384

noncomputable section

namespace Cert.KernelIdeal.KV

open Cert.KernelIdeal Cert.KernelIdeal.Gen
open Idealize.ShloMosaic Idealize.ShloMosaic.TcCoe Idealize.ShloMosaic.ValueIdx Idealize.SL.Sem
open Idealize.ShloMosaic.Pipeline (Dat Cfg Window)

variable (V : (c : Dev nD) → (b : Ref sig .tc) → Buf (Elt Ideal) ((c : Thread nD τ).loc b))

/-! ## The printed index maps, decided over the 25 steps -/

theorem rowIdx0_0 : ∀ t : Fin cfg0.N, win0_0.index t (0 : Fin 2) = t.val ∧ win0_0.index t (1 : Fin 2) = 0 :=
  (by decide +kernel : ∀ t : Fin grid0.N, _)
theorem rowIdx0_1 : ∀ t : Fin cfg0.N, win0_1.index t (0 : Fin 2) = t.val ∧ win0_1.index t (1 : Fin 2) = 0 :=
  (by decide +kernel : ∀ t : Fin grid0.N, _)
theorem rowIdx0_2 : ∀ t : Fin cfg0.N, win0_2.index t (0 : Fin 2) = t.val ∧ win0_2.index t (1 : Fin 2) = 0 :=
  (by decide +kernel : ∀ t : Fin grid0.N, _)
theorem rowIdx0_7 : ∀ t : Fin cfg0.N, win0_7.index t (0 : Fin 2) = t.val ∧ win0_7.index t (1 : Fin 2) = 0 :=
  (by decide +kernel : ∀ t : Fin grid0.N, _)
theorem rowIdx0_8 : ∀ t : Fin cfg0.N, win0_8.index t (0 : Fin 2) = t.val ∧ win0_8.index t (1 : Fin 2) = 0 :=
  (by decide +kernel : ∀ t : Fin grid0.N, _)
theorem rowIdx0_3 : ∀ t : Fin cfg0.N, win0_3.index t (0 : Fin 2) = 0 ∧ win0_3.index t (1 : Fin 2) = 0 :=
  (by decide +kernel : ∀ t : Fin grid0.N, _)
theorem rowIdx0_4 : ∀ t : Fin cfg0.N, win0_4.index t (0 : Fin 2) = 0 ∧ win0_4.index t (1 : Fin 2) = 0 :=
  (by decide +kernel : ∀ t : Fin grid0.N, _)
theorem rowIdx0_5 : ∀ t : Fin cfg0.N, win0_5.index t (0 : Fin 2) = 0 ∧ win0_5.index t (1 : Fin 2) = 0 :=
  (by decide +kernel : ∀ t : Fin grid0.N, _)
theorem rowIdx0_6 : ∀ t : Fin cfg0.N, win0_6.index t (0 : Fin 2) = 0 ∧ win0_6.index t (1 : Fin 2) = 0 :=
  (by decide +kernel : ∀ t : Fin grid0.N, _)
theorem rowIdx1_0 : ∀ t : Fin cfg1.N, win1_0.index t (0 : Fin 2) = t.val ∧ win1_0.index t (1 : Fin 2) = 0 :=
  (by decide +kernel : ∀ t : Fin grid1.N, _)
theorem rowIdx1_1 : ∀ t : Fin cfg1.N, win1_1.index t (0 : Fin 2) = t.val ∧ win1_1.index t (1 : Fin 2) = 0 :=
  (by decide +kernel : ∀ t : Fin grid1.N, _)
theorem rowIdx1_2 : ∀ t : Fin cfg1.N, win1_2.index t (0 : Fin 2) = t.val ∧ win1_2.index t (1 : Fin 2) = 0 :=
  (by decide +kernel : ∀ t : Fin grid1.N, _)
theorem rowIdx1_5 : ∀ t : Fin cfg1.N, win1_5.index t (0 : Fin 2) = t.val ∧ win1_5.index t (1 : Fin 2) = 0 :=
  (by decide +kernel : ∀ t : Fin grid1.N, _)
theorem rowIdx1_3 : ∀ t : Fin cfg1.N, win1_3.index t (0 : Fin 2) = 0 ∧ win1_3.index t (1 : Fin 2) = 0 :=
  (by decide +kernel : ∀ t : Fin grid1.N, _)
theorem rowIdx1_4 : ∀ t : Fin cfg1.N, win1_4.index t (0 : Fin 2) = 0 ∧ win1_4.index t (1 : Fin 2) = 0 :=
  (by decide +kernel : ∀ t : Fin grid1.N, _)

/-- The array row that row `r` of step `t`'s block is, in the first call. -/
def rowOf0 (t : Fin cfg0.N) (r : Fin 4000) : Fin 100000 :=
  ⟨t.val * 4000 + r.val, by have := t.isLt; have hN : cfg0.N = 25 := N_0; have := r.isLt; omega⟩

/-- The array row that row `r` of step `t`'s block is, in the second call. -/
def rowOf1 (t : Fin cfg1.N) (r : Fin 4000) : Fin 100000 :=
  ⟨t.val * 4000 + r.val, by have := t.isLt; have hN : cfg1.N = 25 := N_1; have := r.isLt; omega⟩

/-! ## The first call's input blocks -/

theorem blk0_0 (c : Dev nD) (t : Fin cfg0.N) (r : Fin 4000) (k : Fin 128) :
    iblk0 V c 0 t (ix2 r k) = V c main_arg0 (ix2 (rowOf0 t r) k) := by
  show V c main_arg0 (((cfg0.win 0).blk t).view.emb (ix2 r k)) = _
  refine congrArg (V c main_arg0) (funext fun a => Fin.ext ?_)
  have e0 := (rowIdx0_0 t).1
  have e1 := (rowIdx0_0 t).2
  match a with
  | ⟨0, _⟩ => show win0_0.index t (0 : Fin 2) * 4000 + 1 * r.val = t.val * 4000 + r.val; omega
  | ⟨1, _⟩ => show win0_0.index t (1 : Fin 2) * 128 + 1 * k.val = k.val; omega

theorem blk0_1 (c : Dev nD) (t : Fin cfg0.N) (r : Fin 4000) (k : Fin 128) :
    iblk0 V c 1 t (ix2 r k) = V c main_v18 (ix2 (rowOf0 t r) k) := by
  show V c main_v18 (((cfg0.win 1).blk t).view.emb (ix2 r k)) = _
  refine congrArg (V c main_v18) (funext fun a => Fin.ext ?_)
  have e0 := (rowIdx0_1 t).1
  have e1 := (rowIdx0_1 t).2
  match a with
  | ⟨0, _⟩ => show win0_1.index t (0 : Fin 2) * 4000 + 1 * r.val = t.val * 4000 + r.val; omega
  | ⟨1, _⟩ => show win0_1.index t (1 : Fin 2) * 128 + 1 * k.val = k.val; omega

theorem blk0_2 (c : Dev nD) (t : Fin cfg0.N) (r : Fin 4000) (k : Fin 1) :
    iblk0 V c 2 t (ix2 r k) = V c main_v8 (ix2 (rowOf0 t r) k) := by
  show V c main_v8 (((cfg0.win 2).blk t).view.emb (ix2 r k)) = _
  refine congrArg (V c main_v8) (funext fun a => Fin.ext ?_)
  have e0 := (rowIdx0_2 t).1
  have e1 := (rowIdx0_2 t).2
  match a with
  | ⟨0, _⟩ => show win0_2.index t (0 : Fin 2) * 4000 + 1 * r.val = t.val * 4000 + r.val; omega
  | ⟨1, _⟩ => show win0_2.index t (1 : Fin 2) * 1 + 1 * k.val = k.val; omega

theorem blk0_3 (c : Dev nD) (t : Fin cfg0.N) (p : Fin 128) (q : Fin 128) :
    iblk0 V c 3 t (ix2 p q) = V c main_arg3 (ix2 p q) := by
  show V c main_arg3 (((cfg0.win 3).blk t).view.emb (ix2 p q)) = _
  refine congrArg (V c main_arg3) (funext fun a => Fin.ext ?_)
  have e0 := (rowIdx0_3 t).1
  have e1 := (rowIdx0_3 t).2
  match a with
  | ⟨0, _⟩ => show win0_3.index t (0 : Fin 2) * 128 + 1 * p.val = p.val; omega
  | ⟨1, _⟩ => show win0_3.index t (1 : Fin 2) * 128 + 1 * q.val = q.val; omega

theorem blk0_4 (c : Dev nD) (t : Fin cfg0.N) (p : Fin 128) (q : Fin 128) :
    iblk0 V c 4 t (ix2 p q) = V c main_arg4 (ix2 p q) := by
  show V c main_arg4 (((cfg0.win 4).blk t).view.emb (ix2 p q)) = _
  refine congrArg (V c main_arg4) (funext fun a => Fin.ext ?_)
  have e0 := (rowIdx0_4 t).1
  have e1 := (rowIdx0_4 t).2
  match a with
  | ⟨0, _⟩ => show win0_4.index t (0 : Fin 2) * 128 + 1 * p.val = p.val; omega
  | ⟨1, _⟩ => show win0_4.index t (1 : Fin 2) * 128 + 1 * q.val = q.val; omega

theorem blk0_5 (c : Dev nD) (t : Fin cfg0.N) (p : Fin 1) (q : Fin 128) :
    iblk0 V c 5 t (ix2 p q) = V c main_v19 (ix2 p q) := by
  show V c main_v19 (((cfg0.win 5).blk t).view.emb (ix2 p q)) = _
  refine congrArg (V c main_v19) (funext fun a => Fin.ext ?_)
  have e0 := (rowIdx0_5 t).1
  have e1 := (rowIdx0_5 t).2
  match a with
  | ⟨0, _⟩ => show win0_5.index t (0 : Fin 2) * 1 + 1 * p.val = p.val; omega
  | ⟨1, _⟩ => show win0_5.index t (1 : Fin 2) * 128 + 1 * q.val = q.val; omega

theorem blk0_6 (c : Dev nD) (t : Fin cfg0.N) (p : Fin 128) (q : Fin 16) :
    iblk0 V c 6 t (ix2 p q) = V c main_arg7 (ix2 p q) := by
  show V c main_arg7 (((cfg0.win 6).blk t).view.emb (ix2 p q)) = _
  refine congrArg (V c main_arg7) (funext fun a => Fin.ext ?_)
  have e0 := (rowIdx0_6 t).1
  have e1 := (rowIdx0_6 t).2
  match a with
  | ⟨0, _⟩ => show win0_6.index t (0 : Fin 2) * 128 + 1 * p.val = p.val; omega
  | ⟨1, _⟩ => show win0_6.index t (1 : Fin 2) * 16 + 1 * q.val = q.val; omega

/-! ## The first call's output blocks -/

/-- Entry (r, k) of point `t`'s block of the output is entry (t·4000 + r, k) of the array. -/
theorem emb0_7 (t : Fin cfg0.N) (r : Fin 4000) (k : Fin 128) :
    ((cfg0.win 7).blk t).view.emb (ix2 r k) = ix2 (rowOf0 t r) k := by
  refine funext fun a => Fin.ext ?_
  have e0 := (rowIdx0_7 t).1
  have e1 := (rowIdx0_7 t).2
  match a with
  | ⟨0, _⟩ => show win0_7.index t (0 : Fin 2) * 4000 + 1 * r.val = t.val * 4000 + r.val; omega
  | ⟨1, _⟩ => show win0_7.index t (1 : Fin 2) * 128 + 1 * k.val = k.val; omega

/-- An index of the array is in point `t`'s block iff each coordinate is in the block's range on its axis. -/
theorem mem_blk0_7 (t : Fin cfg0.N) (i : S100000x128.Idx) :
    i ∈ ((cfg0.win 7).blk t).view.set ↔ ∀ a : Fin 2, win0_7.index t a * S4000x128.size a ≤ (i a).val ∧ (i a).val < win0_7.index t a * S4000x128.size a + S4000x128.size a := by
  show i ∈ ((View.whole main_v20_0).slice (win0_7.rect t)).set ↔ _
  rw [View.set_slice_whole, Rect.mem_set_unit]
  exact Iff.rfl

/-- Every index of the array is in the block of the point its row falls in: row / 4000. -/
theorem covered0_7 (i : S100000x128.Idx) :
    ∃ t : Fin cfg0.N, (cfg0.win 7).flush t = true ∧ i ∈ ((cfg0.win 7).blk t).view.set := by
  have hi0 : (i 0).val < 100000 := (i 0).isLt
  have hi1 : (i 1).val < 128 := (i 1).isLt
  have ht : (i 0).val / 4000 < cfg0.N := by rw [show cfg0.N = 25 from N_0]; omega
  refine ⟨⟨(i 0).val / 4000, ht⟩, flush0_7 _, ?_⟩
  rw [mem_blk0_7]
  have e0 := (rowIdx0_7 ⟨(i 0).val / 4000, ht⟩).1
  have e1 := (rowIdx0_7 ⟨(i 0).val / 4000, ht⟩).2
  intro a
  match a with
  | ⟨0, _⟩ =>
    show win0_7.index ⟨(i 0).val / 4000, ht⟩ (0 : Fin 2) * 4000 ≤ (i 0).val ∧ (i 0).val < win0_7.index ⟨(i 0).val / 4000, ht⟩ (0 : Fin 2) * 4000 + 4000
    rw [e0]; show (i 0).val / 4000 * 4000 ≤ (i 0).val ∧ (i 0).val < (i 0).val / 4000 * 4000 + 4000; omega
  | ⟨1, _⟩ =>
    show win0_7.index ⟨(i 0).val / 4000, ht⟩ (1 : Fin 2) * 128 ≤ (i 1).val ∧ (i 1).val < win0_7.index ⟨(i 0).val / 4000, ht⟩ (1 : Fin 2) * 128 + 128
    rw [e1]; omega

/-- Entry (r, k) of point `t`'s block of the output is entry (t·4000 + r, k) of the array. -/
theorem emb0_8 (t : Fin cfg0.N) (r : Fin 4000) (k : Fin 16) :
    ((cfg0.win 8).blk t).view.emb (ix2 r k) = ix2 (rowOf0 t r) k := by
  refine funext fun a => Fin.ext ?_
  have e0 := (rowIdx0_8 t).1
  have e1 := (rowIdx0_8 t).2
  match a with
  | ⟨0, _⟩ => show win0_8.index t (0 : Fin 2) * 4000 + 1 * r.val = t.val * 4000 + r.val; omega
  | ⟨1, _⟩ => show win0_8.index t (1 : Fin 2) * 16 + 1 * k.val = k.val; omega

/-- An index of the array is in point `t`'s block iff each coordinate is in the block's range on its axis. -/
theorem mem_blk0_8 (t : Fin cfg0.N) (i : S100000x16.Idx) :
    i ∈ ((cfg0.win 8).blk t).view.set ↔ ∀ a : Fin 2, win0_8.index t a * S4000x16.size a ≤ (i a).val ∧ (i a).val < win0_8.index t a * S4000x16.size a + S4000x16.size a := by
  show i ∈ ((View.whole main_v20_1).slice (win0_8.rect t)).set ↔ _
  rw [View.set_slice_whole, Rect.mem_set_unit]
  exact Iff.rfl

/-- Every index of the array is in the block of the point its row falls in: row / 4000. -/
theorem covered0_8 (i : S100000x16.Idx) :
    ∃ t : Fin cfg0.N, (cfg0.win 8).flush t = true ∧ i ∈ ((cfg0.win 8).blk t).view.set := by
  have hi0 : (i 0).val < 100000 := (i 0).isLt
  have hi1 : (i 1).val < 16 := (i 1).isLt
  have ht : (i 0).val / 4000 < cfg0.N := by rw [show cfg0.N = 25 from N_0]; omega
  refine ⟨⟨(i 0).val / 4000, ht⟩, flush0_8 _, ?_⟩
  rw [mem_blk0_8]
  have e0 := (rowIdx0_8 ⟨(i 0).val / 4000, ht⟩).1
  have e1 := (rowIdx0_8 ⟨(i 0).val / 4000, ht⟩).2
  intro a
  match a with
  | ⟨0, _⟩ =>
    show win0_8.index ⟨(i 0).val / 4000, ht⟩ (0 : Fin 2) * 4000 ≤ (i 0).val ∧ (i 0).val < win0_8.index ⟨(i 0).val / 4000, ht⟩ (0 : Fin 2) * 4000 + 4000
    rw [e0]; show (i 0).val / 4000 * 4000 ≤ (i 0).val ∧ (i 0).val < (i 0).val / 4000 * 4000 + 4000; omega
  | ⟨1, _⟩ =>
    show win0_8.index ⟨(i 0).val / 4000, ht⟩ (1 : Fin 2) * 16 ≤ (i 1).val ∧ (i 1).val < win0_8.index ⟨(i 0).val / 4000, ht⟩ (1 : Fin 2) * 16 + 16
    rw [e1]; omega

/-! ## The second call's input blocks -/

theorem blk1_0 (c : Dev nD) (t : Fin cfg1.N) (r : Fin 4000) (k : Fin 128) :
    iblk1 V c 0 t (ix2 r k) = V c main_v20_0 (ix2 (rowOf1 t r) k) := by
  show V c main_v20_0 (((cfg1.win 0).blk t).view.emb (ix2 r k)) = _
  refine congrArg (V c main_v20_0) (funext fun a => Fin.ext ?_)
  have e0 := (rowIdx1_0 t).1
  have e1 := (rowIdx1_0 t).2
  match a with
  | ⟨0, _⟩ => show win1_0.index t (0 : Fin 2) * 4000 + 1 * r.val = t.val * 4000 + r.val; omega
  | ⟨1, _⟩ => show win1_0.index t (1 : Fin 2) * 128 + 1 * k.val = k.val; omega

theorem blk1_1 (c : Dev nD) (t : Fin cfg1.N) (r : Fin 4000) (k : Fin 16) :
    iblk1 V c 1 t (ix2 r k) = V c main_v30 (ix2 (rowOf1 t r) k) := by
  show V c main_v30 (((cfg1.win 1).blk t).view.emb (ix2 r k)) = _
  refine congrArg (V c main_v30) (funext fun a => Fin.ext ?_)
  have e0 := (rowIdx1_1 t).1
  have e1 := (rowIdx1_1 t).2
  match a with
  | ⟨0, _⟩ => show win1_1.index t (0 : Fin 2) * 4000 + 1 * r.val = t.val * 4000 + r.val; omega
  | ⟨1, _⟩ => show win1_1.index t (1 : Fin 2) * 16 + 1 * k.val = k.val; omega

theorem blk1_2 (c : Dev nD) (t : Fin cfg1.N) (r : Fin 4000) (k : Fin 1) :
    iblk1 V c 2 t (ix2 r k) = V c main_v8 (ix2 (rowOf1 t r) k) := by
  show V c main_v8 (((cfg1.win 2).blk t).view.emb (ix2 r k)) = _
  refine congrArg (V c main_v8) (funext fun a => Fin.ext ?_)
  have e0 := (rowIdx1_2 t).1
  have e1 := (rowIdx1_2 t).2
  match a with
  | ⟨0, _⟩ => show win1_2.index t (0 : Fin 2) * 4000 + 1 * r.val = t.val * 4000 + r.val; omega
  | ⟨1, _⟩ => show win1_2.index t (1 : Fin 2) * 1 + 1 * k.val = k.val; omega

theorem blk1_3 (c : Dev nD) (t : Fin cfg1.N) (p : Fin 128) (q : Fin 16) :
    iblk1 V c 3 t (ix2 p q) = V c main_arg6 (ix2 p q) := by
  show V c main_arg6 (((cfg1.win 3).blk t).view.emb (ix2 p q)) = _
  refine congrArg (V c main_arg6) (funext fun a => Fin.ext ?_)
  have e0 := (rowIdx1_3 t).1
  have e1 := (rowIdx1_3 t).2
  match a with
  | ⟨0, _⟩ => show win1_3.index t (0 : Fin 2) * 128 + 1 * p.val = p.val; omega
  | ⟨1, _⟩ => show win1_3.index t (1 : Fin 2) * 16 + 1 * q.val = q.val; omega

theorem blk1_4 (c : Dev nD) (t : Fin cfg1.N) (p : Fin 1) (q : Fin 16) :
    iblk1 V c 4 t (ix2 p q) = V c main_v31 (ix2 p q) := by
  show V c main_v31 (((cfg1.win 4).blk t).view.emb (ix2 p q)) = _
  refine congrArg (V c main_v31) (funext fun a => Fin.ext ?_)
  have e0 := (rowIdx1_4 t).1
  have e1 := (rowIdx1_4 t).2
  match a with
  | ⟨0, _⟩ => show win1_4.index t (0 : Fin 2) * 1 + 1 * p.val = p.val; omega
  | ⟨1, _⟩ => show win1_4.index t (1 : Fin 2) * 16 + 1 * q.val = q.val; omega

/-! ## The second call's output blocks -/

/-- Entry (r, k) of point `t`'s block of the output is entry (t·4000 + r, k) of the array. -/
theorem emb1_5 (t : Fin cfg1.N) (r : Fin 4000) (k : Fin 16) :
    ((cfg1.win 5).blk t).view.emb (ix2 r k) = ix2 (rowOf1 t r) k := by
  refine funext fun a => Fin.ext ?_
  have e0 := (rowIdx1_5 t).1
  have e1 := (rowIdx1_5 t).2
  match a with
  | ⟨0, _⟩ => show win1_5.index t (0 : Fin 2) * 4000 + 1 * r.val = t.val * 4000 + r.val; omega
  | ⟨1, _⟩ => show win1_5.index t (1 : Fin 2) * 16 + 1 * k.val = k.val; omega

/-- An index of the array is in point `t`'s block iff each coordinate is in the block's range on its axis. -/
theorem mem_blk1_5 (t : Fin cfg1.N) (i : S100000x16.Idx) :
    i ∈ ((cfg1.win 5).blk t).view.set ↔ ∀ a : Fin 2, win1_5.index t a * S4000x16.size a ≤ (i a).val ∧ (i a).val < win1_5.index t a * S4000x16.size a + S4000x16.size a := by
  show i ∈ ((View.whole main_v32).slice (win1_5.rect t)).set ↔ _
  rw [View.set_slice_whole, Rect.mem_set_unit]
  exact Iff.rfl

/-- Every index of the array is in the block of the point its row falls in: row / 4000. -/
theorem covered1_5 (i : S100000x16.Idx) :
    ∃ t : Fin cfg1.N, (cfg1.win 5).flush t = true ∧ i ∈ ((cfg1.win 5).blk t).view.set := by
  have hi0 : (i 0).val < 100000 := (i 0).isLt
  have hi1 : (i 1).val < 16 := (i 1).isLt
  have ht : (i 0).val / 4000 < cfg1.N := by rw [show cfg1.N = 25 from N_1]; omega
  refine ⟨⟨(i 0).val / 4000, ht⟩, flush1_5 _, ?_⟩
  rw [mem_blk1_5]
  have e0 := (rowIdx1_5 ⟨(i 0).val / 4000, ht⟩).1
  have e1 := (rowIdx1_5 ⟨(i 0).val / 4000, ht⟩).2
  intro a
  match a with
  | ⟨0, _⟩ =>
    show win1_5.index ⟨(i 0).val / 4000, ht⟩ (0 : Fin 2) * 4000 ≤ (i 0).val ∧ (i 0).val < win1_5.index ⟨(i 0).val / 4000, ht⟩ (0 : Fin 2) * 4000 + 4000
    rw [e0]; show (i 0).val / 4000 * 4000 ≤ (i 0).val ∧ (i 0).val < (i 0).val / 4000 * 4000 + 4000; omega
  | ⟨1, _⟩ =>
    show win1_5.index ⟨(i 0).val / 4000, ht⟩ (1 : Fin 2) * 16 ≤ (i 1).val ∧ (i 1).val < win1_5.index ⟨(i 0).val / 4000, ht⟩ (1 : Fin 2) * 16 + 16
    rw [e1]; omega

end Cert.KernelIdeal.KV

end
-- ==== Proof.LibPlainMatmul.lean ====
/-
  The plain matrix product on the extended reals, read at one entry.

  A matrix unit's product of an `m × k` by a `k × n` array (rows against columns, no batch axis), accumulated into the
  zero array, holds at entry `(a, b)` the sum over the contracted position `c` of `A[a,c] · B[c,b]`. The contraction's
  index set has one axis; it is re-indexed by its one coordinate, and the operands' indices at output entry `(a, b)`
  and contraction position `c` are named by their coordinates, axis by axis: a free axis reads the output's
  coordinate, the contracted axis reads `c`.
-/
import Idealize.ShloMosaic.PureOps.Ideal.Laws
import Idealize.ShloMosaic.Lib.ValueIdx

noncomputable section

open scoped BigOperators

namespace Idealize.ShloMosaic.PlainMatmul

open Idealize.ShloMosaic Idealize.ShloMosaic.ValueIdx

variable {m k n : Nat}

/-- The left operand's row coordinate is the output's row coordinate. -/
theorem lhs_row (i : (⟨2, ![m, n]⟩ : Shape).Idx) (q : (DotDims.plain m k n).contr.Idx) :
    ((DotDims.plain m k n).lhsIdx i q 0).val = (i 0).val := by
  unfold DotDims.lhsIdx
  rw [dif_neg (show ¬(0 : Fin (⟨2, ![m, k]⟩ : Shape).rank) ∈ (DotDims.plain m k n).lhsBatch from List.not_mem_nil),
    dif_pos (show (0 : Fin (⟨2, ![m, k]⟩ : Shape).rank) ∈ (DotDims.plain m k n).lhsNonContracting from List.mem_singleton.mpr rfl)]
  rfl

/-- The left operand's column coordinate is the contraction position. -/
theorem lhs_col (i : (⟨2, ![m, n]⟩ : Shape).Idx) (q : (DotDims.plain m k n).contr.Idx) :
    ((DotDims.plain m k n).lhsIdx i q 1).val = (q ⟨0, (Nat.one_pos : 0 < 1)⟩).val :=
  (DotDims.plain m k n).lhsIdx_val_of_single rfl i q

/-- The right operand's row coordinate is the contraction position. -/
theorem rhs_row (i : (⟨2, ![m, n]⟩ : Shape).Idx) (q : (DotDims.plain m k n).contr.Idx) :
    ((DotDims.plain m k n).rhsIdx i q 0).val = (q ⟨0, (Nat.one_pos : 0 < 1)⟩).val :=
  (DotDims.plain m k n).rhsIdx_val_of_single rfl i q

/-- The right operand's column coordinate is the output's column coordinate. -/
theorem rhs_col (i : (⟨2, ![m, n]⟩ : Shape).Idx) (q : (DotDims.plain m k n).contr.Idx) :
    ((DotDims.plain m k n).rhsIdx i q 1).val = (i 1).val := by
  unfold DotDims.rhsIdx
  rw [dif_neg (show ¬(1 : Fin (⟨2, ![k, n]⟩ : Shape).rank) ∈ (DotDims.plain m k n).rhsBatch from List.not_mem_nil),
    dif_pos (show (1 : Fin (⟨2, ![k, n]⟩ : Shape).rank) ∈ (DotDims.plain m k n).rhsNonContracting from List.mem_singleton.mpr rfl)]
  rfl

/-- **The plain product into the zero accumulator at an entry**: `∑ c, A[a,c] · B[c,b]`, at the ideal values,
    whatever the operands' formats and the precision key. -/
theorem matmul_zero_apply {φ₁ φ₂ : FTy} (prec : Option ContractPrecision)
    (A : FVec Ideal ⟨2, ![m, k]⟩ φ₁) (B : FVec Ideal ⟨2, ![k, n]⟩ φ₂) (a : Fin m) (b : Fin n) :
    FloatOps.matmul (DotDims.plain m k n) prec A B (constant ⟨2, ![m, n]⟩ .f32 0x00000000#32) (ix2 a b)
      = ∑ c : Fin k, A (ix2 a c) * B (ix2 c b) := by
  rw [Ideal.matmul_constant_zero_apply, ← Equiv.sum_comp (contrEquiv1 (DotDims.plain m k n) k rfl rfl).symm]
  refine Finset.sum_congr rfl fun c _ => ?_
  have hc := contrEquiv1_symm_val (DotDims.plain m k n) k rfl rfl c
  have el : (DotDims.plain m k n).lhsIdx (ix2 a b) ((contrEquiv1 (DotDims.plain m k n) k rfl rfl).symm c) = ix2 a c :=
    funext fun ax => Fin.ext (by
      match ax with
      | ⟨0, _⟩ => exact lhs_row _ _
      | ⟨1, _⟩ => exact (lhs_col _ _).trans hc)
  have er : (DotDims.plain m k n).rhsIdx (ix2 a b) ((contrEquiv1 (DotDims.plain m k n) k rfl rfl).symm c) = ix2 c b :=
    funext fun ax => Fin.ext (by
      match ax with
      | ⟨0, _⟩ => exact (rhs_row _ _).trans hc
      | ⟨1, _⟩ => exact rhs_col _ _)
  rw [el, er]

end Idealize.ShloMosaic.PlainMatmul

end
-- ==== Proof.LibAxisReads.lean ====
/-
  Reading reductions over one axis, the keep-dimension layouts around them, and a one-axis matrix product at an
  entry — general facts about vectors on the extended reals, stated over literal ranks with symbolic extents.

  * A reduced index with the dropped coordinate put back is the index with that coordinate in its place
    (rank 2, either axis; rank 3, the last two axes).
  * A maximum or a sum along one axis of a rank-2 vector, read at a row or a column, is the fold of `max` from the
    starting word, or the sum, over that row or column.
  * The host's reduction with a maximum body along the last or the middle axis of a rank-3 array, read at an entry, is
    the same fold over that axis.
  * A vector kept as a column ([a] → [a, 1] → [a, b]) or as a row ([b] → [1, b] → [a, b]) reads back the entry of
    its row or column.
  * A matrix product into the zero accumulator that contracts ONE axis, read at an entry, is the sum over that
    axis of the products of the two operands read where the dimension numbers send the entry and the position.
-/
import Idealize.ShloMosaic.PureOps.Ideal.Laws
import Idealize.ShloMosaic.Lib.ValueIdx
import Idealize.ShloMosaic.Lib.ValueLayout
import Idealize.ShloMosaic.Lib.Pipeline.Value

noncomputable section

namespace Cert.AxisReads

open Idealize.ShloMosaic Idealize.ShloMosaic.ValueIdx

/-! ## The dropped coordinate put back -/

/-- Rank 2, the second axis dropped: row `i` with column `k` put back is (i, k). -/
theorem lift2_axis1 {a b : Nat} (h : (⟨2, ![a, b]⟩ : Shape).Reduces [1] (⟨1, ![a]⟩ : Shape)) (i : Fin a)
    (k : Fin ((⟨2, ![a, b]⟩ : Shape).size 1)) : h.lift (ix1 i) k = ix2 i (⟨k.val, k.isLt⟩ : Fin b) := by
  funext c; apply Fin.ext
  fin_cases c <;> rfl

/-- Rank 2, the first axis dropped: column `j` with row `k` put back is (k, j). -/
theorem lift2_axis0 {a b : Nat} (h : (⟨2, ![a, b]⟩ : Shape).Reduces [0] (⟨1, ![b]⟩ : Shape)) (j : Fin b)
    (k : Fin ((⟨2, ![a, b]⟩ : Shape).size 0)) : h.lift (ix1 j) k = ix2 (⟨k.val, k.isLt⟩ : Fin a) j := by
  funext c; apply Fin.ext
  fin_cases c <;> rfl

/-- Rank 3, the last axis dropped: (t, i) with `k` put back is (t, i, k). -/
theorem lift3_axis2 {n a b : Nat} (h : (⟨3, ![n, a, b]⟩ : Shape).Reduces [2] (⟨2, ![n, a]⟩ : Shape)) (t : Fin n) (i : Fin a)
    (k : Fin ((⟨3, ![n, a, b]⟩ : Shape).size 2)) : h.lift (ix2 t i) k = ix3 t i (⟨k.val, k.isLt⟩ : Fin b) := by
  funext c; apply Fin.ext
  fin_cases c <;> rfl

/-- Rank 3, the middle axis dropped: (t, j) with `k` put back is (t, k, j). -/
theorem lift3_axis1 {n a b : Nat} (h : (⟨3, ![n, a, b]⟩ : Shape).Reduces [1] (⟨2, ![n, b]⟩ : Shape)) (t : Fin n) (j : Fin b)
    (k : Fin ((⟨3, ![n, a, b]⟩ : Shape).size 1)) : h.lift (ix2 t j) k = ix3 t (⟨k.val, k.isLt⟩ : Fin a) j := by
  funext c; apply Fin.ext
  fin_cases c <;> rfl

/-! ## A maximum and a sum along one axis of a rank-2 vector -/

/-- The maximum along the rows: at row `i`, the fold of `max` from the starting word over the row's entries. -/
theorem rowMax_apply {a b : Nat} (src : FVec Ideal (⟨2, ![a, b]⟩ : Shape) .f32) (acc : BitVec 32)
    (h : (⟨2, ![a, b]⟩ : Shape).Reduces [1] (⟨1, ![a]⟩ : Shape)) (hφ : FKind.Formats .f32)
    (hacc : acc = FKind.maximumf.neutral .f32 hφ) (i : Fin a) :
    multiReduction .maximumf [1] (⟨1, ![a]⟩ : Shape) src acc h hφ hacc (ix1 i)
      = (Finset.univ : Finset (Fin b)).fold max (Ideal.ofBits .f32 acc) fun j => src (ix2 i j) := by
  refine (Ideal.multiReduction_maximumf_single src acc h hφ hacc (ix1 i)).trans ?_
  have hf : (src ∘ h.lift (ix1 i)) = fun j : Fin b => src (ix2 i j) :=
    funext fun k => congrArg src (lift2_axis1 h i k)
  exact congrArg (fun f => Finset.fold max (Ideal.ofBits .f32 acc) f (Finset.univ : Finset (Fin b))) hf

/-- The maximum along the columns: at column `j`, the fold of `max` from the starting word over the column's entries. -/
theorem colMax_apply {a b : Nat} (src : FVec Ideal (⟨2, ![a, b]⟩ : Shape) .f32) (acc : BitVec 32)
    (h : (⟨2, ![a, b]⟩ : Shape).Reduces [0] (⟨1, ![b]⟩ : Shape)) (hφ : FKind.Formats .f32)
    (hacc : acc = FKind.maximumf.neutral .f32 hφ) (j : Fin b) :
    multiReduction .maximumf [0] (⟨1, ![b]⟩ : Shape) src acc h hφ hacc (ix1 j)
      = (Finset.univ : Finset (Fin a)).fold max (Ideal.ofBits .f32 acc) fun i => src (ix2 i j) := by
  refine (Ideal.multiReduction_maximumf_single src acc h hφ hacc (ix1 j)).trans ?_
  have hf : (src ∘ h.lift (ix1 j)) = fun i : Fin a => src (ix2 i j) :=
    funext fun k => congrArg src (lift2_axis0 h j k)
  exact congrArg (fun f => Finset.fold max (Ideal.ofBits .f32 acc) f (Finset.univ : Finset (Fin a))) hf

/-- The sum along the rows: at row `i`, the sum of the row's entries. -/
theorem rowSum_apply {a b : Nat} (src : FVec Ideal (⟨2, ![a, b]⟩ : Shape) .f32) (acc : BitVec 32)
    (h : (⟨2, ![a, b]⟩ : Shape).Reduces [1] (⟨1, ![a]⟩ : Shape)) (hφ : FKind.Formats .f32)
    (hacc : acc = FKind.add.neutral .f32 hφ) (i : Fin a) :
    multiReduction .add [1] (⟨1, ![a]⟩ : Shape) src acc h hφ hacc (ix1 i) = ∑ j : Fin b, src (ix2 i j) := by
  refine (Ideal.multiReduction_add_single src acc h hφ hacc (ix1 i)).trans ?_
  exact Finset.sum_congr rfl fun k _ => congrArg src (lift2_axis1 h i k)

/-- The sum along the columns: at column `j`, the sum of the column's entries. -/
theorem colSum_apply {a b : Nat} (src : FVec Ideal (⟨2, ![a, b]⟩ : Shape) .f32) (acc : BitVec 32)
    (h : (⟨2, ![a, b]⟩ : Shape).Reduces [0] (⟨1, ![b]⟩ : Shape)) (hφ : FKind.Formats .f32)
    (hacc : acc = FKind.add.neutral .f32 hφ) (j : Fin b) :
    multiReduction .add [0] (⟨1, ![b]⟩ : Shape) src acc h hφ hacc (ix1 j) = ∑ i : Fin a, src (ix2 i j) := by
  refine (Ideal.multiReduction_add_single src acc h hφ hacc (ix1 j)).trans ?_
  exact Finset.sum_congr rfl fun k _ => congrArg src (lift2_axis0 h j k)

/-! ## The host's maximum along one axis of a rank-3 array -/

/-- The host's reduction with a maximum body over the LAST axis, at (t, i): the fold of `max` from the initial value over
    the entries (t, i, ·). -/
theorem hostMax3_last_apply {n a b : Nat} (x : FVec Ideal (⟨3, ![n, a, b]⟩ : Shape) .f32) (init : FVec Ideal (⟨0, ![]⟩ : Shape) .f32)
    (h' : (⟨3, ![n, a, b]⟩ : Shape).ReducesTo [2] (⟨2, ![n, a]⟩ : Shape)) (hu : 0 < (⟨0, ![]⟩ : Shape).numel) (t : Fin n) (i : Fin a) :
    Host.reduce FloatOps.maximumf x init h' hu (ix2 t i)
      = (Finset.univ : Finset (Fin b)).fold max (init (Shape.Idx.first hu)) fun k => x (ix3 t i k) := by
  have h : (⟨3, ![n, a, b]⟩ : Shape).Reduces [2] (⟨2, ![n, a]⟩ : Shape) := ⟨h'.1, Nat.zero_lt_two, h'.2⟩
  refine (Host.reduce_eq_fold_single FloatOps.maximumf x init h' h hu (ix2 t i)).trans ?_
  have hf : (x ∘ h.lift (ix2 t i)) = fun k : Fin b => x (ix3 t i k) := funext fun k => congrArg x (lift3_axis2 h t i k)
  exact congrArg (fun f => Finset.fold max (init (Shape.Idx.first hu)) f (Finset.univ : Finset (Fin b))) hf

/-- The host's reduction with a maximum body over the MIDDLE axis, at (t, j): the fold of `max` from the initial value
    over the entries (t, ·, j). -/
theorem hostMax3_mid_apply {n a b : Nat} (x : FVec Ideal (⟨3, ![n, a, b]⟩ : Shape) .f32) (init : FVec Ideal (⟨0, ![]⟩ : Shape) .f32)
    (h' : (⟨3, ![n, a, b]⟩ : Shape).ReducesTo [1] (⟨2, ![n, b]⟩ : Shape)) (hu : 0 < (⟨0, ![]⟩ : Shape).numel) (t : Fin n) (j : Fin b) :
    Host.reduce FloatOps.maximumf x init h' hu (ix2 t j)
      = (Finset.univ : Finset (Fin a)).fold max (init (Shape.Idx.first hu)) fun k => x (ix3 t k j) := by
  have h : (⟨3, ![n, a, b]⟩ : Shape).Reduces [1] (⟨2, ![n, b]⟩ : Shape) := ⟨h'.1, Nat.zero_lt_two, h'.2⟩
  refine (Host.reduce_eq_fold_single FloatOps.maximumf x init h' h hu (ix2 t j)).trans ?_
  have hf : (x ∘ h.lift (ix2 t j)) = fun k : Fin a => x (ix3 t k j) := funext fun k => congrArg x (lift3_axis1 h t j k)
  exact congrArg (fun f => Finset.fold max (init (Shape.Idx.first hu)) f (Finset.univ : Finset (Fin a))) hf

/-! ## A vector kept as a column, or as a row -/

variable {α : Type}

/-- An `[a]` vector cast to the column `[a, 1]` reads, at `(i, u)`, entry `i`. -/
theorem shapeCast_a_a1_apply {a : Nat} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- A column `[a, 1]` broadcast to `[a, b]` reads, at `(i, j)`, the column's entry `i`. -/
theorem broadcastTo_a1_ab_apply {a b : Nat} (v : (⟨2, ![a, 1]⟩ : Shape).Idx → α) (h : (⟨2, ![a, 1]⟩ : Shape).Broadcasts ⟨2, ![a, b]⟩)
    (i : Fin a) (j : Fin b) : broadcastTo ⟨2, ![a, b]⟩ v h (ix2 i j) = v (ix2 i (0 : Fin 1)) := by
  refine broadcastTo_apply v h (ix2 i j) (ix2 i (0 : Fin 1)) fun ax => ?_
  match ax with
  | ⟨0, _⟩ =>
    show i.val = if a = 1 then 0 else i.val
    split
    · have := i.isLt; omega
    · rfl
  | ⟨1, _⟩ => rfl

/-- A vector kept as a column and spread over the columns reads its own entry `i` all along row `i`. -/
theorem column_spread_apply {a b : Nat} (x : (⟨1, ![a]⟩ : Shape).Idx → α) (h : (⟨1, ![a]⟩ : Shape).ShapeCasts ⟨2, ![a, 1]⟩)
    (h' : (⟨2, ![a, 1]⟩ : Shape).Broadcasts ⟨2, ![a, b]⟩) (i : Fin a) (j : Fin b) :
    broadcastTo ⟨2, ![a, b]⟩ (shapeCast ⟨2, ![a, 1]⟩ x h) h' (ix2 i j) = x (ix1 i) :=
  (broadcastTo_a1_ab_apply _ h' i j).trans (shapeCast_a_a1_apply x h i 0)

/-- A vector kept as a row and spread over the rows reads its own entry `j` all along column `j`. -/
theorem row_spread_apply {a b : Nat} (x : (⟨1, ![b]⟩ : Shape).Idx → α) (h : (⟨1, ![b]⟩ : Shape).ShapeCasts ⟨2, ![1, b]⟩)
    (h' : (⟨2, ![1, b]⟩ : Shape).Broadcasts ⟨2, ![a, b]⟩) (i : Fin a) (j : Fin b) :
    broadcastTo ⟨2, ![a, b]⟩ (shapeCast ⟨2, ![1, b]⟩ x h) h' (ix2 i j) = x (ix1 j) :=
  (broadcastTo_1b_ab_apply _ h' i j).trans (shapeCast_a_1a_apply x h 0 j)

/-! ## A one-axis matrix product into zero, at an entry -/

/-- With ONE contracted axis of extent `n`, the product into the zero accumulator at entry `j` is the sum over
    `k : Fin n` of the operands' products, each operand read where the dimension numbers send `j` and position `k`
    (`hl`, `hr`: what those reads are). -/
theorem matmul_zero_single {sl sr so : Shape} {φ₁ φ₂ : FTy} (D : DotDims sl sr so) (n : Nat) (hrk : D.contr.rank = 1)
    (hs : D.contr.size ⟨0, by omega⟩ = n) (lhs : FVec Ideal sl φ₁) (rhs : FVec Ideal sr φ₂) (j : so.Idx)
    (L R : Fin n → EReal)
    (hl : ∀ k : Fin n, lhs (D.lhsIdx j ((contrEquiv1 D n hrk hs).symm k)) = L k)
    (hr : ∀ k : Fin n, rhs (D.rhsIdx j ((contrEquiv1 D n hrk hs).symm k)) = R k) :
    matmul D none lhs rhs (constant so .f32 0x00000000#32) j = ∑ k : Fin n, L k * R k := by
  show FloatOps.matmul D none lhs rhs (constant so .f32 0x00000000#32) j = _
  rw [Ideal.matmul_constant_zero_apply, ← Equiv.sum_comp (contrEquiv1 D n hrk hs).symm]
  exact Finset.sum_congr rfl fun k _ => by rw [hl k, hr k]

end Cert.AxisReads

end
-- ==== Proof.LibRowScatter.lean ====
/-
  Gathering rows of an array, and scatter-adding rows into an array, at a column of row numbers, read at an entry.

  `x[idx]` for an array `x` of `N` rows (of `C` numbers each, or of one number) and a column `idx` of `R` row numbers is
  a gather whose row `e` is row `clampRow idx e` of `x`: the row number read as a signed integer and clamped into
  `[0, N - 1]`.  `x.at[idx].add(u)` adds row `e` of `u` to row `idx e` of `x` when that signed number is a row of `x`,
  and drops it when it is not: over the extended reals entry `(n, c)` of the result is entry `(n, c)` of `x` plus the
  sum of `u e c` over the rows `e` whose number is `n`.
-/
import Idealize.ShloMosaic.PureOps.Ideal
import Idealize.ShloMosaic.Lib.ValueIdx

noncomputable section

open scoped BigOperators

namespace Idealize.ShloMosaic.RowScatter

open Idealize.ShloMosaic Idealize.ShloMosaic.ValueIdx

variable {α : Type}

/-! ## Closed facts about the axis lists of rank 1 and rank 2 -/

theorem kept2_0 : (List.finRange 2).filter (fun a : Fin 2 => a ∉ ([0] ++ [] : List (Fin 2))) = [1] := by decide
theorem kept2_0' : (List.finRange 2).filter (fun a : Fin 2 => a ∉ ([0] : List (Fin 2))) = [1] := by decide
theorem kept1_0 : (List.finRange 1).filter (fun a : Fin 1 => a ∉ ([0] ++ [] : List (Fin 1))) = [] := by decide
theorem kept1_0' : (List.finRange 1).filter (fun a : Fin 1 => a ∉ ([0] : List (Fin 1))) = [] := by decide
theorem idxOf_1 : List.idxOf (1 : Fin 2) [1] = 0 := by decide
theorem one_not_mem : (1 : Fin 2) ∉ ([0] : List (Fin 2)) := by decide
theorem zero_not_mem_one : (0 : Fin 2) ∉ ([1] : List (Fin 2)) := by decide

/-- A rank-1 index set is its one coordinate range. -/
def idxEquiv1 {n : Nat} : (⟨1, ![n]⟩ : Shape).Idx ≃ Fin n where
  toFun i := i 0
  invFun a := ix1 a
  left_inv i := (eq_ix1 i).symm
  right_inv _ := rfl

/-- A sum over a rank-1 index set is the sum over the coordinate. -/
theorem sum_idx1 {M : Type*} [AddCommMonoid M] {n : Nat} (f : (⟨1, ![n]⟩ : Shape).Idx → M) :
    ∑ i, f i = ∑ a : Fin n, f (ix1 a) := by
  rw [← Equiv.sum_comp (idxEquiv1 (n := n)).symm f]
  rfl

/-! ## The column of row numbers -/

/-- Entry `e` of a column of `R` row numbers, read as a signed integer. -/
def rowNo {R w : Nat} (idx : IVec ⟨2, ![R, 1]⟩ w) (e : Fin R) : Int := (idx (ix2 e (0 : Fin 1))).toInt

/-- The row a gather reads for entry `e`: its signed number clamped into `[0, N - 1]`. -/
def clampRow {R w : Nat} (N : Nat) (hN : 0 < N) (idx : IVec ⟨2, ![R, 1]⟩ w) (e : Fin R) : Fin N :=
  ⟨min (rowNo idx e).toNat (N - 1), by omega⟩

/-- A signed number that is a row is its own clamp. -/
theorem clampRow_of_rowNo {R w : Nat} (N : Nat) (hN : 0 < N) (idx : IVec ⟨2, ![R, 1]⟩ w) (e : Fin R) (n : Fin N)
    (h : rowNo idx e = (n.val : Int)) : clampRow N hN idx e = n := by
  apply Fin.ext
  show min (rowNo idx e).toNat (N - 1) = n.val
  have := n.isLt
  rw [h]; omega

/-! ## Rows of a rank-2 array gathered -/

/-- The dimension numbers of `x[idx]` for `x : [N, C]`, `idx : [R, 1]`: result `[R, C]`. -/
abbrev gatherRows (N R C : Nat) (wf : GatherDims.WF ⟨2, ![N, C]⟩ ⟨2, ![R, 1]⟩ ⟨2, ![R, C]⟩ [1] [0] [] [0] [] 1 ![1, C]) :
    GatherDims ⟨2, ![N, C]⟩ ⟨2, ![R, 1]⟩ ⟨2, ![R, C]⟩ where
  offsetDims := [1]
  collapsedSliceDims := [0]
  operandBatchingDims := []
  startIndicesBatchingDims := []
  startIndexMap := [0]
  indexVectorDim := 1
  sliceSizes := ![1, C]
  wf := wf

section GatherRows
variable {N R C w : Nat} (wf : GatherDims.WF ⟨2, ![N, C]⟩ ⟨2, ![R, 1]⟩ ⟨2, ![R, C]⟩ [1] [0] [] [0] [] 1 ![1, C])
  (idx : IVec ⟨2, ![R, 1]⟩ w) (e : Fin R) (k : Fin C)

theorem gatherRows_sKept : (gatherRows N R C wf).sKept = [1] := kept2_0

theorem gatherRows_axis0 (hN : 0 < N) :
    (gatherRows N R C wf).start (ix2 e k) idx (0 : Fin 2) + (gatherRows N R C wf).batchCoord (ix2 e k) (0 : Fin 2)
      + (gatherRows N R C wf).offCoord (ix2 e k) (0 : Fin 2) = (clampRow N hN idx e).val := by
  rw [GatherDims.batchCoord_eq_zero _ _ _ List.not_mem_nil,
    GatherDims.offCoord_eq_zero _ _ _ (fun h => ((GatherDims.mem_sKept _ _).mp h).1 (List.mem_singleton.mpr rfl))]
  simp only [Nat.add_zero]
  unfold GatherDims.start
  rw [dif_pos (show (0 : Fin 2) ∈ (gatherRows N R C wf).startIndexMap from List.mem_singleton.mpr rfl)]
  have hsi : (gatherRows N R C wf).siIdx (ix2 e k) ⟨List.idxOf (0 : Fin 2) (gatherRows N R C wf).startIndexMap,
      List.idxOf_lt_length_iff.2 (List.mem_singleton.mpr rfl)⟩ = ix2 e (0 : Fin 1) := by
    funext b; refine Fin.ext ?_
    match b with
    | ⟨0, _⟩ => rfl
    | ⟨1, _⟩ => rfl
  rw [hsi]
  rfl

theorem gatherRows_axis1 :
    (gatherRows N R C wf).start (ix2 e k) idx (1 : Fin 2) + (gatherRows N R C wf).batchCoord (ix2 e k) (1 : Fin 2)
      + (gatherRows N R C wf).offCoord (ix2 e k) (1 : Fin 2) = k.val := by
  rw [GatherDims.batchCoord_eq_zero _ _ _ List.not_mem_nil]
  have hs : (gatherRows N R C wf).start (ix2 e k) idx (1 : Fin 2) = 0 := by
    unfold GatherDims.start
    rw [dif_neg one_not_mem]
  have ho : (gatherRows N R C wf).offCoord (ix2 e k) (1 : Fin 2) = k.val := by
    unfold GatherDims.offCoord
    rw [dif_pos (by rw [gatherRows_sKept]; exact List.mem_singleton.mpr rfl)]
    have h : List.idxOf (1 : Fin 2) (gatherRows N R C wf).sKept = 0 := by rw [gatherRows_sKept]; exact idxOf_1
    simp only [h]
    rfl
  rw [hs, ho]; omega

/-- Row `e` of the gather is row `clampRow idx e` of the operand. -/
theorem gatherRows_apply (hN : 0 < N) (x : (⟨2, ![N, C]⟩ : Shape).Idx → α) :
    Host.gather (gatherRows N R C wf) x idx (ix2 e k) = x (ix2 (clampRow N hN idx e) k) := by
  unfold Host.gather
  congr 1
  funext a
  refine Fin.ext ?_
  revert a
  refine Fin.forall_fin_two.mpr ⟨?_, ?_⟩
  · exact gatherRows_axis0 wf idx e k hN
  · exact gatherRows_axis1 wf idx e k

end GatherRows

/-! ## Entries of a rank-1 array gathered -/

/-- The dimension numbers of `x[idx]` for `x : [N]`, `idx : [R, 1]`: result `[R]`. -/
abbrev gatherCol (N R : Nat) (wf : GatherDims.WF ⟨1, ![N]⟩ ⟨2, ![R, 1]⟩ ⟨1, ![R]⟩ [] [0] [] [0] [] 1 ![1]) :
    GatherDims ⟨1, ![N]⟩ ⟨2, ![R, 1]⟩ ⟨1, ![R]⟩ where
  offsetDims := []
  collapsedSliceDims := [0]
  operandBatchingDims := []
  startIndicesBatchingDims := []
  startIndexMap := [0]
  indexVectorDim := 1
  sliceSizes := ![1]
  wf := wf

/-- Entry `e` of the gather is entry `clampRow idx e` of the operand. -/
theorem gatherCol_apply {N R w : Nat} (hN : 0 < N)
    (wf : GatherDims.WF ⟨1, ![N]⟩ ⟨2, ![R, 1]⟩ ⟨1, ![R]⟩ [] [0] [] [0] [] 1 ![1])
    (x : (⟨1, ![N]⟩ : Shape).Idx → α) (idx : IVec ⟨2, ![R, 1]⟩ w) (e : Fin R) :
    Host.gather (gatherCol N R wf) x idx (ix1 e) = x (ix1 (clampRow N hN idx e)) := by
  unfold Host.gather
  congr 1
  funext a
  obtain rfl : a = 0 := Subsingleton.elim _ _
  refine Fin.ext ?_
  show (gatherCol N R wf).start (ix1 e) idx 0 + (gatherCol N R wf).batchCoord (ix1 e) 0
    + (gatherCol N R wf).offCoord (ix1 e) 0 = _
  rw [GatherDims.batchCoord_eq_zero _ _ _ List.not_mem_nil,
    GatherDims.offCoord_eq_zero _ _ _ (fun h => ((GatherDims.mem_sKept _ _).mp h).1 (List.mem_singleton.mpr rfl))]
  simp only [Nat.add_zero]
  unfold GatherDims.start
  rw [dif_pos (show (0 : Fin 1) ∈ (gatherCol N R wf).startIndexMap from List.mem_singleton.mpr rfl)]
  have hsi : (gatherCol N R wf).siIdx (ix1 e) ⟨List.idxOf (0 : Fin 1) (gatherCol N R wf).startIndexMap,
      List.idxOf_lt_length_iff.2 (List.mem_singleton.mpr rfl)⟩ = ix2 e (0 : Fin 1) := by
    funext b; refine Fin.ext ?_
    match b with
    | ⟨0, _⟩ => rfl
    | ⟨1, _⟩ => rfl
  rw [hsi]
  rfl

/-! ## Rows scatter-added into a rank-2 array -/

/-- The dimension numbers of `x.at[idx].add(u)` for `x : [N, C]`, `idx : [R, 1]`, `u : [R, C]`. -/
abbrev scatterRows (N R C : Nat) (wf : ScatterDims.WF ⟨2, ![N, C]⟩ ⟨2, ![R, 1]⟩ ⟨2, ![R, C]⟩ [1] [0] [0] 1) :
    ScatterDims ⟨2, ![N, C]⟩ ⟨2, ![R, 1]⟩ ⟨2, ![R, C]⟩ where
  updateWindowDims := [1]
  insertedWindowDims := [0]
  scatterDimsToOperandDims := [0]
  indexVectorDim := 1
  wf := wf

section ScatterRows
variable {N R C w : Nat} (wf : ScatterDims.WF ⟨2, ![N, C]⟩ ⟨2, ![R, 1]⟩ ⟨2, ![R, C]⟩ [1] [0] [0] 1)
  (idx : IVec ⟨2, ![R, 1]⟩ w) (e : Fin R) (k : Fin C)

theorem scatterRows_sKept : (scatterRows N R C wf).sKept = [1] := kept2_0'

theorem scatterRows_axis0 :
    (scatterRows N R C wf).start (ix2 e k) idx (0 : Fin 2) + ((scatterRows N R C wf).window (ix2 e k) (0 : Fin 2) : Int)
      = rowNo idx e := by
  have hw : (scatterRows N R C wf).window (ix2 e k) (0 : Fin 2) = 0 := by
    unfold ScatterDims.window
    rw [dif_neg (by rw [scatterRows_sKept]; exact zero_not_mem_one)]
  have hs : (scatterRows N R C wf).start (ix2 e k) idx (0 : Fin 2) = rowNo idx e := by
    unfold ScatterDims.start
    rw [dif_pos (show (0 : Fin 2) ∈ (scatterRows N R C wf).scatterDimsToOperandDims from List.mem_singleton.mpr rfl)]
    have hsi : (scatterRows N R C wf).siIdx (ix2 e k)
        ⟨List.idxOf (0 : Fin 2) (scatterRows N R C wf).scatterDimsToOperandDims,
          List.idxOf_lt_length_iff.2 (List.mem_singleton.mpr rfl)⟩ = ix2 e (0 : Fin 1) := by
      funext b; refine Fin.ext ?_
      match b with
      | ⟨0, _⟩ => rfl
      | ⟨1, _⟩ => rfl
    rw [hsi]
    rfl
  rw [hs, hw]; simp

theorem scatterRows_axis1 :
    (scatterRows N R C wf).start (ix2 e k) idx (1 : Fin 2) + ((scatterRows N R C wf).window (ix2 e k) (1 : Fin 2) : Int)
      = (k.val : Int) := by
  have hs : (scatterRows N R C wf).start (ix2 e k) idx (1 : Fin 2) = 0 := by
    unfold ScatterDims.start
    rw [dif_neg one_not_mem]
  have hw : (scatterRows N R C wf).window (ix2 e k) (1 : Fin 2) = k.val := by
    unfold ScatterDims.window
    rw [dif_pos (by rw [scatterRows_sKept]; exact List.mem_singleton.mpr rfl)]
    have h : List.idxOf (1 : Fin 2) (scatterRows N R C wf).sKept = 0 := by rw [scatterRows_sKept]; exact idxOf_1
    simp only [h]
    rfl
  rw [hs, hw]; simp

/-- Update `(e, k)` lands on entry `(n, c)` exactly when row `e`'s signed number is `n` and `k = c`. -/
theorem scatterRows_resultIdx (n : Fin N) (c : Fin C) :
    (scatterRows N R C wf).resultIdx? (ix2 e k) idx = some (ix2 n c) ↔ rowNo idx e = (n.val : Int) ∧ k = c := by
  have h0 := scatterRows_axis0 wf idx e k
  have h1 := scatterRows_axis1 wf idx e k
  unfold ScatterDims.resultIdx?
  split
  · rename_i h
    rw [Option.some.injEq]
    constructor
    · intro hi
      have e0 := congrArg Fin.val (congrFun hi (0 : Fin 2))
      have e1 := congrArg Fin.val (congrFun hi (1 : Fin 2))
      have p0 := (h (0 : Fin 2)).1
      refine ⟨?_, Fin.ext ?_⟩
      · have e0' : ((scatterRows N R C wf).start (ix2 e k) idx (0 : Fin 2)
            + ((scatterRows N R C wf).window (ix2 e k) (0 : Fin 2) : Int)).toNat = n.val := e0
        rw [h0] at e0' p0
        omega
      · have e1' : ((scatterRows N R C wf).start (ix2 e k) idx (1 : Fin 2)
            + ((scatterRows N R C wf).window (ix2 e k) (1 : Fin 2) : Int)).toNat = c.val := e1
        rw [h1] at e1'
        omega
    · rintro ⟨hr, rfl⟩
      funext a
      refine Fin.ext ?_
      revert a
      refine Fin.forall_fin_two.mpr ⟨?_, ?_⟩
      · show ((scatterRows N R C wf).start (ix2 e k) idx (0 : Fin 2)
            + ((scatterRows N R C wf).window (ix2 e k) (0 : Fin 2) : Int)).toNat = n.val
        rw [h0, hr]; simp
      · show ((scatterRows N R C wf).start (ix2 e k) idx (1 : Fin 2)
            + ((scatterRows N R C wf).window (ix2 e k) (1 : Fin 2) : Int)).toNat = k.val
        rw [h1]; simp
  · rename_i h
    constructor
    · intro hi; exact absurd hi (by simp)
    · rintro ⟨hr, rfl⟩
      exfalso
      apply h
      refine Fin.forall_fin_two.mpr ⟨?_, ?_⟩
      · show 0 ≤ (scatterRows N R C wf).start (ix2 e k) idx (0 : Fin 2)
            + ((scatterRows N R C wf).window (ix2 e k) (0 : Fin 2) : Int)
          ∧ (scatterRows N R C wf).start (ix2 e k) idx (0 : Fin 2)
            + ((scatterRows N R C wf).window (ix2 e k) (0 : Fin 2) : Int) < (N : Int)
        rw [h0, hr]
        have := n.isLt
        constructor <;> omega
      · show 0 ≤ (scatterRows N R C wf).start (ix2 e k) idx (1 : Fin 2)
            + ((scatterRows N R C wf).window (ix2 e k) (1 : Fin 2) : Int)
          ∧ (scatterRows N R C wf).start (ix2 e k) idx (1 : Fin 2)
            + ((scatterRows N R C wf).window (ix2 e k) (1 : Fin 2) : Int) < (C : Int)
        rw [h1]
        have := k.isLt
        constructor <;> omega

end ScatterRows

/-- Over the extended reals, entry `(n, c)` after the scatter-add is the entry before plus the sum of `u e c` over
    the rows `e` whose signed number is `n`. -/
theorem scatterAddRows_apply {N R C w : Nat} (wf : ScatterDims.WF ⟨2, ![N, C]⟩ ⟨2, ![R, 1]⟩ ⟨2, ![R, C]⟩ [1] [0] [0] 1)
    (x : (⟨2, ![N, C]⟩ : Shape).Idx → EReal) (idx : IVec ⟨2, ![R, 1]⟩ w) (u : (⟨2, ![R, C]⟩ : Shape).Idx → EReal)
    (n : Fin N) (c : Fin C) :
    Ideal.hostScatterAdd (scatterRows N R C wf) x idx u (ix2 n c)
      = x (ix2 n c) + ∑ e ∈ Finset.univ.filter (fun e : Fin R => rowNo idx e = (n.val : Int)), u (ix2 e c) := by
  unfold Ideal.hostScatterAdd
  congr 1
  rw [Finset.sum_filter, sum_idx2, Finset.sum_filter]
  refine Finset.sum_congr rfl fun e _ => ?_
  simp only [scatterRows_resultIdx]
  by_cases h : rowNo idx e = (n.val : Int)
  · simp [h]
  · simp [h]

/-- The same for the host operation at the ideal values, whose meaning that sum is. -/
theorem hostScatterAddRows_apply {φ : FTy} {N R C w : Nat}
    (wf : ScatterDims.WF ⟨2, ![N, C]⟩ ⟨2, ![R, 1]⟩ ⟨2, ![R, C]⟩ [1] [0] [0] 1)
    (x : FVec Ideal ⟨2, ![N, C]⟩ φ) (idx : IVec ⟨2, ![R, 1]⟩ w) (u : FVec Ideal ⟨2, ![R, C]⟩ φ) (n : Fin N) (c : Fin C) :
    Host.scatterAdd (scatterRows N R C wf) x idx u (ix2 n c)
      = x (ix2 n c) + ∑ e ∈ Finset.univ.filter (fun e : Fin R => rowNo idx e = (n.val : Int)), u (ix2 e c) :=
  scatterAddRows_apply wf x idx u n c

/-! ## Entries scatter-added into a rank-1 array -/

/-- The dimension numbers of `x.at[idx].add(u)` for `x : [N]`, `idx : [R, 1]`, `u : [R]`. -/
abbrev scatterCol (N R : Nat) (wf : ScatterDims.WF ⟨1, ![N]⟩ ⟨2, ![R, 1]⟩ ⟨1, ![R]⟩ [] [0] [0] 1) :
    ScatterDims ⟨1, ![N]⟩ ⟨2, ![R, 1]⟩ ⟨1, ![R]⟩ where
  updateWindowDims := []
  insertedWindowDims := [0]
  scatterDimsToOperandDims := [0]
  indexVectorDim := 1
  wf := wf

section ScatterCol
variable {N R w : Nat} (wf : ScatterDims.WF ⟨1, ![N]⟩ ⟨2, ![R, 1]⟩ ⟨1, ![R]⟩ [] [0] [0] 1)
  (idx : IVec ⟨2, ![R, 1]⟩ w) (e : Fin R)

theorem scatterCol_axis0 :
    (scatterCol N R wf).start (ix1 e) idx (0 : Fin 1) + ((scatterCol N R wf).window (ix1 e) (0 : Fin 1) : Int)
      = rowNo idx e := by
  have hw : (scatterCol N R wf).window (ix1 e) (0 : Fin 1) = 0 := by
    unfold ScatterDims.window
    rw [dif_neg (by rw [show (scatterCol N R wf).sKept = [] from kept1_0']; exact List.not_mem_nil)]
  have hs : (scatterCol N R wf).start (ix1 e) idx (0 : Fin 1) = rowNo idx e := by
    unfold ScatterDims.start
    rw [dif_pos (show (0 : Fin 1) ∈ (scatterCol N R wf).scatterDimsToOperandDims from List.mem_singleton.mpr rfl)]
    have hsi : (scatterCol N R wf).siIdx (ix1 e)
        ⟨List.idxOf (0 : Fin 1) (scatterCol N R wf).scatterDimsToOperandDims,
          List.idxOf_lt_length_iff.2 (List.mem_singleton.mpr rfl)⟩ = ix2 e (0 : Fin 1) := by
      funext b; refine Fin.ext ?_
      match b with
      | ⟨0, _⟩ => rfl
      | ⟨1, _⟩ => rfl
    rw [hsi]
    rfl
  rw [hs, hw]; simp

/-- Update `e` lands on entry `n` exactly when its signed number is `n`. -/
theorem scatterCol_resultIdx (n : Fin N) :
    (scatterCol N R wf).resultIdx? (ix1 e) idx = some (ix1 n) ↔ rowNo idx e = (n.val : Int) := by
  have h0 := scatterCol_axis0 wf idx e
  unfold ScatterDims.resultIdx?
  split
  · rename_i h
    rw [Option.some.injEq]
    constructor
    · intro hi
      have e0 : ((scatterCol N R wf).start (ix1 e) idx (0 : Fin 1)
          + ((scatterCol N R wf).window (ix1 e) (0 : Fin 1) : Int)).toNat = n.val :=
        congrArg Fin.val (congrFun hi (0 : Fin 1))
      have p0 := (h (0 : Fin 1)).1
      rw [h0] at e0 p0
      omega
    · intro hr
      funext a
      obtain rfl : a = 0 := Subsingleton.elim _ _
      refine Fin.ext ?_
      show ((scatterCol N R wf).start (ix1 e) idx (0 : Fin 1)
          + ((scatterCol N R wf).window (ix1 e) (0 : Fin 1) : Int)).toNat = n.val
      rw [h0, hr]; simp
  · rename_i h
    constructor
    · intro hi; exact absurd hi (by simp)
    · intro hr
      exfalso
      apply h
      intro a
      obtain rfl : a = 0 := Subsingleton.elim _ _
      show 0 ≤ (scatterCol N R wf).start (ix1 e) idx (0 : Fin 1)
          + ((scatterCol N R wf).window (ix1 e) (0 : Fin 1) : Int)
        ∧ (scatterCol N R wf).start (ix1 e) idx (0 : Fin 1)
          + ((scatterCol N R wf).window (ix1 e) (0 : Fin 1) : Int) < (N : Int)
      rw [h0, hr]
      have := n.isLt
      constructor <;> omega

end ScatterCol

/-- Over the extended reals, entry `n` after the scatter-add is the entry before plus the sum of `u e` over the
    entries `e` whose signed number is `n`. -/
theorem scatterAddCol_apply {N R w : Nat} (wf : ScatterDims.WF ⟨1, ![N]⟩ ⟨2, ![R, 1]⟩ ⟨1, ![R]⟩ [] [0] [0] 1)
    (x : (⟨1, ![N]⟩ : Shape).Idx → EReal) (idx : IVec ⟨2, ![R, 1]⟩ w) (u : (⟨1, ![R]⟩ : Shape).Idx → EReal) (n : Fin N) :
    Ideal.hostScatterAdd (scatterCol N R wf) x idx u (ix1 n)
      = x (ix1 n) + ∑ e ∈ Finset.univ.filter (fun e : Fin R => rowNo idx e = (n.val : Int)), u (ix1 e) := by
  unfold Ideal.hostScatterAdd
  congr 1
  rw [Finset.sum_filter, sum_idx1, Finset.sum_filter]
  refine Finset.sum_congr rfl fun e _ => ?_
  simp only [scatterCol_resultIdx]

end Idealize.ShloMosaic.RowScatter

end
-- ==== Proof.Spec.lean ====
/-
  Two-layer mean-aggregating graph convolution with a log-softmax head, as functions of the argument arrays,
  entry by entry, over the extended reals.

  A graph has 100000 nodes and 1600000 edges.  Edge `e` carries a source row (its number read as a signed integer and
  clamped into the node range) and a destination number; the edges INTO node `i` are those whose destination number,
  read as a signed integer, is `i`.  The neighbour sum of an array `X` at node `i`, column `k`, is `0` plus the sum of
  `X[source e, k]` over the edges into `i`; the degree of `i` is the larger of `1` and (`0` plus one per edge into `i`).

  Layer 1 is `relu (x · W_self + (neighbour sum of x / degree) · W_neigh + b)`.  Layer 2's logits come in two
  arrangements: the neighbour term projected by `W_neigh2` BEFORE it is summed over the edges and divided by the degree,
  or summed and divided first and projected after.  Both are followed by the same row-wise log-softmax.
-/
import Idealize.ShloMosaic.PureOps.Ideal
import Idealize.ShloMosaic.Lib.ValueIdx
import proofs.«113011_j20538533609946_2_alg».proof.Proof.LibRowScatter

noncomputable section

open scoped BigOperators

namespace Cert.Sage

open Idealize.ShloMosaic Idealize.ShloMosaic.ValueIdx Idealize.ShloMosaic.RowScatter

/-- The column of edge numbers: one 32-bit word per edge. -/
abbrev EdgeCol := IVec (⟨2, ![1600000, 1]⟩ : Shape) 32

theorem nodes_pos : 0 < 100000 := by norm_num

/-- The edges into node `i`: those whose destination number, read signed, is `i`. -/
def inEdges (didx : EdgeCol) (i : Fin 100000) : Finset (Fin 1600000) :=
  Finset.univ.filter fun e : Fin 1600000 => rowNo didx e = (i.val : Int)

/-- The source row of edge `e`: its number read signed and clamped into the node range. -/
def srcRow (sidx : EdgeCol) (e : Fin 1600000) : Fin 100000 := clampRow 100000 nodes_pos sidx e

/-- The neighbour sum of `X` at node `i`, column `k`. -/
def nsum {C : Nat} (X : Fin 100000 → Fin C → EReal) (sidx didx : EdgeCol) (i : Fin 100000) (k : Fin C) : EReal :=
  (0 : EReal) + ∑ e ∈ inEdges didx i, X (srcRow sidx e) k

/-- The degree of node `i`, never below one. -/
def degree (didx : EdgeCol) (i : Fin 100000) : EReal :=
  max ((0 : EReal) + ∑ _e ∈ inEdges didx i, (1 : EReal)) 1

theorem degree_pos (didx : EdgeCol) (i : Fin 100000) : (0 : EReal) < degree didx i :=
  lt_max_of_lt_right (by norm_num)

theorem degree_ne_zero (didx : EdgeCol) (i : Fin 100000) : degree didx i ≠ 0 := (degree_pos didx i).ne'

/-- Layer 1 at node `i`, feature `j`. -/
def hidden (x : (⟨2, ![100000, 128]⟩ : Shape).Idx → EReal) (sidx didx : EdgeCol)
    (ws1 wn1 : (⟨2, ![128, 128]⟩ : Shape).Idx → EReal) (b1 : (⟨1, ![128]⟩ : Shape).Idx → EReal)
    (i : Fin 100000) (j : Fin 128) : EReal :=
  max ((∑ k : Fin 128, x (ix2 i k) * ws1 (ix2 k j)
      + ∑ k : Fin 128, (nsum (fun n k => x (ix2 n k)) sidx didx i k * (degree didx i)⁻¹) * wn1 (ix2 k j))
    + b1 (ix1 j)) 0

/-- Layer 2's logits with the neighbour term projected before it is aggregated. -/
def logitsProjFirst (H : Fin 100000 → Fin 128 → EReal) (sidx didx : EdgeCol)
    (ws2 wn2 : (⟨2, ![128, 16]⟩ : Shape).Idx → EReal) (b2 : (⟨1, ![16]⟩ : Shape).Idx → EReal)
    (i : Fin 100000) (c : Fin 16) : EReal :=
  (∑ k : Fin 128, H i k * ws2 (ix2 k c)
      + nsum (fun n c => ∑ k : Fin 128, H n k * wn2 (ix2 k c)) sidx didx i c * (degree didx i)⁻¹)
    + b2 (ix1 c)

/-- Layer 2's logits with the neighbour term aggregated before it is projected. -/
def logitsAggFirst (H : Fin 100000 → Fin 128 → EReal) (sidx didx : EdgeCol)
    (ws2 wn2 : (⟨2, ![128, 16]⟩ : Shape).Idx → EReal) (b2 : (⟨1, ![16]⟩ : Shape).Idx → EReal)
    (i : Fin 100000) (c : Fin 16) : EReal :=
  (∑ k : Fin 128, H i k * ws2 (ix2 k c)
      + ∑ k : Fin 128, (nsum H sidx didx i k * (degree didx i)⁻¹) * wn2 (ix2 k c))
    + b2 (ix1 c)

/-- The largest entry of a row of 16 numbers (`-∞` folded in). -/
def rowTop (a : Fin 16 → EReal) : EReal := (Finset.univ : Finset (Fin 16)).fold max ⊥ a

/-- The log-softmax of a row of 16 numbers at column `c`: shifted by the row's largest entry, minus the logarithm of
    the sum of the exponentials of the shifted row. -/
def logSoftmax (a : Fin 16 → EReal) (c : Fin 16) : EReal :=
  (a c - rowTop a) - Ideal.log (∑ c' : Fin 16, Ideal.exp (a c' - rowTop a))

end Cert.Sage

end
-- ==== Proof.KPay.lean ====
/-
  The values the two kernel bodies store, read at one entry, on the extended reals.

  The first kernel's block is `relu (x · W_self + (s ∘ d) · W_neigh + b)`: two plain matrix products into the zero
  array (a change of float format is the identity on the extended reals), the neighbour operand scaled row by row by a
  column spread over the columns, the bias row spread over the rows, and a maximum with the zero splat.  What it stores
  is that block, and its product with a 128 × 16 matrix.  The second kernel's block is the row-wise log-softmax of
  `h · W + s ∘ d + b`: each row is shifted by its largest entry (a maximum along the row, folded from minus infinity,
  kept as a column and spread back), and the logarithm of the row's sum of exponentials of the shifted entries is
  subtracted.
-/
import proofs.«113011_j20538533609946_2_alg».proof.Proof.Gen.KernelIdeal.Skeleton
import proofs.«113011_j20538533609946_2_alg».proof.Proof.LibPlainMatmul
import proofs.«113011_j20538533609946_2_alg».proof.Proof.LibAxisReads
import proofs.«113011_j20538533609946_2_alg».proof.Proof.Spec
import Idealize.ShloMosaic.Lib.ValueLayout
import Idealize.ShloMosaic.Lib.Pipeline.Value
import Idealize.ShloMosaic.Lib.IdealHost

noncomputable section

open scoped BigOperators

namespace Cert.KernelIdeal.KV

open Cert.KernelIdeal Cert.KernelIdeal.Gen Idealize.ShloMosaic Idealize.ShloMosaic.ValueIdx

/-! ### The matrix products of the two kernels at an entry -/

/-- The product of a 4000 × 128 by a 128 × 128 array into the zero array, at an entry. -/
theorem mm128_apply {φ₁ φ₂ : FTy} (A : FVec Ideal S4000x128 φ₁) (B : FVec Ideal S128x128 φ₂) (r : Fin 4000) (j : Fin 128) :
    matmul dot_S4000x128_S128x128_S4000x128_1_0_0_1_n_n none A B (constant S4000x128 .f32 0x00000000#32) (ix2 r j)
      = ∑ k : Fin 128, A (ix2 r k) * B (ix2 k j) :=
  PlainMatmul.matmul_zero_apply none A B r j

/-- The product of a 4000 × 128 by a 128 × 16 array into the zero array, at an entry. -/
theorem mm16_apply {φ₁ φ₂ : FTy} (A : FVec Ideal S4000x128 φ₁) (B : FVec Ideal S128x16 φ₂) (r : Fin 4000) (c : Fin 16) :
    matmul dot_S4000x128_S128x16_S4000x16_1_0_0_1_n_n none A B (constant S4000x16 .f32 0x00000000#32) (ix2 r c)
      = ∑ k : Fin 128, A (ix2 r k) * B (ix2 k c) :=
  PlainMatmul.matmul_zero_apply none A B r c

theorem layer1_pay_apply (v0 v2 : Vec Ideal S4000x128 .f32) (v4 : Vec Ideal S4000x1 .f32) (v9 v11 : Vec Ideal S128x128 .f32) (v16 : Vec Ideal S1x128 .f32) (r : Fin 4000) (j : Fin 128) :
    k0_pay1 (F := Ideal) v0 v2 v4 v9 v11 v16 (ix2 r j)
      = max ((∑ k : Fin 128, v0 (ix2 r k) * v9 (ix2 k j)
            + ∑ k : Fin 128, (v2 (ix2 r k) * v4 (ix2 r (0 : Fin 1))) * v11 (ix2 k j)) + v16 (ix2 (0 : Fin 1) j)) 0 := by
  unfold k0_pay1
  refine congrArg₂ max (congrArg₂ (· + ·) (congrArg₂ (· + ·) ?_ ?_) ?_) ?_
  · exact mm128_apply (φ₁ := .bf16) (φ₂ := .bf16) _ _ r j
  · refine (mm128_apply (φ₁ := .bf16) (φ₂ := .bf16) _ _ r j).trans ?_
    refine Finset.sum_congr rfl fun k _ => congrArg₂ (· * ·) ?_ rfl
    show shapeCast S4000x128 v2 shapeCasts_S4000x128_S4000x128 (ix2 r k)
        * broadcastTo S4000x128 (shapeCast S4000x1 v4 shapeCasts_S4000x1_S4000x1) broadcasts_S4000x1_S4000x128 (ix2 r k)
      = v2 (ix2 r k) * v4 (ix2 r (0 : Fin 1))
    refine congrArg₂ (· * ·) ?_ ?_
    · exact congrFun (shapeCast_self v2 shapeCasts_S4000x128_S4000x128) (ix2 r k)
    · refine (Cert.AxisReads.broadcastTo_a1_ab_apply _ broadcasts_S4000x1_S4000x128 r k).trans ?_
      exact congrFun (shapeCast_self v4 shapeCasts_S4000x1_S4000x1) (ix2 r (0 : Fin 1))
  · refine (broadcastTo_1b_ab_apply _ broadcasts_S1x128_S4000x128 r j).trans ?_
    exact congrFun (shapeCast_self v16 shapeCasts_S1x128_S1x128) (ix2 (0 : Fin 1) j)
  · exact Ideal.ofBits_zero_f32

theorem stored_pay_apply (v0 v2 : Vec Ideal S4000x128 .f32) (v4 : Vec Ideal S4000x1 .f32) (v9 v11 : Vec Ideal S128x128 .f32) (v16 : Vec Ideal S1x128 .f32) (r : Fin 4000) (j : Fin 128) :
    k0_pay2 (F := Ideal) v0 v2 v4 v9 v11 v16 (ix2 r j) = k0_pay1 (F := Ideal) v0 v2 v4 v9 v11 v16 (ix2 r j) := rfl

theorem proj_pay_apply (v0 v2 : Vec Ideal S4000x128 .f32) (v4 : Vec Ideal S4000x1 .f32) (v9 v11 : Vec Ideal S128x128 .f32) (v16 : Vec Ideal S1x128 .f32) (v25 : Vec Ideal S128x16 .f32) (r : Fin 4000) (c : Fin 16) :
    k0_pay3 (F := Ideal) v0 v2 v4 v9 v11 v16 v25 (ix2 r c)
      = ∑ k : Fin 128, k0_pay1 (F := Ideal) v0 v2 v4 v9 v11 v16 (ix2 r k) * v25 (ix2 k c) := by
  unfold k0_pay3
  generalize k0_pay1 (F := Ideal) v0 v2 v4 v9 v11 v16 = P
  exact mm16_apply (φ₁ := .bf16) (φ₂ := .bf16) _ _ r c

/-! ### The row-wise log-softmax of a block -/

/-- The word the row maximum starts from is minus infinity. -/
theorem ofBits_negInf_f32 : Ideal.ofBits .f32 0xFF800000#32 = (⊥ : EReal) := by simp [Ideal.ofBits, Ideal.ieee]

/-- The maximum along row `r` of a block is the largest entry of that row. -/
theorem rowTop_apply (L : FVec Ideal S4000x16 .f32) (r : Fin 4000) :
    multiReduction .maximumf [1] S4000 L 0xFF800000#32 reduces_S4000x16_S4000 (.inl rfl) rfl (ix1 r)
      = Cert.Sage.rowTop fun c' : Fin 16 => L (ix2 r c') := by
  refine (Cert.AxisReads.rowMax_apply L 0xFF800000#32 reduces_S4000x16_S4000 (.inl rfl) rfl r).trans ?_
  unfold Cert.Sage.rowTop
  rw [ofBits_negInf_f32]

/-- A block minus its row maxima (kept as a column and spread over the columns), at an entry. -/
theorem shift_apply (L : FVec Ideal S4000x16 .f32) (r : Fin 4000) (c : Fin 16) :
    subf L (broadcastTo S4000x16 (shapeCast S4000x1
        (multiReduction .maximumf [1] S4000 L 0xFF800000#32 reduces_S4000x16_S4000 (.inl rfl) rfl)
        shapeCasts_S4000_S4000x1) broadcasts_S4000x1_S4000x16) (ix2 r c)
      = L (ix2 r c) - Cert.Sage.rowTop fun c' : Fin 16 => L (ix2 r c') := by
  refine congrArg₂ (· - ·) rfl ?_
  refine (Cert.AxisReads.column_spread_apply _ shapeCasts_S4000_S4000x1 broadcasts_S4000x1_S4000x16 r c).trans ?_
  exact rowTop_apply L r

/-- A block minus the logarithm of its rows' sums of exponentials (each kept as a column and spread), at an entry. -/
theorem logNorm_apply (S : FVec Ideal S4000x16 .f32) (r : Fin 4000) (c : Fin 16) :
    subf S (broadcastTo S4000x16 (log (shapeCast S4000x1
        (multiReduction .add [1] S4000 (exp S) 0x00000000#32 reduces_S4000x16_S4000 (.inl rfl) rfl)
        shapeCasts_S4000_S4000x1)) broadcasts_S4000x1_S4000x16) (ix2 r c)
      = S (ix2 r c) - Ideal.log (∑ c' : Fin 16, Ideal.exp (S (ix2 r c'))) := by
  refine congrArg₂ (· - ·) rfl ?_
  refine (Cert.AxisReads.broadcastTo_a1_ab_apply _ broadcasts_S4000x1_S4000x16 r c).trans ?_
  refine congrArg Ideal.log ?_
  refine (Cert.AxisReads.shapeCast_a_a1_apply _ shapeCasts_S4000_S4000x1 r (0 : Fin 1)).trans ?_
  exact Cert.AxisReads.rowSum_apply (exp S) 0x00000000#32 reduces_S4000x16_S4000 (.inl rfl) rfl r

/-- The row-wise log-softmax of a block as the second kernel computes it, at an entry. -/
theorem logSoftmax_block_apply (L : FVec Ideal S4000x16 .f32) (r : Fin 4000) (c : Fin 16) :
    subf
      (subf L (broadcastTo S4000x16 (shapeCast S4000x1
        (multiReduction .maximumf [1] S4000 L 0xFF800000#32 reduces_S4000x16_S4000 (.inl rfl) rfl)
        shapeCasts_S4000_S4000x1) broadcasts_S4000x1_S4000x16))
      (broadcastTo S4000x16 (log (shapeCast S4000x1
        (multiReduction .add [1] S4000
          (exp (subf L (broadcastTo S4000x16 (shapeCast S4000x1
            (multiReduction .maximumf [1] S4000 L 0xFF800000#32 reduces_S4000x16_S4000 (.inl rfl) rfl)
            shapeCasts_S4000_S4000x1) broadcasts_S4000x1_S4000x16)))
          0x00000000#32 reduces_S4000x16_S4000 (.inl rfl) rfl)
        shapeCasts_S4000_S4000x1)) broadcasts_S4000x1_S4000x16) (ix2 r c)
      = Cert.Sage.logSoftmax (fun c' : Fin 16 => L (ix2 r c')) c := by
  refine (logNorm_apply _ r c).trans ?_
  unfold Cert.Sage.logSoftmax
  exact congrArg₂ (· - ·) (shift_apply L r c)
    (congrArg Ideal.log (Finset.sum_congr rfl fun c' _ => congrArg Ideal.exp (shift_apply L r c')))

/-- The second kernel's logits block at an entry: the self product, plus the aggregated neighbour term times the
    inverse degree, plus the bias. -/
theorem logits_block_apply (v0 : Vec Ideal S4000x128 .bf16) (v2 : Vec Ideal S128x16 .f32) (v5 : Vec Ideal S4000x16 .f32) (v7 : Vec Ideal S4000x1 .f32) (v12 : Vec Ideal S1x16 .f32) (r : Fin 4000) (c : Fin 16) :
    addf (F := Ideal)
      (addf
        (matmul (φ₁ := .bf16) dot_S4000x128_S128x16_S4000x16_1_0_0_1_n_n none (shapeCast S4000x128 v0 shapeCasts_S4000x128_S4000x128)
          (truncf .bf16 v2 bitsLt_bf16_f32) (constant S4000x16 .f32 0x00000000#32))
        (mulf (shapeCast S4000x16 v5 shapeCasts_S4000x16_S4000x16)
          (broadcastTo S4000x16 (shapeCast S4000x1 v7 shapeCasts_S4000x1_S4000x1) broadcasts_S4000x1_S4000x16)))
      (broadcastTo S4000x16 (shapeCast S1x16 v12 shapeCasts_S1x16_S1x16) broadcasts_S1x16_S4000x16) (ix2 r c)
      = ((∑ k : Fin 128, v0 (ix2 r k) * v2 (ix2 k c) + v5 (ix2 r c) * v7 (ix2 r (0 : Fin 1))) + v12 (ix2 (0 : Fin 1) c) : EReal) := by
  refine congrArg₂ (· + ·) (congrArg₂ (· + ·) ?_ ?_) ?_
  · refine (mm16_apply (φ₁ := .bf16) (φ₂ := .bf16) _ _ r c).trans ?_
    exact Finset.sum_congr rfl fun k _ =>
      congrArg₂ (· * ·) (congrFun (shapeCast_self v0 shapeCasts_S4000x128_S4000x128) (ix2 r k)) rfl
  · show shapeCast S4000x16 v5 shapeCasts_S4000x16_S4000x16 (ix2 r c)
        * broadcastTo S4000x16 (shapeCast S4000x1 v7 shapeCasts_S4000x1_S4000x1) broadcasts_S4000x1_S4000x16 (ix2 r c)
      = v5 (ix2 r c) * v7 (ix2 r (0 : Fin 1))
    refine congrArg₂ (· * ·) ?_ ?_
    · exact congrFun (shapeCast_self v5 shapeCasts_S4000x16_S4000x16) (ix2 r c)
    · refine (Cert.AxisReads.broadcastTo_a1_ab_apply _ broadcasts_S4000x1_S4000x16 r c).trans ?_
      exact congrFun (shapeCast_self v7 shapeCasts_S4000x1_S4000x1) (ix2 r (0 : Fin 1))
  · refine (broadcastTo_1b_ab_apply _ broadcasts_S1x16_S4000x16 r c).trans ?_
    exact congrFun (shapeCast_self v12 shapeCasts_S1x16_S1x16) (ix2 (0 : Fin 1) c)

theorem layer2_pay_apply (v0 : Vec Ideal S4000x128 .bf16) (v2 : Vec Ideal S128x16 .f32) (v5 : Vec Ideal S4000x16 .f32) (v7 : Vec Ideal S4000x1 .f32) (v12 : Vec Ideal S1x16 .f32) (r : Fin 4000) (c : Fin 16) :
    k1_pay1 (F := Ideal) v0 v2 v5 v7 v12 (ix2 r c)
      = Cert.Sage.logSoftmax (fun c' : Fin 16 => (∑ k : Fin 128, v0 (ix2 r k) * v2 (ix2 k c') + v5 (ix2 r c') * v7 (ix2 r (0 : Fin 1))) + v12 (ix2 (0 : Fin 1) c')) c := by
  unfold k1_pay1
  refine (logSoftmax_block_apply _ r c).trans ?_
  exact congrArg (fun a : Fin 16 → EReal => Cert.Sage.logSoftmax a c)
    (funext fun c' => logits_block_apply v0 v2 v5 v7 v12 r c')

end Cert.KernelIdeal.KV

end
-- ==== Proof.KFinal.lean ====
/-
  What each pipelined call leaves in its output arrays, as one function of the arrays the call is entered with.

  At every step the body's stored value at block entry (r, k) is the row formula of the step's input blocks; an input
  block's row r is row t·4000 + r of its array, so the stored value is the formula at array row t·4000 + r. The output
  blocks tile the array, so after the call the array holds the formula at every entry.
  The first call leaves the rectified first layer (stored in the narrow format, which changes nothing here) and its
  projection by the second layer's neighbour weights; the second call leaves the log-softmax of its logits.
-/
import proofs.«113011_j20538533609946_2_alg».proof.Proof.KBlocks
import proofs.«113011_j20538533609946_2_alg».proof.Proof.KPay

set_option maxRecDepth 16384

noncomputable section

open scoped BigOperators

namespace Cert.KernelIdeal.KV

open Cert.KernelIdeal Cert.KernelIdeal.Gen
open Idealize.ShloMosaic Idealize.ShloMosaic.TcCoe Idealize.ShloMosaic.ValueIdx Idealize.SL.Sem
open Idealize.ShloMosaic.Pipeline (Dat Cfg Window)

/-- A rank-2 array given entry by entry. -/
def arr2 {a b : Nat} {α : Type} (f : Fin a → Fin b → α) : (⟨2, ![a, b]⟩ : Shape).Idx → α := fun idx => f (idx 0) (idx 1)

theorem arr2_ix2 {a b : Nat} {α : Type} (f : Fin a → Fin b → α) (i : Fin a) (j : Fin b) : arr2 f (ix2 i j) = f i j := rfl

theorem hz : (![0, 0] : Fin 2 → Nat) = fun _ => 0 := funext fun a => by fin_cases a <;> rfl

/-- The first layer's row formula over whole arrays: relu (x·W_self + (agg ∘ inverse degree)·W_neigh + bias row). -/
def layer1 (x agg : S100000x128.Idx → EReal) (dinv : S100000x1.Idx → EReal) (ws wn : S128x128.Idx → EReal)
    (b : S1x128.Idx → EReal) (i : Fin 100000) (j : Fin 128) : EReal :=
  max ((∑ k : Fin 128, x (ix2 i k) * ws (ix2 k j)
      + ∑ k : Fin 128, (agg (ix2 i k) * dinv (ix2 i (0 : Fin 1))) * wn (ix2 k j)) + b (ix2 (0 : Fin 1) j)) 0

/-- The second call's logits over whole arrays: h·W_self + (projected neighbour sum ∘ inverse degree) + bias row. -/
def logits2 (h : S100000x128.Idx → EReal) (ws : S128x16.Idx → EReal) (aggp : S100000x16.Idx → EReal)
    (dinv : S100000x1.Idx → EReal) (b : S1x16.Idx → EReal) (i : Fin 100000) (c : Fin 16) : EReal :=
  (∑ k : Fin 128, h (ix2 i k) * ws (ix2 k c) + aggp (ix2 i c) * dinv (ix2 i (0 : Fin 1))) + b (ix2 (0 : Fin 1) c)

variable (V : (c : Dev nD) → (b : Ref sig .tc) → Buf (Elt Ideal) ((c : Thread nD τ).loc b))

/-- The first layer over the arrays the first call is entered with. -/
abbrev L1 (c : Dev nD) : Fin 100000 → Fin 128 → EReal :=
  layer1 (V c main_arg0) (V c main_v18) (V c main_v8) (V c main_arg3) (V c main_arg4) (V c main_v19)

/-- The projected layer over the arrays the first call is entered with: at (i, c) the sum over k of the first layer
    (i, k) times the second layer's neighbour weight (k, c). -/
def P1 (c : Dev nD) : Fin 100000 → Fin 16 → EReal :=
  fun i cc => ∑ k : Fin 128, L1 V c i k * V c main_arg7 (ix2 k cc)

/-! ## The first call -/

theorem flushed0_7_eq (c : Dev nD) (t : Fin cfg0.N) :
    (dat0 V c).flushed 7 t = ((cfg0.win 7).blk t).view.read (Elt Ideal) (arr2 (L1 V c)) := by
  show (cfg0.win 7).cut (grid0.coords t) ((dat0 V c).after 7 t) = _
  rw [after0_7]
  unfold out0_7
  rw [View.canon_unit_zero hz]
  simp only [View.ld_unit_zero (S := S4000x128) hz, View.ld_unit_zero (S := S4000x1) hz,
    View.ld_unit_zero (S := S128x128) hz, View.ld_unit_zero (S := S1x128) hz]
  funext y
  obtain ⟨r, j, rfl⟩ : ∃ (r : Fin 4000) (j : Fin 128), y = ix2 r j := ⟨y 0, y 1, eq_ix2 y⟩
  show k0_pay2 (F := Ideal) (iblk0 V c 0 t) (iblk0 V c 1 t) (iblk0 V c 2 t) (iblk0 V c 3 t) (iblk0 V c 4 t) (iblk0 V c 5 t) (ix2 r j)
    = arr2 (L1 V c) (((cfg0.win 7).blk t).view.emb (ix2 r j))
  rw [emb0_7 t r j, arr2_ix2]
  refine (stored_pay_apply _ _ _ _ _ _ r j).trans ((layer1_pay_apply _ _ _ _ _ _ r j).trans ?_)
  simp only [blk0_0 V c t, blk0_1 V c t, blk0_2 V c t, blk0_3 V c t, blk0_4 V c t, blk0_5 V c t]
  rfl

/-- After the first call the stored layer holds the first layer's row formula at every entry. -/
theorem final0_7 (c : Dev nD) : (dat0 V c).arrAt 7 cfg0.N = arr2 (L1 V c) :=
  (dat0 V c).arrAt_eq_of_cover 7 (arr2 (L1 V c)) (fun t _ => flushed0_7_eq V c t) covered0_7

theorem flushed0_8_eq (c : Dev nD) (t : Fin cfg0.N) :
    (dat0 V c).flushed 8 t = ((cfg0.win 8).blk t).view.read (Elt Ideal)
      (arr2 (P1 V c)) := by
  show (cfg0.win 8).cut (grid0.coords t) ((dat0 V c).after 8 t) = _
  rw [after0_8]
  unfold out0_8
  rw [View.canon_unit_zero hz]
  simp only [View.ld_unit_zero (S := S4000x128) hz, View.ld_unit_zero (S := S4000x1) hz,
    View.ld_unit_zero (S := S128x128) hz, View.ld_unit_zero (S := S1x128) hz, View.ld_unit_zero (S := S128x16) hz]
  funext y
  obtain ⟨r, cc, rfl⟩ : ∃ (r : Fin 4000) (cc : Fin 16), y = ix2 r cc := ⟨y 0, y 1, eq_ix2 y⟩
  show k0_pay3 (F := Ideal) (iblk0 V c 0 t) (iblk0 V c 1 t) (iblk0 V c 2 t) (iblk0 V c 3 t) (iblk0 V c 4 t) (iblk0 V c 5 t) (iblk0 V c 6 t) (ix2 r cc)
    = arr2 (P1 V c) (((cfg0.win 8).blk t).view.emb (ix2 r cc))
  rw [emb0_8 t r cc, arr2_ix2]
  unfold P1
  refine (proj_pay_apply _ _ _ _ _ _ _ r cc).trans ?_
  refine Finset.sum_congr rfl fun k _ => ?_
  refine congrArg₂ (· * ·) ((layer1_pay_apply _ _ _ _ _ _ r k).trans ?_) (blk0_6 V c t k cc)
  simp only [blk0_0 V c t, blk0_1 V c t, blk0_2 V c t, blk0_3 V c t, blk0_4 V c t, blk0_5 V c t]
  rfl

/-- After the first call the projected layer holds, at (i, c), the sum over k of the first layer (i, k) times the
    second layer's neighbour weight (k, c). -/
theorem final0_8 (c : Dev nD) :
    (dat0 V c).arrAt 8 cfg0.N = arr2 (P1 V c) :=
  (dat0 V c).arrAt_eq_of_cover 8 (arr2 (P1 V c)) (fun t _ => flushed0_8_eq V c t) covered0_8

/-! ## The second call -/

/-- The second call's logits over the arrays it is entered with. -/
abbrev Z2 (c : Dev nD) : Fin 100000 → Fin 16 → EReal :=
  logits2 (V c main_v20_0) (V c main_arg6) (V c main_v30) (V c main_v8) (V c main_v31)

/-- The log-softmax of the second call's logits, entry by entry. -/
def O2 (c : Dev nD) : Fin 100000 → Fin 16 → EReal := fun i cc => Cert.Sage.logSoftmax (Z2 V c i) cc

theorem flushed1_5_eq (c : Dev nD) (t : Fin cfg1.N) :
    (dat1 V c).flushed 5 t = ((cfg1.win 5).blk t).view.read (Elt Ideal) (arr2 (O2 V c)) := by
  show (cfg1.win 5).cut (grid1.coords t) ((dat1 V c).after 5 t) = _
  rw [after1_5]
  unfold out1_5
  rw [View.canon_unit_zero hz]
  simp only [View.ld_unit_zero (S := S4000x128) hz, View.ld_unit_zero (S := S4000x1) hz,
    View.ld_unit_zero (S := S4000x16) hz, View.ld_unit_zero (S := S128x16) hz, View.ld_unit_zero (S := S1x16) hz]
  funext y
  obtain ⟨r, cc, rfl⟩ : ∃ (r : Fin 4000) (cc : Fin 16), y = ix2 r cc := ⟨y 0, y 1, eq_ix2 y⟩
  show k1_pay1 (F := Ideal) (iblk1 V c 0 t) (iblk1 V c 3 t) (iblk1 V c 1 t) (iblk1 V c 2 t) (iblk1 V c 4 t) (ix2 r cc)
    = arr2 (O2 V c) (((cfg1.win 5).blk t).view.emb (ix2 r cc))
  rw [emb1_5 t r cc, arr2_ix2]
  unfold O2
  refine (layer2_pay_apply _ _ _ _ _ r cc).trans ?_
  simp only [blk1_0 V c t, blk1_1 V c t, blk1_2 V c t, blk1_3 V c t, blk1_4 V c t]
  rfl

/-- After the second call the result holds the log-softmax of the logits' row at every entry. -/
theorem final1_5 (c : Dev nD) :
    (dat1 V c).arrAt 5 cfg1.N = arr2 (O2 V c) :=
  (dat1 V c).arrAt_eq_of_cover 5 (arr2 (O2 V c)) (fun t _ => flushed1_5_eq V c t) covered1_5

end Cert.KernelIdeal.KV

end
-- ==== Proof.KHostDefs.lean ====
/-
  The host operations around the two pipelined calls, as functions of the argument arrays.

  The edge list gives two columns of row numbers: the destination column (the numbers as given) and the source column
  (a negative number moved up by the node count). The inverse degree of a node is one over the larger of 1 and the
  number of edges into it, kept as a column. The neighbour sum of an array gathers the source rows and scatter-adds them
  at the destination rows into zeros; it is taken of the 128-wide input and of the 16-wide projected layer.
  The two bias vectors are kept as rows.
-/
import proofs.«113011_j20538533609946_2_alg».proof.Proof.Gen.KernelIdeal
import Idealize.ShloMosaic.PureOps.Ideal

noncomputable section

namespace Cert.KernelIdeal.KV

open Cert.KernelIdeal Cert.KernelIdeal.Facts₀ Cert.KernelIdeal.Facts Idealize.ShloMosaic

/-- The destination numbers as a column. -/
def dstCol (a2 : (⟨S1600000, .i32⟩ : BufTy).Contents (Elt Ideal)) : (⟨S1600000x1, .i32⟩ : BufTy).Contents (Elt Ideal) :=
  broadcastInDim S1600000x1 ![0] bcast_S1600000_S1600000x1_0 a2

/-- The source numbers as a column, a negative number moved up by the node count. -/
def srcCol (a1 : (⟨S1600000, .i32⟩ : BufTy).Contents (Elt Ideal)) : (⟨S1600000x1, .i32⟩ : BufTy).Contents (Elt Ideal) :=
  broadcastInDim S1600000x1 ![0] bcast_S1600000_S1600000x1_0
    (select (cmpi .slt a1 (broadcastInDim S1600000 ![] bcast_S_S1600000 (constantI S_ 32 0#32)))
      (addi a1 (broadcastInDim S1600000 ![] bcast_S_S1600000 (constantI S_ 32 100000#32))) a1)

/-- One over the degree, as a column: 1 / max (0 + one per edge into the node) 1. -/
def degInv (a2 : (⟨S1600000, .i32⟩ : BufTy).Contents (Elt Ideal)) : (⟨S100000x1, .f32⟩ : BufTy).Contents (Elt Ideal) :=
  shapeCast S100000x1
    (Host.divf (F := Ideal) (broadcastInDim S100000 ![] bcast_S_S100000 (constant (F := Ideal) S_ .f32 0x3F800000#32))
      (maximumf
        (Host.scatterAdd (F := Ideal) scatter_S100000_S1600000x1_S1600000_n_0_0_1
          (broadcastInDim S100000 ![] bcast_S_S100000 (constant (F := Ideal) S_ .f32 0x00000000#32)) (dstCol a2)
          (broadcastInDim S1600000 ![] bcast_S_S1600000 (constant (F := Ideal) S_ .f32 0x3F800000#32)))
        (broadcastInDim S100000 ![] bcast_S_S100000 (constant (F := Ideal) S_ .f32 0x3F800000#32))))
    shapeCasts_S100000_S100000x1

/-- The neighbour sum of a 128-wide array: source rows gathered, scatter-added at the destination rows into zeros. -/
def agg128 (X : (⟨S100000x128, .f32⟩ : BufTy).Contents (Elt Ideal)) (a1 a2 : (⟨S1600000, .i32⟩ : BufTy).Contents (Elt Ideal)) :
    (⟨S100000x128, .f32⟩ : BufTy).Contents (Elt Ideal) :=
  Host.scatterAdd (F := Ideal) scatter_S100000x128_S1600000x1_S1600000x128_1_0_0_1
    (broadcastInDim S100000x128 ![] bcast_S_S100000x128 (constant (F := Ideal) S_ .f32 0x00000000#32)) (dstCol a2)
    (Host.gather gather_S100000x128_S1600000x1_S1600000x128_1_0_n_n_0_1_1128 X (srcCol a1))

/-- The neighbour sum of a 16-wide array. -/
def agg16 (P : (⟨S100000x16, .f32⟩ : BufTy).Contents (Elt Ideal)) (a1 a2 : (⟨S1600000, .i32⟩ : BufTy).Contents (Elt Ideal)) :
    (⟨S100000x16, .f32⟩ : BufTy).Contents (Elt Ideal) :=
  Host.scatterAdd (F := Ideal) scatter_S100000x16_S1600000x1_S1600000x16_1_0_0_1
    (broadcastInDim S100000x16 ![] bcast_S_S100000x16 (constant (F := Ideal) S_ .f32 0x00000000#32)) (dstCol a2)
    (Host.gather gather_S100000x16_S1600000x1_S1600000x16_1_0_n_n_0_1_116 P (srcCol a1))

/-- The first layer's bias as a row. -/
def biasRow128 (b : (⟨S128, .f32⟩ : BufTy).Contents (Elt Ideal)) : (⟨S1x128, .f32⟩ : BufTy).Contents (Elt Ideal) :=
  shapeCast S1x128 b shapeCasts_S128_S1x128

/-- The second layer's bias as a row. -/
def biasRow16 (b : (⟨S16, .f32⟩ : BufTy).Contents (Elt Ideal)) : (⟨S1x16, .f32⟩ : BufTy).Contents (Elt Ideal) :=
  shapeCast S1x16 b shapeCasts_S16_S1x16

end Cert.KernelIdeal.KV

end
-- ==== Proof.KHost.lean ====
/-
  What the two calls are entered with: the fold of the host operations over the launch memory, by name.

  Before the first call the host operations leave the inverse-degree column, the neighbour sum of the input and the
  first bias as a row; the arguments are as launched. Between the calls they leave the neighbour sum of the projected
  layer and the second bias as a row; the first call's outputs, the inverse-degree column and the arguments pass through.
-/
import proofs.«113011_j20538533609946_2_alg».proof.Proof.Gen.KernelIdeal.Frame
import proofs.«113011_j20538533609946_2_alg».proof.Proof.KHostDefs

set_option maxRecDepth 16384

noncomputable section

namespace Cert.KernelIdeal.KV

open Cert.KernelIdeal Cert.KernelIdeal.Gen Cert.KernelIdeal.Facts₀ Cert.KernelIdeal.Facts
open Idealize.ShloMosaic Idealize.ShloMosaic.TcCoe Idealize.SL.Sem Idealize.ShloMosaic.StableHlo
open Idealize.ShloMosaic.Pipeline (Dat Cfg Window)

variable (m : (ℓ : Loc nD τ sig) → Buf (Elt Ideal) ℓ) (ρ : Dev nD → PrngReg) (c : Dev nD)

/-! ## Before the first call -/

set_option maxHeartbeats 4000000 in
theorem V1_arg0 : V1 m ρ c main_arg0 = m ((c : Thread nD τ).loc main_arg0) := by
  show StableHlo.after hostOps0 (W0 m ρ c) (Proc.devRef .tc main_arg0) = _
  after_results_simp
set_option maxHeartbeats 4000000 in
theorem V1_arg1 : V1 m ρ c main_arg1 = m ((c : Thread nD τ).loc main_arg1) := by
  show StableHlo.after hostOps0 (W0 m ρ c) (Proc.devRef .tc main_arg1) = _
  after_results_simp
set_option maxHeartbeats 4000000 in
theorem V1_arg2 : V1 m ρ c main_arg2 = m ((c : Thread nD τ).loc main_arg2) := by
  show StableHlo.after hostOps0 (W0 m ρ c) (Proc.devRef .tc main_arg2) = _
  after_results_simp
set_option maxHeartbeats 4000000 in
theorem V1_arg3 : V1 m ρ c main_arg3 = m ((c : Thread nD τ).loc main_arg3) := by
  show StableHlo.after hostOps0 (W0 m ρ c) (Proc.devRef .tc main_arg3) = _
  after_results_simp
set_option maxHeartbeats 4000000 in
theorem V1_arg4 : V1 m ρ c main_arg4 = m ((c : Thread nD τ).loc main_arg4) := by
  show StableHlo.after hostOps0 (W0 m ρ c) (Proc.devRef .tc main_arg4) = _
  after_results_simp
set_option maxHeartbeats 4000000 in
theorem V1_arg6 : V1 m ρ c main_arg6 = m ((c : Thread nD τ).loc main_arg6) := by
  show StableHlo.after hostOps0 (W0 m ρ c) (Proc.devRef .tc main_arg6) = _
  after_results_simp
set_option maxHeartbeats 4000000 in
theorem V1_arg7 : V1 m ρ c main_arg7 = m ((c : Thread nD τ).loc main_arg7) := by
  show StableHlo.after hostOps0 (W0 m ρ c) (Proc.devRef .tc main_arg7) = _
  after_results_simp
set_option maxHeartbeats 4000000 in
theorem V1_arg8 : V1 m ρ c main_arg8 = m ((c : Thread nD τ).loc main_arg8) := by
  show StableHlo.after hostOps0 (W0 m ρ c) (Proc.devRef .tc main_arg8) = _
  after_results_simp

set_option maxHeartbeats 4000000 in
/-- The inverse-degree column. -/
theorem V1_v8 : V1 m ρ c main_v8 = degInv (m ((c : Thread nD τ).loc main_arg2)) := by
  show StableHlo.after hostOps0 (W0 m ρ c) (Proc.devRef .tc main_v8) = _
  after_results_simp
  rfl

set_option maxHeartbeats 4000000 in
/-- The neighbour sum of the input. -/
theorem V1_v18 : V1 m ρ c main_v18
    = agg128 (m ((c : Thread nD τ).loc main_arg0)) (m ((c : Thread nD τ).loc main_arg1)) (m ((c : Thread nD τ).loc main_arg2)) := by
  show StableHlo.after hostOps0 (W0 m ρ c) (Proc.devRef .tc main_v18) = _
  after_results_simp
  rfl

set_option maxHeartbeats 4000000 in
/-- The first bias as a row. -/
theorem V1_v19 : V1 m ρ c main_v19 = biasRow128 (m ((c : Thread nD τ).loc main_arg5)) := by
  show StableHlo.after hostOps0 (W0 m ρ c) (Proc.devRef .tc main_v19) = _
  after_results_simp
  rfl

/-! ## Between the calls -/

/-- A buffer the first call has no window on passes through it. -/
theorem W2_arg1 : W2 m ρ c (Proc.devRef .tc main_arg1) = m ((c : Thread nD τ).loc main_arg1) :=
  (W2_of_ne m ρ c main_arg1 (by decide)).trans (V1_arg1 m ρ c)
theorem W2_arg2 : W2 m ρ c (Proc.devRef .tc main_arg2) = m ((c : Thread nD τ).loc main_arg2) :=
  (W2_of_ne m ρ c main_arg2 (by decide)).trans (V1_arg2 m ρ c)
theorem W2_arg6 : W2 m ρ c (Proc.devRef .tc main_arg6) = m ((c : Thread nD τ).loc main_arg6) :=
  (W2_of_ne m ρ c main_arg6 (by decide)).trans (V1_arg6 m ρ c)
theorem W2_arg8 : W2 m ρ c (Proc.devRef .tc main_arg8) = m ((c : Thread nD τ).loc main_arg8) :=
  (W2_of_ne m ρ c main_arg8 (by decide)).trans (V1_arg8 m ρ c)

/-- The inverse-degree column is an input of the first call: it leaves it as it found it. -/
theorem W2_v8 : W2 m ρ c (Proc.devRef .tc main_v8) = degInv (m ((c : Thread nD τ).loc main_arg2)) :=
  (W2_arr m ρ c 2).trans ((((dat0 (V1 m ρ) c).arrAt_in 2 rfl _).trans (A_eq0 (V1 m ρ) c 2)).trans (V1_v8 m ρ c))

set_option maxHeartbeats 4000000 in
/-- The stored first layer as the first call left it. -/
theorem V3_v20_0 : V3 m ρ c main_v20_0 = (dat0 (V1 m ρ) c).arrAt 7 cfg0.N := by
  show StableHlo.after hostOps1 (W2 m ρ c) (Proc.devRef .tc main_v20_0) = _
  after_results_simp
  exact W2_arr m ρ c 7

set_option maxHeartbeats 4000000 in
/-- The neighbour sum of the projected layer as the first call left it. -/
theorem V3_v30 : V3 m ρ c main_v30
    = agg16 ((dat0 (V1 m ρ) c).arrAt 8 cfg0.N) (m ((c : Thread nD τ).loc main_arg1)) (m ((c : Thread nD τ).loc main_arg2)) := by
  show StableHlo.after hostOps1 (W2 m ρ c) (Proc.devRef .tc main_v30) = _
  after_results_simp
  have h8 : W2 m ρ c (Proc.devRef .tc main_v20_1) = (dat0 (V1 m ρ) c).arrAt 8 cfg0.N := W2_arr m ρ c 8
  rw [h8, W2_arg1 m ρ c, W2_arg2 m ρ c]
  rfl

set_option maxHeartbeats 4000000 in
theorem V3_v8 : V3 m ρ c main_v8 = degInv (m ((c : Thread nD τ).loc main_arg2)) := by
  show StableHlo.after hostOps1 (W2 m ρ c) (Proc.devRef .tc main_v8) = _
  after_results_simp
  exact W2_v8 m ρ c

set_option maxHeartbeats 4000000 in
theorem V3_arg6 : V3 m ρ c main_arg6 = m ((c : Thread nD τ).loc main_arg6) := by
  show StableHlo.after hostOps1 (W2 m ρ c) (Proc.devRef .tc main_arg6) = _
  after_results_simp
  exact W2_arg6 m ρ c

set_option maxHeartbeats 4000000 in
/-- The second bias as a row. -/
theorem V3_v31 : V3 m ρ c main_v31 = biasRow16 (m ((c : Thread nD τ).loc main_arg8)) := by
  show StableHlo.after hostOps1 (W2 m ρ c) (Proc.devRef .tc main_v31) = _
  after_results_simp
  rw [W2_arg8 m ρ c]
  rfl

end Cert.KernelIdeal.KV

end
-- ==== Proof.LibDenseRead.lean ====
/-
  Dense-layer pieces on the host read at one entry, at the extended reals.

  * The host's plain matrix product of an `m × k` by a `k × n` array holds at entry `(a, b)` the sum over the
    contracted position `c` of `A[a,c] · B[c,b]` (no accumulator, whatever the schedule key).
  * A bias vector `[n]` placed as the row `[1, n]` and repeated down `m` rows holds at `(p, c)` the vector's entry `c`.
  * The zero word filled into any shape holds `0` at every index.
-/
import Idealize.ShloMosaic.PureOps.Ideal.Laws
import Idealize.ShloMosaic.Lib.ValueIdx
import Idealize.ShloMosaic.Lib.Pipeline.Value
import proofs.«113011_j20538533609946_2_alg».proof.Proof.LibPlainMatmul

noncomputable section

open scoped BigOperators

namespace Idealize.ShloMosaic.DenseRead

open Idealize.ShloMosaic Idealize.ShloMosaic.ValueIdx Idealize.ShloMosaic.PlainMatmul

variable {m k n : Nat}

/-- **The host's plain product at an entry**: `∑ c, A[a,c] · B[c,b]`. -/
theorem dotGeneral_apply {φ₁ φ₂ : FTy} (prec : Option ContractPrecision) (sched : HostSchedule)
    (A : FVec Ideal ⟨2, ![m, k]⟩ φ₁) (B : FVec Ideal ⟨2, ![k, n]⟩ φ₂) (a : Fin m) (b : Fin n) :
    FloatOps.dotGeneral (DotDims.plain m k n) prec sched A B (ix2 a b) = ∑ c : Fin k, A (ix2 a c) * B (ix2 c b) := by
  rw [Ideal.dotGeneral_apply, ← Equiv.sum_comp (contrEquiv1 (DotDims.plain m k n) k rfl rfl).symm]
  refine Finset.sum_congr rfl fun c _ => ?_
  have hc := contrEquiv1_symm_val (DotDims.plain m k n) k rfl rfl c
  have el : (DotDims.plain m k n).lhsIdx (ix2 a b) ((contrEquiv1 (DotDims.plain m k n) k rfl rfl).symm c) = ix2 a c :=
    funext fun ax => Fin.ext (by
      match ax with
      | ⟨0, _⟩ => exact lhs_row _ _
      | ⟨1, _⟩ => exact (lhs_col _ _).trans hc)
  have er : (DotDims.plain m k n).rhsIdx (ix2 a b) ((contrEquiv1 (DotDims.plain m k n) k rfl rfl).symm c) = ix2 c b :=
    funext fun ax => Fin.ext (by
      match ax with
      | ⟨0, _⟩ => exact (rhs_row _ _).trans hc
      | ⟨1, _⟩ => exact rhs_col _ _)
  rw [el, er]

/-- A bias vector placed as a row and repeated down the rows, at `(p, c)`: the vector's entry `c`. -/
theorem biasRows_apply {α : Type} (x : (⟨1, ![n]⟩ : Shape).Idx → α)
    (h1 : (⟨1, ![n]⟩ : Shape).BroadcastsInDim ⟨2, ![1, n]⟩ (![1] : Fin 1 → Fin 2))
    (h2 : (⟨2, ![1, n]⟩ : Shape).BroadcastsInDim ⟨2, ![m, n]⟩ (![0, 1] : Fin 2 → Fin 2)) (p : Fin m) (c : Fin n) :
    broadcastInDim ⟨2, ![m, n]⟩ ![0, 1] h2 (broadcastInDim ⟨2, ![1, n]⟩ ![1] h1 x) (ix2 p c) = x (ix1 c) := by
  refine (broadcastInDim_apply _ h2 _ (ix2 p c) (ix2 (0 : Fin 1) c) (fun a => ?_)).trans
    (broadcastInDim_apply _ h1 x (ix2 (0 : Fin 1) c) (ix1 c) (fun a => ?_))
  · match a with
    | ⟨0, _⟩ => show 0 = if (1 : Nat) = 1 then 0 else p.val; rw [if_pos rfl]
    | ⟨1, _⟩ =>
      show c.val = if n = 1 then 0 else c.val
      split
      · have := c.isLt; omega
      · rfl
  · match a with
    | ⟨0, _⟩ =>
      show c.val = if n = 1 then 0 else c.val
      split
      · have := c.isLt; omega
      · rfl

/-- The zero word filled into a shape, at any index: `0`. -/
theorem zeroFill_apply {s : Shape} (h : (⟨0, ![]⟩ : Shape).BroadcastsInDim s (![] : Fin 0 → Fin s.rank)) (i : s.Idx) :
    broadcastInDim s ![] h (constant (F := Ideal) ⟨0, ![]⟩ .f32 0x00000000#32) i = (0 : EReal) :=
  (broadcastInDim_apply _ h _ i ix0 (fun a => a.elim0)).trans Ideal.ofBits_zero_f32

end Idealize.ShloMosaic.DenseRead

end
-- ==== Proof.KHostRead.lean ====
/-
  The host operations around the two pipelined calls, read at one entry, on the extended reals.

  A column of edge numbers scatters one per edge, or a gathered row per edge, into an array of zeros: entry `i` of the
  result is zero plus the sum over the edges whose destination number is `i`.  So the scattered ones count the edges
  into a node, the larger of that count and one is the degree, and one divided by the degree (which is not zero) is its
  inverse; and the scattered gathered rows are the neighbour sums.  A vector cast to a row reads back its own entries.
-/
import proofs.«113011_j20538533609946_2_alg».proof.Proof.KHostDefs
import proofs.«113011_j20538533609946_2_alg».proof.Proof.Spec
import proofs.«113011_j20538533609946_2_alg».proof.Proof.LibRowScatter
import proofs.«113011_j20538533609946_2_alg».proof.Proof.LibDenseRead
import proofs.«113011_j20538533609946_2_alg».proof.Proof.LibAxisReads
import Idealize.ShloMosaic.Lib.ValueLayout
import Idealize.ShloMosaic.Lib.IdealHost

noncomputable section

open scoped BigOperators

namespace Cert.KernelIdeal.KV

open Cert.KernelIdeal Cert.KernelIdeal.Facts₀ Cert.KernelIdeal.Facts Idealize.ShloMosaic Idealize.ShloMosaic.ValueIdx

/-! ### Splats, and a scatter-add into a rank-1 array -/

/-- The word of 1.0 filled into a shape, at any index: `1`. -/
theorem oneFill_apply {s : Shape} (h : (⟨0, ![]⟩ : Shape).BroadcastsInDim s (![] : Fin 0 → Fin s.rank)) (i : s.Idx) :
    broadcastInDim s ![] h (constant (F := Ideal) ⟨0, ![]⟩ .f32 0x3F800000#32) i = (1 : EReal) :=
  (broadcastInDim_apply _ h _ i ix0 (fun a => a.elim0)).trans Ideal.ofBits_one_f32

/-- The host's scatter-add into a rank-1 array at the ideal values: the entry before plus the sum of the updates whose
    signed number is that entry. -/
theorem hostScatterAddCol_apply {φ : FTy} {N R w : Nat}
    (wf : ScatterDims.WF ⟨1, ![N]⟩ ⟨2, ![R, 1]⟩ ⟨1, ![R]⟩ [] [0] [0] 1)
    (x : FVec Ideal ⟨1, ![N]⟩ φ) (idx : IVec ⟨2, ![R, 1]⟩ w) (u : FVec Ideal ⟨1, ![R]⟩ φ) (n : Fin N) :
    Host.scatterAdd (RowScatter.scatterCol N R wf) x idx u (ix1 n)
      = x (ix1 n) + ∑ e ∈ Finset.univ.filter (fun e : Fin R => RowScatter.rowNo idx e = (n.val : Int)), u (ix1 e) :=
  RowScatter.scatterAddCol_apply wf x idx u n

/-- One divided by a number that is not zero, entry by entry, is its inverse. -/
theorem one_div_apply {s : Shape} (num den : FVec Ideal s .f32) (i : s.Idx) (d : EReal)
    (hn : num i = (1 : EReal)) (hd : den i = d) (h0 : d ≠ 0) : Host.divf (F := Ideal) num den i = d⁻¹ := by
  show Ideal.div (num i) (den i) = d⁻¹
  rw [hn, hd]
  unfold Ideal.div
  rw [if_neg h0, one_mul]

/-- One over the larger of a count and one, kept as a column: with the numerator reading one and the count reading
    `c` at node `i`, the column reads the inverse of `max c 1` there. -/
theorem inv_max_one_read (one cnt : FVec Ideal S100000 .f32) (i : Fin 100000) (c : EReal)
    (h1 : one (ix1 i) = (1 : EReal)) (hc : cnt (ix1 i) = c) (h0 : max c 1 ≠ 0) :
    shapeCast S100000x1 (Host.divf (F := Ideal) one (maximumf cnt one)) shapeCasts_S100000_S100000x1 (ix2 i (0 : Fin 1))
      = (max c 1)⁻¹ := by
  refine (Cert.AxisReads.shapeCast_a_a1_apply _ shapeCasts_S100000_S100000x1 i (0 : Fin 1)).trans ?_
  show Ideal.div (one (ix1 i)) (max (cnt (ix1 i)) (one (ix1 i))) = (max c 1)⁻¹
  rw [h1, hc]
  unfold Ideal.div
  rw [if_neg h0, one_mul]

/-- One per edge scatter-added into zeros at the destination numbers: at node `i`, zero plus one per edge into `i`. -/
theorem count_apply (a2 : (⟨S1600000, .i32⟩ : BufTy).Contents (Elt Ideal)) (i : Fin 100000) :
    Host.scatterAdd (F := Ideal) scatter_S100000_S1600000x1_S1600000_n_0_0_1
        (broadcastInDim S100000 ![] bcast_S_S100000 (constant (F := Ideal) S_ .f32 0x00000000#32)) (dstCol a2)
        (broadcastInDim S1600000 ![] bcast_S_S1600000 (constant (F := Ideal) S_ .f32 0x3F800000#32)) (ix1 i)
      = (0 : EReal) + ∑ _e ∈ Cert.Sage.inEdges (dstCol a2) i, (1 : EReal) := by
  unfold Cert.Sage.inEdges
  refine (hostScatterAddCol_apply scatter_S100000_S1600000x1_S1600000_n_0_0_1_wf _ (dstCol a2) _ i).trans ?_
  refine congrArg₂ (· + ·) (DenseRead.zeroFill_apply bcast_S_S100000 (ix1 i)) ?_
  exact Finset.sum_congr rfl fun e _ => oneFill_apply bcast_S_S1600000 (ix1 e)

/-! ### The inverse degree -/

theorem degInv_apply (a2 : (⟨S1600000, .i32⟩ : BufTy).Contents (Elt Ideal)) (i : Fin 100000) :
    degInv a2 (ix2 i (0 : Fin 1)) = (Cert.Sage.degree (dstCol a2) i)⁻¹ := by
  unfold degInv
  exact inv_max_one_read _ _ i _ (oneFill_apply bcast_S_S100000 (ix1 i)) (count_apply a2 i)
    (Cert.Sage.degree_ne_zero (dstCol a2) i)

/-! ### The neighbour sums -/

theorem agg128_apply (X : (⟨S100000x128, .f32⟩ : BufTy).Contents (Elt Ideal)) (a1 a2 : (⟨S1600000, .i32⟩ : BufTy).Contents (Elt Ideal)) (i : Fin 100000) (k : Fin 128) :
    agg128 X a1 a2 (ix2 i k) = Cert.Sage.nsum (fun n k => X (ix2 n k)) (srcCol a1) (dstCol a2) i k := by
  unfold agg128 Cert.Sage.nsum Cert.Sage.inEdges Cert.Sage.srcRow
  refine (RowScatter.hostScatterAddRows_apply scatter_S100000x128_S1600000x1_S1600000x128_1_0_0_1_wf _ (dstCol a2) _ i k).trans ?_
  refine congrArg₂ (· + ·) (DenseRead.zeroFill_apply bcast_S_S100000x128 (ix2 i k)) ?_
  exact Finset.sum_congr rfl fun e _ =>
    RowScatter.gatherRows_apply gather_S100000x128_S1600000x1_S1600000x128_1_0_n_n_0_1_1128_wf (srcCol a1) e k
      Cert.Sage.nodes_pos X

theorem agg16_apply (P : (⟨S100000x16, .f32⟩ : BufTy).Contents (Elt Ideal)) (a1 a2 : (⟨S1600000, .i32⟩ : BufTy).Contents (Elt Ideal)) (i : Fin 100000) (c : Fin 16) :
    agg16 P a1 a2 (ix2 i c) = Cert.Sage.nsum (fun n c => P (ix2 n c)) (srcCol a1) (dstCol a2) i c := by
  unfold agg16 Cert.Sage.nsum Cert.Sage.inEdges Cert.Sage.srcRow
  refine (RowScatter.hostScatterAddRows_apply scatter_S100000x16_S1600000x1_S1600000x16_1_0_0_1_wf _ (dstCol a2) _ i c).trans ?_
  refine congrArg₂ (· + ·) (DenseRead.zeroFill_apply bcast_S_S100000x16 (ix2 i c)) ?_
  exact Finset.sum_congr rfl fun e _ =>
    RowScatter.gatherRows_apply gather_S100000x16_S1600000x1_S1600000x16_1_0_n_n_0_1_116_wf (srcCol a1) e c
      Cert.Sage.nodes_pos P

/-! ### The bias rows -/

theorem biasRow128_apply (b : (⟨S128, .f32⟩ : BufTy).Contents (Elt Ideal)) (j : Fin 128) : biasRow128 b (ix2 (0 : Fin 1) j) = b (ix1 j) := by
  unfold biasRow128
  exact shapeCast_a_1a_apply b shapeCasts_S128_S1x128 (0 : Fin 1) j

theorem biasRow16_apply (b : (⟨S16, .f32⟩ : BufTy).Contents (Elt Ideal)) (c : Fin 16) : biasRow16 b (ix2 (0 : Fin 1) c) = b (ix1 c) := by
  unfold biasRow16
  exact shapeCast_a_1a_apply b shapeCasts_S16_S1x16 (0 : Fin 1) c

end Cert.KernelIdeal.KV

end
-- ==== Proof.KValue.lean ====
/-
  The idealized kernel's result, entry by entry, as a function of the argument arrays.

  The last boundary's contents at the result's buffer are what the second call leaves there: the log-softmax of its
  logits' row. Its operands are the first call's two outputs (the rectified first layer, and that layer projected by
  the second layer's neighbour weights and then summed over each node's incoming edges by the host), the inverse-degree
  column and the weights. Read at an entry this is the log-softmax of the logits whose neighbour term is projected
  before it is aggregated.
-/
import proofs.«113011_j20538533609946_2_alg».proof.Proof.KFinal
import proofs.«113011_j20538533609946_2_alg».proof.Proof.KHost
import proofs.«113011_j20538533609946_2_alg».proof.Proof.KHostRead

set_option maxRecDepth 16384

noncomputable section

open scoped BigOperators

namespace Cert.KernelIdeal.KV

open Cert.KernelIdeal Cert.KernelIdeal.Gen
open Idealize.ShloMosaic Idealize.ShloMosaic.TcCoe Idealize.ShloMosaic.ValueIdx Idealize.SL.Sem
open Idealize.ShloMosaic.Pipeline (Dat Cfg Window)

variable (m : (ℓ : Loc nD τ sig) → Buf (Elt Ideal) ℓ) (ρ : Dev nD → PrngReg) (c : Dev nD)

/-- The first layer as a function of the argument arrays. -/
abbrev Hid : Fin 100000 → Fin 128 → EReal :=
  Cert.Sage.hidden (m ((c : Thread nD τ).loc main_arg0)) (srcCol (m ((c : Thread nD τ).loc main_arg1)))
    (dstCol (m ((c : Thread nD τ).loc main_arg2))) (m ((c : Thread nD τ).loc main_arg3)) (m ((c : Thread nD τ).loc main_arg4))
    (m ((c : Thread nD τ).loc main_arg5))

/-- The first call's row formula over what it is entered with is the first layer of the arguments. -/
theorem L1_eq (i : Fin 100000) (j : Fin 128) : L1 (V1 m ρ) c i j = Hid m c i j := by
  unfold L1 layer1 Hid Cert.Sage.hidden
  simp only [V1_arg0 m ρ c, V1_v18 m ρ c, V1_v8 m ρ c, V1_arg3 m ρ c, V1_arg4 m ρ c, V1_v19 m ρ c,
    agg128_apply, degInv_apply, biasRow128_apply]

/-- The projected layer the first call leaves: at (n, c') the sum over k of the first layer (n, k) times the second
    layer's neighbour weight (k, c'). -/
theorem P1_eq (n : Fin 100000) (c' : Fin 16) :
    P1 (V1 m ρ) c n c' = ∑ k : Fin 128, Hid m c n k * m ((c : Thread nD τ).loc main_arg7) (ix2 k c') := by
  unfold P1
  simp only [L1_eq m ρ c, V1_arg7 m ρ c]

/-- The second call's logits over what it is entered with: the neighbour term projected, then aggregated. -/
theorem Z2_eq (i : Fin 100000) (c' : Fin 16) :
    Z2 (V3 m ρ) c i c'
      = Cert.Sage.logitsProjFirst (Hid m c) (srcCol (m ((c : Thread nD τ).loc main_arg1))) (dstCol (m ((c : Thread nD τ).loc main_arg2)))
          (m ((c : Thread nD τ).loc main_arg6)) (m ((c : Thread nD τ).loc main_arg7)) (m ((c : Thread nD τ).loc main_arg8)) i c' := by
  unfold Z2 logits2 Cert.Sage.logitsProjFirst
  simp only [V3_v20_0 m ρ c, V3_v30 m ρ c, V3_v8 m ρ c, V3_arg6 m ρ c, V3_v31 m ρ c,
    final0_7 (V1 m ρ) c, final0_8 (V1 m ρ) c, arr2_ix2, agg16_apply, degInv_apply, biasRow16_apply,
    L1_eq m ρ c, P1_eq m ρ c]

/-- THE KERNEL'S RESULT at entry (i, cc). -/
theorem kernel_entry (i : Fin 100000) (cc : Fin 16) :
    W4 m ρ c (Proc.devRef .tc main_v32) (ix2 i cc)
      = Cert.Sage.logSoftmax (Cert.Sage.logitsProjFirst (Hid m c) (srcCol (m ((c : Thread nD τ).loc main_arg1)))
          (dstCol (m ((c : Thread nD τ).loc main_arg2))) (m ((c : Thread nD τ).loc main_arg6))
          (m ((c : Thread nD τ).loc main_arg7)) (m ((c : Thread nD τ).loc main_arg8)) i) cc := by
  have h5 : W4 m ρ c (Proc.devRef .tc main_v32) = (dat1 (V3 m ρ) c).arrAt 5 cfg1.N := W4_arr m ρ c 5
  rw [h5, final1_5 (V3 m ρ) c, arr2_ix2]
  unfold O2
  exact congrArg (fun a => Cert.Sage.logSoftmax a cc) (funext fun c' => Z2_eq m ρ c i c')

end Cert.KernelIdeal.KV

end
-- ==== Proof.RefValue.lean ====
/-
  The reference program read at one entry of its result.

  The program gathers the rows of the node features at the edges' source numbers, scatter-adds them into zeros at the
  edges' destination numbers (the neighbour sum), scatter-adds ones the same way and floors the count at one (the degree),
  divides, and forms layer 1 as relu (x · W_self + (neighbour sum / degree) · W_neigh + b).  Layer 2 repeats the
  aggregation over layer 1's array, divides by the degree, projects AFTER aggregating, adds the self term and the bias,
  and finishes with a row-wise log-softmax: the row's maximum (folded from -∞) is subtracted, then the logarithm of the
  row's sum of exponentials.

  Each stage is read at an index built from literal coordinates; the lemmas follow the layers of the mathematics:
  degree, neighbour sum, division, layer 1, layer 2's logits, log-softmax.
-/
import proofs.«113011_j20538533609946_2_alg».proof.Proof.RefReadP
import proofs.«113011_j20538533609946_2_alg».proof.Proof.Spec
import proofs.«113011_j20538533609946_2_alg».proof.Proof.LibRowScatter
import proofs.«113011_j20538533609946_2_alg».proof.Proof.LibDenseRead
import proofs.«113011_j20538533609946_2_alg».proof.Proof.LibAxisReads
import Idealize.ShloMosaic.Lib.IdealHost
import Idealize.ShloMosaic.PureOps.Reduce

noncomputable section

open scoped BigOperators

namespace Cert.Sage.Ref

open Cert.ReferenceIdeal Cert.ReferenceIdeal.ReadP Idealize.ShloMosaic Idealize.ShloMosaic.ValueIdx Idealize.ShloMosaic.RowScatter

/-! ## The printed dimension records are the row gather, the row scatter and the entry scatter -/

theorem gatherRec_eq : gather_S100000x128_S1600000x1_S1600000x128_1_0_n_n_0_1_1128
    = gatherRows 100000 1600000 128 Facts₀.gather_S100000x128_S1600000x1_S1600000x128_1_0_n_n_0_1_1128_wf := rfl

theorem scatterRowsRec_eq : scatter_S100000x128_S1600000x1_S1600000x128_1_0_0_1
    = scatterRows 100000 1600000 128 Facts₀.scatter_S100000x128_S1600000x1_S1600000x128_1_0_0_1_wf := rfl

theorem scatterColRec_eq : scatter_S100000_S1600000x1_S1600000_n_0_0_1
    = scatterCol 100000 1600000 Facts₀.scatter_S100000_S1600000x1_S1600000_n_0_0_1_wf := rfl

/-! ## The columns of edge numbers are computed once: the later copies are the same operations of the same constants -/

variable (x0 : (⟨S100000x128, .f32⟩ : BufTy).Contents (Elt Ideal)) (x1 x2 : (⟨S1600000, .i32⟩ : BufTy).Contents (Elt Ideal))
  (x3 x4 : (⟨S128x128, .f32⟩ : BufTy).Contents (Elt Ideal)) (x5 : (⟨S128, .f32⟩ : BufTy).Contents (Elt Ideal))
  (x6 x7 : (⟨S128x16, .f32⟩ : BufTy).Contents (Elt Ideal)) (x8 : (⟨S16, .f32⟩ : BufTy).Contents (Elt Ideal))

theorem v31_eq : val_main_v31 (F := Ideal) x1 = val_main_v5 (F := Ideal) x1 := rfl
theorem v12_eq : val_main_v12 (F := Ideal) x2 = val_main_v8 (F := Ideal) x2 := rfl
theorem v34_eq : val_main_v34 (F := Ideal) x2 = val_main_v8 (F := Ideal) x2 := rfl
theorem v38_eq : val_main_v38 (F := Ideal) x2 = val_main_v8 (F := Ideal) x2 := rfl

/-! ## The degree -/

/-- The splat of the pattern of 1.0 reads 1 everywhere. -/
theorem oneFill_apply {s : Shape} (h : (⟨0, ![]⟩ : Shape).BroadcastsInDim s (![] : Fin 0 → Fin s.rank)) (i : s.Idx) :
    broadcastInDim s ![] h (constant (F := Ideal) ⟨0, ![]⟩ .f32 0x3F800000#32) i = (1 : EReal) :=
  (broadcastInDim_scalar_apply h _ i).trans Ideal.ofBits_one_f32

/-- Ones scatter-added into zeros at the destination numbers, floored at one: the degree. -/
theorem degree_gen (didx : Cert.Sage.EdgeCol) (Z : FVec Ideal S100000 .f32) (O : FVec Ideal S1600000 .f32)
    (One : FVec Ideal S100000 .f32) (hZ : ∀ i, Z i = (0 : EReal)) (hO : ∀ i, O i = (1 : EReal))
    (hOne : ∀ i, One i = (1 : EReal)) (n : Fin 100000) :
    maximumf (Host.scatterAdd scatter_S100000_S1600000x1_S1600000_n_0_0_1 Z didx O) One (ix1 n)
      = Cert.Sage.degree didx n := by
  show max (Host.scatterAdd scatter_S100000_S1600000x1_S1600000_n_0_0_1 Z didx O (ix1 n)) (One (ix1 n)) = _
  rw [hOne]
  refine congrArg (fun t => max t (1 : EReal)) ?_
  refine (scatterAddCol_apply Facts₀.scatter_S100000_S1600000x1_S1600000_n_0_0_1_wf Z didx O n).trans ?_
  rw [hZ]
  exact congrArg (fun t => (0 : EReal) + t) (Finset.sum_congr rfl fun e _ => hO _)

theorem degree_read (n : Fin 100000) :
    val_main_v15 (F := Ideal) x2 (ix1 n) = Cert.Sage.degree (val_main_v8 (F := Ideal) x2) n :=
  degree_gen (val_main_v8 (F := Ideal) x2) _ _ _ (fun i => DenseRead.zeroFill_apply Facts₀.bcast_S_S100000 i)
    (fun i => oneFill_apply Facts₀.bcast_S_S1600000 i) (fun i => oneFill_apply Facts₀.bcast_S_S100000 i) n

theorem v41_eq : val_main_v41 (F := Ideal) x2 = val_main_v15 (F := Ideal) x2 := rfl

/-! ## The neighbour sum -/

/-- Rows gathered at the source numbers and scatter-added into zeros at the destination numbers: the neighbour sum. -/
theorem nsum_gen (X : FVec Ideal S100000x128 .f32) (Z : FVec Ideal S100000x128 .f32) (hZ : ∀ i, Z i = (0 : EReal))
    (sidx didx : Cert.Sage.EdgeCol) (n : Fin 100000) (k : Fin 128) :
    Host.scatterAdd scatter_S100000x128_S1600000x1_S1600000x128_1_0_0_1 Z didx
        (Host.gather gather_S100000x128_S1600000x1_S1600000x128_1_0_n_n_0_1_1128 X sidx) (ix2 n k)
      = Cert.Sage.nsum (fun n k => X (ix2 n k)) sidx didx n k := by
  refine (hostScatterAddRows_apply Facts₀.scatter_S100000x128_S1600000x1_S1600000x128_1_0_0_1_wf Z didx _ n k).trans ?_
  rw [hZ]
  refine congrArg (fun t => (0 : EReal) + t) (Finset.sum_congr rfl fun e _ => ?_)
  exact gatherRows_apply Facts₀.gather_S100000x128_S1600000x1_S1600000x128_1_0_n_n_0_1_1128_wf sidx e k
    Cert.Sage.nodes_pos X

theorem nsum1_read (n : Fin 100000) (k : Fin 128) :
    val_main_v9 (F := Ideal) x0 x1 x2 (ix2 n k)
      = Cert.Sage.nsum (fun n k => x0 (ix2 n k)) (val_main_v5 (F := Ideal) x1) (val_main_v8 (F := Ideal) x2) n k :=
  nsum_gen x0 _ (fun i => DenseRead.zeroFill_apply Facts₀.bcast_S_S100000x128 i) _ _ n k

theorem nsum2_read (n : Fin 100000) (k : Fin 128) :
    val_main_v35 (F := Ideal) x0 x1 x2 x3 x4 x5 (ix2 n k)
      = Cert.Sage.nsum (fun n k => val_main_v25 (F := Ideal) x0 x1 x2 x3 x4 x5 (ix2 n k))
          (val_main_v5 (F := Ideal) x1) (val_main_v8 (F := Ideal) x2) n k :=
  nsum_gen (val_main_v25 (F := Ideal) x0 x1 x2 x3 x4 x5) _ (fun i => DenseRead.zeroFill_apply Facts₀.bcast_S_S100000x128 i) _ _ n k

/-! ## The division by the degree -/

/-- Off zero the quotient of extended reals is the product with the inverse. -/
theorem div_of_ne_zero (a d : EReal) (h : d ≠ 0) : Ideal.div a d = a * d⁻¹ := by
  unfold Ideal.div; rw [if_neg h]

/-- The degree kept as a column and spread over the 128 columns reads the degree of the row. -/
theorem v17_read (n : Fin 100000) (k : Fin 128) :
    val_main_v17 (F := Ideal) x2 (ix2 n k) = Cert.Sage.degree (val_main_v8 (F := Ideal) x2) n := by
  rw [val_main_v17_apply, val_main_v16_apply]
  refine Eq.trans (congrArg (val_main_v15 (F := Ideal) x2) ?_) (degree_read x2 n)
  funext a; match a with | ⟨0, _⟩ => rfl

theorem v43_read (n : Fin 100000) (k : Fin 128) :
    val_main_v43 (F := Ideal) x2 (ix2 n k) = Cert.Sage.degree (val_main_v8 (F := Ideal) x2) n := by
  rw [val_main_v43_apply, val_main_v42_apply, v41_eq]
  refine Eq.trans (congrArg (val_main_v15 (F := Ideal) x2) ?_) (degree_read x2 n)
  funext a; match a with | ⟨0, _⟩ => rfl

theorem v18_read (n : Fin 100000) (k : Fin 128) :
    val_main_v18 (F := Ideal) x0 x1 x2 (ix2 n k)
      = Cert.Sage.nsum (fun n k => x0 (ix2 n k)) (val_main_v5 (F := Ideal) x1) (val_main_v8 (F := Ideal) x2) n k
          * (Cert.Sage.degree (val_main_v8 (F := Ideal) x2) n)⁻¹ := by
  rw [val_main_v18_apply, v17_read, nsum1_read]
  exact div_of_ne_zero _ _ (Cert.Sage.degree_ne_zero _ _)

theorem v44_read (n : Fin 100000) (k : Fin 128) :
    val_main_v44 (F := Ideal) x0 x1 x2 x3 x4 x5 (ix2 n k)
      = Cert.Sage.nsum (fun n k => val_main_v25 (F := Ideal) x0 x1 x2 x3 x4 x5 (ix2 n k))
          (val_main_v5 (F := Ideal) x1) (val_main_v8 (F := Ideal) x2) n k
          * (Cert.Sage.degree (val_main_v8 (F := Ideal) x2) n)⁻¹ := by
  rw [val_main_v44_apply, v43_read, nsum2_read]
  exact div_of_ne_zero _ _ (Cert.Sage.degree_ne_zero _ _)

/-! ## Layer 1 -/

theorem v19_read (n : Fin 100000) (j : Fin 128) :
    val_main_v19 (F := Ideal) x0 x3 (ix2 n j) = ∑ k : Fin 128, x0 (ix2 n k) * x3 (ix2 k j) := by
  rw [val_main_v19_apply]
  refine Finset.sum_congr rfl fun k _ => ?_
  refine congrArg₂ (· * ·) (congrArg x0 ?_) (congrArg x3 ?_)
  · funext a; match a with
    | ⟨0, _⟩ => rfl
    | ⟨1, _⟩ => rfl
  · funext a; match a with
    | ⟨0, _⟩ => rfl
    | ⟨1, _⟩ => rfl

theorem v20_read (n : Fin 100000) (j : Fin 128) :
    val_main_v20 (F := Ideal) x0 x1 x2 x4 (ix2 n j)
      = ∑ k : Fin 128, (Cert.Sage.nsum (fun n k => x0 (ix2 n k)) (val_main_v5 (F := Ideal) x1) (val_main_v8 (F := Ideal) x2) n k
          * (Cert.Sage.degree (val_main_v8 (F := Ideal) x2) n)⁻¹) * x4 (ix2 k j) := by
  rw [val_main_v20_apply]
  refine Finset.sum_congr rfl fun k _ => ?_
  refine congrArg₂ (· * ·) (Eq.trans (congrArg (val_main_v18 (F := Ideal) x0 x1 x2) ?_) (v18_read x0 x1 x2 n k)) (congrArg x4 ?_)
  · funext a; match a with
    | ⟨0, _⟩ => rfl
    | ⟨1, _⟩ => rfl
  · funext a; match a with
    | ⟨0, _⟩ => rfl
    | ⟨1, _⟩ => rfl

theorem v23_read (n : Fin 100000) (j : Fin 128) : val_main_v23 (F := Ideal) x5 (ix2 n j) = x5 (ix1 j) :=
  DenseRead.biasRows_apply x5 Facts₀.bcast_S128_S1x128_1 Facts₀.bcast_S1x128_S100000x128_0_1 n j

theorem hidden_read (n : Fin 100000) (j : Fin 128) :
    val_main_v25 (F := Ideal) x0 x1 x2 x3 x4 x5 (ix2 n j)
      = Cert.Sage.hidden x0 (val_main_v5 (F := Ideal) x1) (val_main_v8 (F := Ideal) x2) x3 x4 x5 n j := by
  rw [val_main_v25_apply, val_main_v24_apply, val_main_v21_apply, v19_read, v20_read, v23_read,
    show val_main_call0_v0 (F := Ideal) (ix2 n j) = (0 : EReal) from DenseRead.zeroFill_apply Facts₀.bcast_S_S100000x128 _]
  rfl

/-! ## Layer 2: the logits, the neighbour term aggregated before it is projected -/

theorem v45_read (n : Fin 100000) (c : Fin 16) :
    val_main_v45 (F := Ideal) x0 x1 x2 x3 x4 x5 x6 (ix2 n c)
      = ∑ k : Fin 128, val_main_v25 (F := Ideal) x0 x1 x2 x3 x4 x5 (ix2 n k) * x6 (ix2 k c) := by
  rw [val_main_v45_apply]
  refine Finset.sum_congr rfl fun k _ => ?_
  refine congrArg₂ (· * ·) (congrArg (val_main_v25 (F := Ideal) x0 x1 x2 x3 x4 x5) ?_) (congrArg x6 ?_)
  · funext a; match a with
    | ⟨0, _⟩ => rfl
    | ⟨1, _⟩ => rfl
  · funext a; match a with
    | ⟨0, _⟩ => rfl
    | ⟨1, _⟩ => rfl

theorem v46_read (n : Fin 100000) (c : Fin 16) :
    val_main_v46 (F := Ideal) x0 x1 x2 x3 x4 x5 x7 (ix2 n c)
      = ∑ k : Fin 128, (Cert.Sage.nsum (fun n k => val_main_v25 (F := Ideal) x0 x1 x2 x3 x4 x5 (ix2 n k))
          (val_main_v5 (F := Ideal) x1) (val_main_v8 (F := Ideal) x2) n k
          * (Cert.Sage.degree (val_main_v8 (F := Ideal) x2) n)⁻¹) * x7 (ix2 k c) := by
  rw [val_main_v46_apply]
  refine Finset.sum_congr rfl fun k _ => ?_
  refine congrArg₂ (· * ·) (Eq.trans (congrArg (val_main_v44 (F := Ideal) x0 x1 x2 x3 x4 x5) ?_)
    (v44_read x0 x1 x2 x3 x4 x5 n k)) (congrArg x7 ?_)
  · funext a; match a with
    | ⟨0, _⟩ => rfl
    | ⟨1, _⟩ => rfl
  · funext a; match a with
    | ⟨0, _⟩ => rfl
    | ⟨1, _⟩ => rfl

theorem v49_read (n : Fin 100000) (c : Fin 16) : val_main_v49 (F := Ideal) x8 (ix2 n c) = x8 (ix1 c) :=
  DenseRead.biasRows_apply x8 Facts₀.bcast_S16_S1x16_1 Facts₀.bcast_S1x16_S100000x16_0_1 n c

/-- The logits over the program's own layer-1 array. -/
theorem logits_read' (n : Fin 100000) (c : Fin 16) :
    val_main_v50 (F := Ideal) x0 x1 x2 x3 x4 x5 x6 x7 x8 (ix2 n c)
      = Cert.Sage.logitsAggFirst (fun n k => val_main_v25 (F := Ideal) x0 x1 x2 x3 x4 x5 (ix2 n k))
          (val_main_v5 (F := Ideal) x1) (val_main_v8 (F := Ideal) x2) x6 x7 x8 n c := by
  rw [val_main_v50_apply, val_main_v47_apply, v45_read, v46_read, v49_read]
  rfl

/-- The program's layer-1 array is the layer-1 function. -/
theorem hidden_fun :
    (fun (n : Fin 100000) (k : Fin 128) => val_main_v25 (F := Ideal) x0 x1 x2 x3 x4 x5 (ix2 n k))
      = Cert.Sage.hidden x0 (val_main_v5 (F := Ideal) x1) (val_main_v8 (F := Ideal) x2) x3 x4 x5 :=
  funext fun n => funext fun k => hidden_read x0 x1 x2 x3 x4 x5 n k

theorem logits_read (n : Fin 100000) (c : Fin 16) :
    val_main_v50 (F := Ideal) x0 x1 x2 x3 x4 x5 x6 x7 x8 (ix2 n c)
      = Cert.Sage.logitsAggFirst
          (Cert.Sage.hidden x0 (val_main_v5 (F := Ideal) x1) (val_main_v8 (F := Ideal) x2) x3 x4 x5)
          (val_main_v5 (F := Ideal) x1) (val_main_v8 (F := Ideal) x2) x6 x7 x8 n c := by
  rw [logits_read', hidden_fun]

/-! ## The log-softmax -/

/-- The pattern of -∞ denotes ⊥. -/
theorem ofBits_negInf_f32 : Ideal.ofBits .f32 0xFF800000#32 = (⊥ : EReal) := by
  simp [Ideal.ofBits, Ideal.ieee]

/-- The host's reduction with a maximum body over the columns of a rank-2 array, at row i: the fold of max from the
    initial value over the row. -/
theorem hostMax2_row_apply {a b : Nat} (x : FVec Ideal (⟨2, ![a, b]⟩ : Shape) .f32) (init : FVec Ideal (⟨0, ![]⟩ : Shape) .f32)
    (h' : (⟨2, ![a, b]⟩ : Shape).ReducesTo [1] (⟨1, ![a]⟩ : Shape)) (hu : 0 < (⟨0, ![]⟩ : Shape).numel) (i : Fin a) :
    Host.reduce FloatOps.maximumf x init h' hu (ix1 i)
      = (Finset.univ : Finset (Fin b)).fold max (init (Shape.Idx.first hu)) fun k => x (ix2 i k) := by
  have h : (⟨2, ![a, b]⟩ : Shape).Reduces [1] (⟨1, ![a]⟩ : Shape) := ⟨h'.1, Nat.zero_lt_one, h'.2⟩
  refine (Host.reduce_eq_fold_single FloatOps.maximumf x init h' h hu (ix1 i)).trans ?_
  have hf : (x ∘ h.lift (ix1 i)) = fun k : Fin b => x (ix2 i k) :=
    funext fun k => congrArg x (Cert.AxisReads.lift2_axis1 h i k)
  exact congrArg (fun f => Finset.fold max (init (Shape.Idx.first hu)) f (Finset.univ : Finset (Fin b))) hf

/-- The row maximum the program subtracts: the largest entry of the row of logits. -/
theorem v4_read (n : Fin 100000) (c : Fin 16) :
    val_main_call1_v4 (F := Ideal) x0 x1 x2 x3 x4 x5 x6 x7 x8 (ix2 n c)
      = Cert.Sage.rowTop fun c' => val_main_v50 (F := Ideal) x0 x1 x2 x3 x4 x5 x6 x7 x8 (ix2 n c') := by
  rw [val_main_call1_v4_apply, val_main_call1_v3_apply]
  have hi : idx_main_call1_v3 (idx_main_call1_v4 (ix2 n c : S100000x16.Idx)) = (ix1 n : S100000.Idx) := by
    funext a; match a with | ⟨0, _⟩ => rfl
  rw [hi, val_main_call1_v2_apply]
  have h1 : val_main_call1_v1 (F := Ideal) (ix1 n) = (⊥ : EReal) :=
    (broadcastInDim_scalar_apply Facts₀.bcast_S_S100000 _ _).trans ofBits_negInf_f32
  have h0 : val_main_call1_v0 (F := Ideal) x0 x1 x2 x3 x4 x5 x6 x7 x8 (ix1 n)
      = Cert.Sage.rowTop fun c' => val_main_v50 (F := Ideal) x0 x1 x2 x3 x4 x5 x6 x7 x8 (ix2 n c') := by
    unfold val_main_call1_v0
    generalize val_main_v50 (F := Ideal) x0 x1 x2 x3 x4 x5 x6 x7 x8 = y
    refine (hostMax2_row_apply y _ Facts₀.reducesTo_S100000x16_S100000_d1 Facts₀.h_S_ n).trans ?_
    unfold Cert.Sage.rowTop
    exact congrArg (fun t => Finset.fold max t (fun k => y (ix2 n k)) (Finset.univ : Finset (Fin 16))) ofBits_negInf_f32
  rw [h1, h0]
  exact max_eq_right bot_le

/-- The shifted logit. -/
theorem v5_read (n : Fin 100000) (c : Fin 16) :
    val_main_call1_v5 (F := Ideal) x0 x1 x2 x3 x4 x5 x6 x7 x8 (ix2 n c)
      = val_main_v50 (F := Ideal) x0 x1 x2 x3 x4 x5 x6 x7 x8 (ix2 n c)
        - Cert.Sage.rowTop fun c' => val_main_v50 (F := Ideal) x0 x1 x2 x3 x4 x5 x6 x7 x8 (ix2 n c') := by
  rw [val_main_call1_v5_apply, v4_read]
  rfl

/-- The logarithm of the row's sum of exponentials, spread over the row. -/
theorem v10_read (n : Fin 100000) (c : Fin 16) :
    val_main_call1_v10 (F := Ideal) x0 x1 x2 x3 x4 x5 x6 x7 x8 (ix2 n c)
      = Ideal.log (∑ c' : Fin 16, Ideal.exp (val_main_v50 (F := Ideal) x0 x1 x2 x3 x4 x5 x6 x7 x8 (ix2 n c')
          - Cert.Sage.rowTop fun c'' => val_main_v50 (F := Ideal) x0 x1 x2 x3 x4 x5 x6 x7 x8 (ix2 n c''))) := by
  rw [val_main_call1_v10_apply, val_main_call1_v9_apply, val_main_call1_v8_apply]
  have hi : idx_main_call1_v8 (idx_main_call1_v10 (ix2 n c : S100000x16.Idx)) = (ix1 n : S100000.Idx) := by
    funext a; match a with | ⟨0, _⟩ => rfl
  rw [hi, val_main_call1_v7_apply]
  have hz : val_main_call1_cst_1 (F := Ideal) (Shape.Idx.first Facts₀.h_S_) = (0 : EReal) := Ideal.ofBits_zero_f32
  rw [hz, zero_add]
  refine congrArg (fun t => FloatOps.hostUnary (F := Ideal) (φ := .f32) .log t) (Finset.sum_congr rfl fun k _ => ?_)
  have hk : idx_main_call1_v7 (ix1 n : S100000.Idx) k = (ix2 n k : S100000x16.Idx) := by
    funext a; match a with
    | ⟨0, _⟩ => rfl
    | ⟨1, _⟩ => rfl
  rw [hk, val_main_call1_v6_apply, v5_read]
  rfl

/-- **The reference at one entry**: the log-softmax of the row of logits, the logits those of the arrangement that
    aggregates the neighbour term before projecting it, over layer 1 of the argument arrays. -/
theorem ref_entry (x0 : (⟨S100000x128, .f32⟩ : BufTy).Contents (Elt Ideal)) (x1 x2 : (⟨S1600000, .i32⟩ : BufTy).Contents (Elt Ideal))
    (x3 x4 : (⟨S128x128, .f32⟩ : BufTy).Contents (Elt Ideal)) (x5 : (⟨S128, .f32⟩ : BufTy).Contents (Elt Ideal))
    (x6 x7 : (⟨S128x16, .f32⟩ : BufTy).Contents (Elt Ideal)) (x8 : (⟨S16, .f32⟩ : BufTy).Contents (Elt Ideal)) (i : Fin 100000) (c : Fin 16) :
    Cert.ReferenceIdeal.ReadP.val_main_v51 (F := Ideal) x0 x1 x2 x3 x4 x5 x6 x7 x8 (ix2 i c)
      = Cert.Sage.logSoftmax (Cert.Sage.logitsAggFirst
          (Cert.Sage.hidden x0 (Cert.ReferenceIdeal.ReadP.val_main_v5 (F := Ideal) x1) (Cert.ReferenceIdeal.ReadP.val_main_v8 (F := Ideal) x2) x3 x4 x5)
          (Cert.ReferenceIdeal.ReadP.val_main_v5 (F := Ideal) x1) (Cert.ReferenceIdeal.ReadP.val_main_v8 (F := Ideal) x2) x6 x7 x8 i) c := by
  have hrow : (fun c' : Fin 16 => val_main_v50 (F := Ideal) x0 x1 x2 x3 x4 x5 x6 x7 x8 (ix2 i c'))
      = Cert.Sage.logitsAggFirst
          (Cert.Sage.hidden x0 (val_main_v5 (F := Ideal) x1) (val_main_v8 (F := Ideal) x2) x3 x4 x5)
          (val_main_v5 (F := Ideal) x1) (val_main_v8 (F := Ideal) x2) x6 x7 x8 i :=
    funext fun c' => logits_read x0 x1 x2 x3 x4 x5 x6 x7 x8 i c'
  rw [← hrow, val_main_v51_apply, v5_read, v10_read]
  rfl

end Cert.Sage.Ref

end
-- ==== Proof.Law.lean ====
/-
  The algebraic law behind the two arrangements of layer 2, and the finiteness of layer 1.

  Every entry that enters the neighbour term is a real number: the degree is the larger of one and a finite sum of
  ones, hence a real number that is at least one, and its inverse in the extended reals is the inverse in the reals.
  With real entries the neighbour term is the coercion of a real expression, and over the reals projecting each edge's
  row and then averaging equals averaging the rows and then projecting: exchange the two finite sums and pull the
  constant factors out.  Layer 1 is built from real entries by finitely many sums, products and maxima, so it is real.
-/
import proofs.«113011_j20538533609946_2_alg».proof.Proof.Spec

noncomputable section

open scoped BigOperators

namespace Cert.Sage

open Idealize.ShloMosaic Idealize.ShloMosaic.ValueIdx Idealize.ShloMosaic.RowScatter

/-! ### Real numbers inside the extended reals -/

/-- The coercion of a finite sum of reals is the sum of the coercions. -/
theorem coe_finsum {ι : Type*} (s : Finset ι) (f : ι → ℝ) :
    ((∑ a ∈ s, f a : ℝ) : EReal) = ∑ a ∈ s, (f a : EReal) := by
  classical
  induction s using Finset.induction_on with
  | empty => simp
  | insert a s ha ih => rw [Finset.sum_insert ha, Finset.sum_insert ha, EReal.coe_add, ih]

/-- The coercion of the larger of two reals is the larger of the coercions. -/
theorem coe_max_real (r s : ℝ) : ((max r s : ℝ) : EReal) = max (r : EReal) (s : EReal) := by
  rcases le_total r s with h | h
  · rw [max_eq_right h, max_eq_right (EReal.coe_le_coe_iff.mpr h)]
  · rw [max_eq_left h, max_eq_left (EReal.coe_le_coe_iff.mpr h)]

theorem real_zero : ∃ r : ℝ, (0 : EReal) = (r : EReal) := ⟨0, EReal.coe_zero.symm⟩

theorem real_add {a b : EReal} (ha : ∃ r : ℝ, a = (r : EReal)) (hb : ∃ r : ℝ, b = (r : EReal)) :
    ∃ r : ℝ, a + b = (r : EReal) := by
  obtain ⟨r, rfl⟩ := ha
  obtain ⟨s, rfl⟩ := hb
  exact ⟨r + s, (EReal.coe_add r s).symm⟩

theorem real_mul {a b : EReal} (ha : ∃ r : ℝ, a = (r : EReal)) (hb : ∃ r : ℝ, b = (r : EReal)) :
    ∃ r : ℝ, a * b = (r : EReal) := by
  obtain ⟨r, rfl⟩ := ha
  obtain ⟨s, rfl⟩ := hb
  exact ⟨r * s, (EReal.coe_mul r s).symm⟩

theorem real_max {a b : EReal} (ha : ∃ r : ℝ, a = (r : EReal)) (hb : ∃ r : ℝ, b = (r : EReal)) :
    ∃ r : ℝ, max a b = (r : EReal) := by
  obtain ⟨r, rfl⟩ := ha
  obtain ⟨s, rfl⟩ := hb
  exact ⟨max r s, (coe_max_real r s).symm⟩

/-- A finite sum of real numbers is a real number. -/
theorem real_sum {ι : Type*} (s : Finset ι) (f : ι → EReal) (hf : ∀ a ∈ s, ∃ r : ℝ, f a = (r : EReal)) :
    ∃ r : ℝ, ∑ a ∈ s, f a = (r : EReal) := by
  classical
  induction s using Finset.induction_on with
  | empty => exact ⟨0, by simp⟩
  | insert a s ha ih =>
    rw [Finset.sum_insert ha]
    exact real_add (hf a (Finset.mem_insert_self a s)) (ih fun b hb => hf b (Finset.mem_insert_of_mem hb))

/-! ### The degree -/

/-- The degree as a real number: the larger of one and the number of incoming edges. -/
def degreeReal (didx : EdgeCol) (i : Fin 100000) : ℝ :=
  max ((0 : ℝ) + ∑ _e ∈ inEdges didx i, (1 : ℝ)) 1

theorem degree_eq_coe (didx : EdgeCol) (i : Fin 100000) : degree didx i = (degreeReal didx i : EReal) := by
  unfold degree degreeReal
  rw [coe_max_real, EReal.coe_add, EReal.coe_zero, coe_finsum, EReal.coe_one]

/-- The inverse of the degree is the coercion of the inverse of a real number. -/
theorem degree_inv_eq_coe (didx : EdgeCol) (i : Fin 100000) :
    (degree didx i)⁻¹ = (((degreeReal didx i)⁻¹ : ℝ) : EReal) := by
  rw [degree_eq_coe, EReal.coe_inv]

/-! ### The neighbour sum of a real array -/

theorem nsum_real {C : Nat} (X : Fin 100000 → Fin C → EReal) (hX : ∀ n k, ∃ r : ℝ, X n k = (r : EReal))
    (sidx didx : EdgeCol) (i : Fin 100000) (k : Fin C) : ∃ r : ℝ, nsum X sidx didx i k = (r : EReal) := by
  unfold nsum
  exact real_add real_zero (real_sum _ _ fun e _ => hX (srcRow sidx e) k)

/-! ### Layer 1 is real -/

theorem hidden_real (x : (⟨2, ![100000, 128]⟩ : Shape).Idx → EReal) (sidx didx : EdgeCol)
    (ws1 wn1 : (⟨2, ![128, 128]⟩ : Shape).Idx → EReal) (b1 : (⟨1, ![128]⟩ : Shape).Idx → EReal)
    (hx : ∀ p, ∃ r : ℝ, x p = (r : EReal)) (hws1 : ∀ p, ∃ r : ℝ, ws1 p = (r : EReal))
    (hwn1 : ∀ p, ∃ r : ℝ, wn1 p = (r : EReal)) (hb1 : ∀ p, ∃ r : ℝ, b1 p = (r : EReal))
    (i : Fin 100000) (j : Fin 128) : ∃ r : ℝ, hidden x sidx didx ws1 wn1 b1 i j = (r : EReal) := by
  unfold hidden
  refine real_max (real_add (real_add ?_ ?_) (hb1 _)) real_zero
  · exact real_sum _ _ fun k _ => real_mul (hx _) (hws1 _)
  · refine real_sum _ _ fun k _ => real_mul (real_mul ?_ ⟨_, degree_inv_eq_coe didx i⟩) (hwn1 _)
    exact nsum_real (fun n k => x (ix2 n k)) (fun n k => hx _) sidx didx i k

/-! ### Projecting before or after the mean -/

/-- Over the reals: projecting every edge's row and then scaling the sum equals scaling the summed rows and then
    projecting. -/
theorem real_mean_proj {ι κ : Type*} (E : Finset ι) (K : Finset κ) (h : ι → κ → ℝ) (w : κ → ℝ) (d : ℝ) :
    ((0 : ℝ) + ∑ e ∈ E, ∑ k ∈ K, h e k * w k) * d = ∑ k ∈ K, (((0 : ℝ) + ∑ e ∈ E, h e k) * d) * w k := by
  rw [zero_add, Finset.sum_comm, Finset.sum_mul]
  refine Finset.sum_congr rfl fun k _ => ?_
  rw [zero_add, ← Finset.sum_mul]
  ring

/-- The same identity for coercions of reals in the extended reals. -/
theorem ereal_mean_proj {ι κ : Type*} (E : Finset ι) (K : Finset κ) (h : ι → κ → ℝ) (w : κ → ℝ) (d : ℝ) :
    ((0 : EReal) + ∑ e ∈ E, ∑ k ∈ K, (h e k : EReal) * (w k : EReal)) * (d : EReal)
      = ∑ k ∈ K, (((0 : EReal) + ∑ e ∈ E, (h e k : EReal)) * (d : EReal)) * (w k : EReal) := by
  have hreal := congrArg (fun r : ℝ => (r : EReal)) (real_mean_proj E K h w d)
  simpa only [EReal.coe_mul, EReal.coe_add, EReal.coe_zero, coe_finsum] using hreal

theorem logits_eq (H : Fin 100000 → Fin 128 → EReal) (hH : ∀ n k, ∃ r : ℝ, H n k = (r : EReal)) (sidx didx : EdgeCol)
    (ws2 wn2 : (⟨2, ![128, 16]⟩ : Shape).Idx → EReal) (b2 : (⟨1, ![16]⟩ : Shape).Idx → EReal)
    (hwn2 : ∀ p, ∃ r : ℝ, wn2 p = (r : EReal)) (i : Fin 100000) (c : Fin 16) :
    logitsProjFirst H sidx didx ws2 wn2 b2 i c = logitsAggFirst H sidx didx ws2 wn2 b2 i c := by
  choose Hr hHr using hH
  choose wr hwr using hwn2
  have hH' : H = fun n k => (Hr n k : EReal) := funext fun n => funext fun k => hHr n k
  have hw' : wn2 = fun p => (wr p : EReal) := funext hwr
  -- only the neighbour term differs
  have key : nsum (fun n c => ∑ k : Fin 128, H n k * wn2 (ix2 k c)) sidx didx i c * (degree didx i)⁻¹
      = ∑ k : Fin 128, (nsum H sidx didx i k * (degree didx i)⁻¹) * wn2 (ix2 k c) := by
    rw [hH', hw', degree_inv_eq_coe]
    exact ereal_mean_proj (inEdges didx i) Finset.univ (fun e k => Hr (srcRow sidx e) k)
      (fun k => wr (ix2 k c)) (degreeReal didx i)⁻¹
  unfold logitsProjFirst logitsAggFirst
  rw [key]

end Cert.Sage

end
-- ==== Proof.Finite.lean ====
/-
  Finiteness of the inputs, read back from the precondition.

  The precondition is the conjunction, over the seven float arrays, of "every entry x has |x| < +∞",
  each stated as a reduction by `and` (from the constant 1) of the entrywise comparison of |x| with the
  constant whose bit pattern is that of +∞. Over the extended reals |x| = max x (-x), the pattern
  denotes ⊤, and max x (-x) < ⊤ fails exactly at x = ⊤ and x = ⊥; so every entry is a real number.
-/
import proofs.«113011_j20538533609946_2_alg».proof.Pre_finite_inputs
import Idealize.ShloMosaic.PureOps.Ideal
import Idealize.ShloMosaic.PureOps.Ideal.Laws
import Idealize.ShloMosaic.Lib.ReduceAll
import Idealize.ShloMosaic.Lib.ValueIdx
import Idealize.ShloMosaic.Lib.IdealHost

noncomputable section

namespace Cert.Sage

open Idealize.ShloMosaic

/-- The single-precision pattern of +∞ denotes ⊤. -/
theorem ofBits_posInf_f32 : Ideal.ofBits .f32 0x7F800000#32 = (⊤ : EReal) := by
  simp [Ideal.ofBits, Ideal.ieee]

/-- An extended real whose absolute value max x (-x) is strictly below ⊤ is a real number:
    at ⊤ the maximum is ⊤, at ⊥ it is -⊥ = ⊤. -/
theorem real_of_abs_lt_top (x : EReal) (h : Ideal.cmp .olt (max x (-x)) (⊤ : EReal) = 1#1) :
    ∃ r : ℝ, x = (r : EReal) := by
  induction x using EReal.rec with
  | bot => simp [Ideal.cmp] at h
  | coe r => exact ⟨r, rfl⟩
  | top => simp [Ideal.cmp] at h

/-- The rank-0 shape has one index. -/
instance subsingleton_scalarIdx : Subsingleton Cert.Pre_finite_inputs.S_.Idx :=
  ⟨fun a b => funext fun d => d.elim0⟩

/-- One `all (|a| < +∞)`, for an array of any shape: if the reduction by `and` of the entrywise comparison
    of |a| with the broadcast +∞ constant is 1, then every entry of `a` is a real number. -/
theorem real_of_all_abs_lt_inf {s : Shape} {axes : List (Fin s.rank)} (a : FVec Ideal s .f32)
    (hb : Cert.Pre_finite_inputs.S_.BroadcastsInDim s (![] : Fin 0 → Fin s.rank))
    (hr : s.ReducesTo axes Cert.Pre_finite_inputs.S_) (hu : 0 < Cert.Pre_finite_inputs.S_.numel)
    (init : IVec Cert.Pre_finite_inputs.S_ 1)
    (h : Host.reduce IntOp.andi
          (cmpf .olt (Host.absf a)
            (broadcastInDim s ![] hb (constant (F := Ideal) Cert.Pre_finite_inputs.S_ .f32 0x7F800000#32)))
          init hr hu ValueIdx.ix0 = 1#1)
    (p : s.Idx) : ∃ r : ℝ, a p = (r : EReal) := by
  have hp := Host.reduce_andi_all _ init hr hu ValueIdx.ix0 h p
  refine real_of_abs_lt_top (a p) ?_
  rw [← ofBits_posInf_f32]
  exact hp

open Cert.Pre_finite_inputs in
/-- Every entry of each of the seven float inputs is a real number when the precondition holds. -/
theorem real_of_finite_inputs [Cert.Pre_finite_inputs.Facts]
    (a0 : FVec Ideal S100000x128 .f32) (a1 a2 : IVec S1600000 32)
    (a3 a4 : FVec Ideal S128x128 .f32) (a5 : FVec Ideal S128 .f32)
    (a6 a7 : FVec Ideal S128x16 .f32) (a8 : FVec Ideal S16 .f32)
    (h : Cert.Pre_finite_inputs.fn (F := Ideal) a0 a1 a2 a3 a4 a5 a6 a7 a8 = fun _ => 1#1) :
    (∀ p, ∃ r : ℝ, a0 p = (r : EReal)) ∧ (∀ p, ∃ r : ℝ, a3 p = (r : EReal)) ∧ (∀ p, ∃ r : ℝ, a4 p = (r : EReal))
      ∧ (∀ p, ∃ r : ℝ, a5 p = (r : EReal)) ∧ (∀ p, ∃ r : ℝ, a6 p = (r : EReal)) ∧ (∀ p, ∃ r : ℝ, a7 p = (r : EReal))
      ∧ (∀ p, ∃ r : ℝ, a8 p = (r : EReal)) := by
  have h0 := congrFun h ValueIdx.ix0
  unfold Cert.Pre_finite_inputs.fn Cert.Pre_finite_inputs.fn_part1 at h0
  dsimp only at h0
  -- the pointwise `and` of rank-0 arrays, read at the one index, is the `and` of the words
  obtain ⟨h0, e8⟩ := IntOp.andi_eq_one.1 h0
  obtain ⟨h0, e7⟩ := IntOp.andi_eq_one.1 h0
  obtain ⟨h0, e6⟩ := IntOp.andi_eq_one.1 h0
  obtain ⟨h0, e5⟩ := IntOp.andi_eq_one.1 h0
  obtain ⟨h0, e4⟩ := IntOp.andi_eq_one.1 h0
  obtain ⟨e0, e3⟩ := IntOp.andi_eq_one.1 h0
  exact ⟨real_of_all_abs_lt_inf a0 _ _ _ _ e0, real_of_all_abs_lt_inf a3 _ _ _ _ e3,
    real_of_all_abs_lt_inf a4 _ _ _ _ e4, real_of_all_abs_lt_inf a5 _ _ _ _ e5,
    real_of_all_abs_lt_inf a6 _ _ _ _ e6, real_of_all_abs_lt_inf a7 _ _ _ _ e7,
    real_of_all_abs_lt_inf a8 _ _ _ _ e8⟩

end Cert.Sage

end
-- ==== Proof.Bridge.lean ====
/-
  The two arrangements of layer 2 agree on finite inputs, and the one that aggregates first is the reference.

  Under the precondition every float input is a real number.  Layer 1 is then real, so projecting each edge's row
  before averaging equals averaging before projecting; the log-softmax of equal rows is equal; and the reference's
  result at an entry is the log-softmax of the row of logits of the arrangement that aggregates first.  The two columns
  of edge numbers are the same words in both programs.
-/
import proofs.«113011_j20538533609946_2_alg».proof.Proof.RefValue
import proofs.«113011_j20538533609946_2_alg».proof.Proof.Law
import proofs.«113011_j20538533609946_2_alg».proof.Proof.Finite
import proofs.«113011_j20538533609946_2_alg».proof.Proof.KHostDefs
import proofs.«113011_j20538533609946_2_alg».proof.Proof.Gen.Pre_finite_inputs

noncomputable section

namespace Cert.Sage

open Idealize.ShloMosaic Idealize.ShloMosaic.ValueIdx

/-- The source column: a negative number moved up by the node count, kept as a column, in both programs. -/
theorem srcCol_eq (x1 : (⟨Cert.KernelIdeal.S1600000, .i32⟩ : BufTy).Contents (Elt Ideal)) :
    Cert.ReferenceIdeal.ReadP.val_main_v5 (F := Ideal) x1 = Cert.KernelIdeal.KV.srcCol x1 := rfl

/-- The destination column: the numbers as given, kept as a column, in both programs. -/
theorem dstCol_eq (x2 : (⟨Cert.KernelIdeal.S1600000, .i32⟩ : BufTy).Contents (Elt Ideal)) :
    Cert.ReferenceIdeal.ReadP.val_main_v8 (F := Ideal) x2 = Cert.KernelIdeal.KV.dstCol x2 := rfl

theorem bridge (x0 : (⟨Cert.KernelIdeal.S100000x128, .f32⟩ : BufTy).Contents (Elt Ideal)) (x1 x2 : (⟨Cert.KernelIdeal.S1600000, .i32⟩ : BufTy).Contents (Elt Ideal))
    (x3 x4 : (⟨Cert.KernelIdeal.S128x128, .f32⟩ : BufTy).Contents (Elt Ideal)) (x5 : (⟨Cert.KernelIdeal.S128, .f32⟩ : BufTy).Contents (Elt Ideal))
    (x6 x7 : (⟨Cert.KernelIdeal.S128x16, .f32⟩ : BufTy).Contents (Elt Ideal)) (x8 : (⟨Cert.KernelIdeal.S16, .f32⟩ : BufTy).Contents (Elt Ideal))
    (h : Cert.Pre_finite_inputs.fn (F := Ideal) x0 x1 x2 x3 x4 x5 x6 x7 x8 = fun _ => 1#1) (i : Fin 100000) (cc : Fin 16) :
    logSoftmax (logitsProjFirst (hidden x0 (Cert.KernelIdeal.KV.srcCol x1) (Cert.KernelIdeal.KV.dstCol x2) x3 x4 x5)
        (Cert.KernelIdeal.KV.srcCol x1) (Cert.KernelIdeal.KV.dstCol x2) x6 x7 x8 i) cc
      = Cert.ReferenceIdeal.ReadP.val_main_v51 (F := Ideal) x0 x1 x2 x3 x4 x5 x6 x7 x8 (ValueIdx.ix2 i cc) := by
  obtain ⟨h0, h3, h4, h5, h6, h7, h8⟩ := real_of_finite_inputs x0 x1 x2 x3 x4 x5 x6 x7 x8 h
  have hH : ∀ n k, ∃ r : ℝ,
      hidden x0 (Cert.KernelIdeal.KV.srcCol x1) (Cert.KernelIdeal.KV.dstCol x2) x3 x4 x5 n k = (r : EReal) :=
    fun n k => hidden_real x0 _ _ x3 x4 x5 h0 h3 h4 h5 n k
  have hrow : logitsProjFirst (hidden x0 (Cert.KernelIdeal.KV.srcCol x1) (Cert.KernelIdeal.KV.dstCol x2) x3 x4 x5)
        (Cert.KernelIdeal.KV.srcCol x1) (Cert.KernelIdeal.KV.dstCol x2) x6 x7 x8 i
      = logitsAggFirst (hidden x0 (Cert.KernelIdeal.KV.srcCol x1) (Cert.KernelIdeal.KV.dstCol x2) x3 x4 x5)
        (Cert.KernelIdeal.KV.srcCol x1) (Cert.KernelIdeal.KV.dstCol x2) x6 x7 x8 i :=
    funext fun c' => logits_eq _ hH _ _ x6 x7 x8 h7 i c'
  refine (congrArg (fun a => logSoftmax a cc) hrow).trans ?_
  rw [← srcCol_eq x1, ← dstCol_eq x2]
  exact (Cert.Sage.Ref.ref_entry x0 x1 x2 x3 x4 x5 x6 x7 x8 i cc).symm

end Cert.Sage

end
-- ==== Proof.lean ====
/-
  The certificate of a two-layer mean-aggregating graph convolution with a log-softmax head.

  The kernel computes each layer's dense part in a pipelined call over blocks of 4000 nodes and leaves the edge
  traffic (gathering source rows, summing them at destination rows) to the host. For the second layer it moves the
  neighbour weights across the mean: it projects the first layer to 16 features inside the first call, and the host
  aggregates the projected rows; the reference aggregates the 128-wide first layer and projects afterwards. It also
  multiplies by a precomputed inverse degree where the reference divides by the degree.

  At the extended reals the two agree entry by entry when the float inputs are finite:
    * the degree is the larger of 1 and a count, a positive real, so a · (1 / d) = a / d;
    * with real inputs the first layer is real, and for real arrays the sum over a node's incoming edges of the
      projected rows, divided by the degree, is the projection of the divided sum (linearity of finite sums);
    * both programs then apply the same row-wise log-softmax to equal logits.
  The three frames: the two kernel programs by the generated frame certificates; the reference by its run with the
  result dropped. Nothing was rewritten by the idealization, so there is nothing to preserve.
-/
import proofs.«113011_j20538533609946_2_alg».proof.Defs
import proofs.«113011_j20538533609946_2_alg».proof.Proof.Gen.Kernel.Frame
import proofs.«113011_j20538533609946_2_alg».proof.Proof.Gen.KernelIdeal.Frame
import proofs.«113011_j20538533609946_2_alg».proof.Proof.Gen.ReferenceIdeal
import proofs.«113011_j20538533609946_2_alg».proof.Proof.Gen.Pre_finite_inputs
import proofs.«113011_j20538533609946_2_alg».proof.Proof.KRun
import proofs.«113011_j20538533609946_2_alg».proof.Proof.KValue
import proofs.«113011_j20538533609946_2_alg».proof.Proof.Bridge
import proofs.«113011_j20538533609946_2_alg».proof.Proof.RefRunP

noncomputable section

namespace Cert.Proof

open Idealize.ShloMosaic Idealize.ShloMosaic.TcCoe Idealize.ShloMosaic.ValueIdx Idealize.SL.Sem

theorem frame_kernel : Cert.frame_Kernel := fun m ρ _ => Cert.Kernel.Gen.frame m ρ

theorem frame_kernelIdeal : Cert.frame_KernelIdeal := fun m ρ _ => Cert.KernelIdeal.Gen.frame m ρ

/-- The reference's frame is its run with the result dropped. -/
theorem frame_reference : Cert.frame_ReferenceIdeal := fun m ρ _ =>
  (θ_run Cert.ReferenceIdeal.defs _ _).mono (fun _ h c => (h c).2) (Cert.ReferenceIdeal.ValueP.run (F := Ideal) m ρ)

theorem preserves : Cert.preserves_Kernel_KernelIdeal := trivial

/-- From memories agreeing on the arguments both idealized programs run; the kernel's result array is the last
    boundary's contents at the result's buffer, and the reference's last stage, read at any entry, is that array's
    entry: the kernel's entry is the log-softmax of the logits projected first, which under the precondition is the
    reference's last stage. -/
theorem algebraic : Cert.algebraic_KernelIdeal_ReferenceIdeal := by
  intro m ρ m' ρ' hpre hagree
  refine ⟨fun c => Cert.KernelIdeal.Gen.W4 m ρ c (Proc.devRef .tc Cert.KernelIdeal.main_v32),
    Cert.KernelIdeal.KV.run_result m ρ, ?_⟩
  refine (θ_run Cert.ReferenceIdeal.defs _ _).mono (fun _ h c => ⟨(h c).1.trans ?_, (h c).2⟩)
    (Cert.ReferenceIdeal.ValueP.run (F := Ideal) m' ρ')
  obtain ⟨h0, h1, h2, h3, h4, h5, h6, h7, h8⟩ := hagree c
  rw [h0, h1, h2, h3, h4, h5, h6, h7, h8]
  funext idx
  obtain ⟨i, cc, rfl⟩ : ∃ (i : Fin 100000) (cc : Fin 16), idx = ix2 i cc := ⟨idx 0, idx 1, eq_ix2 idx⟩
  exact ((Cert.KernelIdeal.KV.kernel_entry m ρ c i cc).trans
    (Cert.Sage.bridge (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (hpre c) i cc)).symm

theorem claim : Cert.Claim :=
  ⟨Cert.Kernel.Gen.facts, Cert.KernelIdeal.Gen.facts, Cert.ReferenceIdeal.Gen.facts, Cert.Pre_finite_inputs.Gen.facts,
    frame_kernel, frame_kernelIdeal, frame_reference, preserves, algebraic⟩

end Cert.Proof

end
